-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60000x128 : Shape := ⟨2, ![60000, 128]⟩
abbrev S2x960000 : Shape := ⟨2, ![2, 960000]⟩
abbrev S128x512 : Shape := ⟨2, ![128, 512]⟩
abbrev S512 : Shape := ⟨1, ![512]⟩
abbrev S512x512 : Shape := ⟨2, ![512, 512]⟩
abbrev S1024x2048 : Shape := ⟨2, ![1024, 2048]⟩
abbrev S2048 : Shape := ⟨1, ![2048]⟩
abbrev S2048x4096 : Shape := ⟨2, ![2048, 4096]⟩
abbrev S4096 : Shape := ⟨1, ![4096]⟩
abbrev S4096x2048 : Shape := ⟨2, ![4096, 2048]⟩
abbrev S2048x64 : Shape := ⟨2, ![2048, 64]⟩
abbrev S64 : Shape := ⟨1, ![64]⟩
abbrev S_ : Shape := ⟨0, ![]⟩

class Facts : Prop where
  bcast_S_S60000x128 : S_.BroadcastsInDim S60000x128 (![] : Fin 0 → Fin S60000x128.rank)
  reducesTo_S60000x128_S_d0_1 : S60000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_
  bcast_S_S4096x2048 : S_.BroadcastsInDim S4096x2048 (![] : Fin 0 → Fin S4096x2048.rank)
  reducesTo_S4096x2048_S_d0_1 : S4096x2048.ReducesTo [0, 1] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_

variable [Facts]

def fn_part7 {F : FTy → Type} [FloatOps F] (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  main_v123

def fn_part6 {F : FTy → Type} [FloatOps F] (main_arg22 : FVec F S4096x2048 .f32) (main_arg23 : FVec F S2048 .f32) (main_arg24 : FVec F S2048x64 .f32) (main_arg25 : FVec F S64 .f32) (main_v98 : IVec S_ 1) (main_v101 : IVec S4096 1) (main_c_39 : IVec S_ 1) : IVec S_ 1 :=
  let main_v102 : IVec S_ 1 := (fun x v => Host.reduce IntOp.andi x v reducesTo_S4096_S_d0 h_S_) main_v101 main_c_39
  let main_v103 : IVec S_ 1 := andi main_v98 main_v102
  let main_v104 : FVec F S4096x2048 .f32 := Host.absf main_arg22
  let main_cst_40 : FVec F S_ .f32 := constant S_ .f32 0x7F800000#32
  let main_v105 : FVec F S4096x2048 .f32 := broadcastInDim S4096x2048 ![] bcast_S_S4096x2048 main_cst_40
  let main_v106 : IVec S4096x2048 1 := cmpf .olt main_v104 main_v105
  let main_c_41 : IVec S_ 1 := constantI S_ 1 1#1
  let main_v107 : IVec S_ 1 := (fun x v => Host.reduce IntOp.andi x v reducesTo_S4096x2048_S_d0_1 h_S_) main_v106 main_c_41
  let main_v108 : IVec S_ 1 := andi main_v103 main_v107
  let main_v109 : FVec F S2048 .f32 := Host.absf main_arg23
  let main_cst_42 : FVec F S_ .f32 := constant S_ .f32 0x7F800000#32
  let main_v110 : FVec F S2048 .f32 := broadcastInDim S2048 ![] bcast_S_S2048 main_cst_42
  let main_v111 : IVec S2048 1 := cmpf .olt main_v109 main_v110
  let main_c_43 : IVec S_ 1 := constantI S_ 1 1#1
  let main_v112 : IVec S_ 1 := (fun x v => Host.reduce IntOp.andi x v reducesTo_S2048_S_d0 h_S_) main_v111 main_c_43
  let main_v113 : IVec S_ 1 := andi main_v108 main_v112
  let main_v114 : FVec F S2048x64 .f32 := Host.absf main_arg24
  let main_cst_44 : FVec F S_ .f32 := constant S_ .f32 0x7F800000#32
  let main_v115 : FVec F S2048x64 .f32 := broadcastInDim S2048x64 ![] bcast_S_S2048x64 main_cst_44
  let main_v116 : IVec S2048x64 1 := cmpf .olt main_v114 main_v115
  let main_c_45 : IVec S_ 1 := constantI S_ 1 1#1
  let main_v117 : IVec S_ 1 := (fun x v => Host.reduce IntOp.andi x v reducesTo_S2048x64_S_d0_1 h_S_) main_v116 main_c_45
  let main_v118 : IVec S_ 1 := andi main_v113 main_v117
  let main_v119 : FVec F S64 .f32 := Host.absf main_arg25
  fn_part7 (F := F) main_v118 main_v119

def fn_part5 {F : FTy → Type} [FloatOps F] (main_arg19 : FVec F S2048 .f32) (main_arg20 : FVec F S2048x4096 .f32) (main_arg21 : FVec F S4096 .f32) (main_arg22 : FVec F S4096x2048 .f32) (main_arg23 : FVec F S2048 .f32) (main_arg24 : FVec F S2048x64 .f32) (main_arg25 : FVec F S64 .f32) (main_v83 : IVec S_ 1) (main_v84 : FVec F S1024x2048 .f32) (main_cst_32 : FVec F S_ .f32) : IVec S_ 1 :=
  let main_v85 : FVec F S1024x2048 .f32 := broadcastInDim S1024x2048 ![] bcast_S_S1024x2048 main_cst_32
  let main_v86 : IVec S1024x2048 1 := cmpf .olt main_v84 main_v85
  let main_c_33 : IVec S_ 1 := constantI S_ 1 1#1
  let main_v87 : IVec S_ 1 := (fun x v => Host.reduce IntOp.andi x v reducesTo_S1024x2048_S_d0_1 h_S_) main_v86 main_c_33
  let main_v88 : IVec S_ 1 := andi main_v83 main_v87
  let main_v89 : FVec F S2048 .f32 := Host.absf main_arg19
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  let main_v94 : FVec F S2048x4096 .f32 := Host.absf main_arg20
  let main_cst_36 : FVec F S_ .f32 := constant S_ .f32 0x7F800000#32
  let main_v95 : FVec F S2048x4096 .f32 := broadcastInDim S2048x4096 ![] bcast_S_S2048x4096 main_cst_36
  let main_v96 : IVec S2048x4096 1 := cmpf .olt main_v94 main_v95
  let main_c_37 : IVec S_ 1 := constantI S_ 1 1#1
  let main_v97 : IVec S_ 1 := (fun x v => Host.reduce IntOp.andi x v reducesTo_S2048x4096_S_d0_1 h_S_) main_v96 main_c_37
  let main_v98 : IVec S_ 1 := andi main_v93 main_v97
  let main_v99 : FVec F S4096 .f32 := Host.absf main_arg21
  let main_cst_38 : FVec F S_ .f32 := constant S_ .f32 0x7F800000#32
  let main_v100 : FVec F S4096 .f32 := broadcastInDim S4096 ![] bcast_S_S4096 main_cst_38
  let main_v101 : IVec S4096 1 := cmpf .olt main_v99 main_v100
  let main_c_39 : IVec S_ 1 := constantI S_ 1 1#1
  fn_part6 (F := F) main_arg22 main_arg23 main_arg24 main_arg25 main_v98 main_v101 main_c_39

def fn_part4 {F : FTy → Type} [FloatOps F] (main_arg15 : FVec F S512 .f32) (main_arg16 : FVec F S512x512 .f32) (main_arg17 : FVec F S512 .f32) (main_arg18 : FVec F S1024x2048 .f32) (main_arg19 : FVec F S2048 .f32) (main_arg20 : FVec F S2048x4096 .f32) (main_arg21 : FVec F S4096 .f32) (main_arg22 : FVec F S4096x2048 .f32) (main_arg23 : FVec F S2048 .f32) (main_arg24 : FVec F S2048x64 .f32) (main_arg25 : FVec F S64 .f32) (main_v63 : IVec S_ 1) (main_v67 : IVec S_ 1) : IVec S_ 1 :=
  let main_v68 : IVec S_ 1 := andi main_v63 main_v67
  let main_v69 : FVec F S512 .f32 := Host.absf main_arg15
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg16
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg17
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S1024x2048 .f32 := Host.absf main_arg18
  let main_cst_32 : FVec F S_ .f32 := constant S_ .f32 0x7F800000#32
  fn_part5 (F := F) main_arg19 main_arg20 main_arg21 main_arg22 main_arg23 main_arg24 main_arg25 main_v83 main_v84 main_cst_32

def fn_part3 {F : FTy → Type} [FloatOps F] (main_arg12 : FVec F S512 .f32) (main_arg13 : FVec F S512 .f32) (main_arg14 : FVec F S512 .f32) (main_arg15 : FVec F S512 .f32) (main_arg16 : FVec F S512x512 .f32) (main_arg17 : FVec F S512 .f32) (main_arg18 : FVec F S1024x2048 .f32) (main_arg19 : FVec F S2048 .f32) (main_arg20 : FVec F S2048x4096 .f32) (main_arg21 : FVec F S4096 .f32) (main_arg22 : FVec F S4096x2048 .f32) (main_arg23 : FVec F S2048 .f32) (main_arg24 : FVec F S2048x64 .f32) (main_arg25 : FVec F S64 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg15 main_arg16 main_arg17 main_arg18 main_arg19 main_arg20 main_arg21 main_arg22 main_arg23 main_arg24 main_arg25 main_v63 main_v67

def fn_part2 {F : FTy → Type} [FloatOps F] (main_arg8 : FVec F S512x512 .f32) (main_arg9 : FVec F S512 .f32) (main_arg10 : FVec F S128x512 .f32) (main_arg11 : FVec F S512 .f32) (main_arg12 : FVec F S512 .f32) (main_arg13 : FVec F S512 .f32) (main_arg14 : FVec F S512 .f32) (main_arg15 : FVec F S512 .f32) (main_arg16 : FVec F S512x512 .f32) (main_arg17 : FVec F S512 .f32) (main_arg18 : FVec F S1024x2048 .f32) (main_arg19 : FVec F S2048 .f32) (main_arg20 : FVec F S2048x4096 .f32) (main_arg21 : FVec F S4096 .f32) (main_arg22 : FVec F S4096x2048 .f32) (main_arg23 : FVec F S2048 .f32) (main_arg24 : FVec F S2048x64 .f32) (main_arg25 : FVec F S64 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S128x512 .f32 := Host.absf main_arg10
  let main_cst_16 : FVec F S_ .f32 := constant S_ .f32 0x7F800000#32
  let main_v45 : FVec F S128x512 .f32 := broadcastInDim S128x512 ![] bcast_S_S128x512 main_cst_16
  let main_v46 : IVec S128x512 1 := cmpf .olt main_v44 main_v45
  let main_c_17 : IVec S_ 1 := constantI S_ 1 1#1
  let main_v47 : IVec S_ 1 := (fun x v => Host.reduce IntOp.andi x v reducesTo_S128x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg5 : FVec F S512 .f32) (main_arg6 : FVec F S512 .f32) (main_arg7 : FVec F S512 .f32) (main_arg8 : FVec F S512x512 .f32) (main_arg9 : FVec F S512 .f32) (main_arg10 : FVec F S128x512 .f32) (main_arg11 : FVec F S512 .f32) (main_arg12 : FVec F S512 .f32) (main_arg13 : FVec F S512 .f32) (main_arg14 : FVec F S512 .f32) (main_arg15 : FVec F S512 .f32) (main_arg16 : FVec F S512x512 .f32) (main_arg17 : FVec F S512 .f32) (main_arg18 : FVec F S1024x2048 .f32) (main_arg19 : FVec F S2048 .f32) (main_arg20 : FVec F S2048x4096 .f32) (main_arg21 : FVec F S4096 .f32) (main_arg22 : FVec F S4096x2048 .f32) (main_arg23 : FVec F S2048 .f32) (main_arg24 : FVec F S2048x64 .f32) (main_arg25 : FVec F S64 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S60000x128 .f32) (main_arg1 : IVec S2x960000 32) (main_arg2 : FVec F S128x512 .f32) (main_arg3 : FVec F S512 .f32) (main_arg4 : FVec F S512 .f32) (main_arg5 : FVec F S512 .f32) (main_arg6 : FVec F S512 .f32) (main_arg7 : FVec F S512 .f32) (main_arg8 : FVec F S512x512 .f32) (main_arg9 : FVec F S512 .f32) (main_arg10 : FVec F S128x512 .f32) (main_arg11 : FVec F S512 .f32) (main_arg12 : FVec F S512 .f32) (main_arg13 : FVec F S512 .f32) (main_arg14 : FVec F S512 .f32) (main_arg15 : FVec F S512 .f32) (main_arg16 : FVec F S512x512 .f32) (main_arg17 : FVec F S512 .f32) (main_arg18 : FVec F S1024x2048 .f32) (main_arg19 : FVec F S2048 .f32) (main_arg20 : FVec F S2048x4096 .f32) (main_arg21 : FVec F S4096 .f32) (main_arg22 : FVec F S4096x2048 .f32) (main_arg23 : FVec F S2048 .f32) (main_arg24 : FVec F S2048x64 .f32) (main_arg25 : FVec F S64 .f32) : IVec S_ 1 :=
  let main_v0 : FVec F S60000x128 .f32 := Host.absf main_arg0
  let main_cst : FVec F S_ .f32 := constant S_ .f32 0x7F800000#32
  let main_v1 : FVec F S60000x128 .f32 := broadcastInDim S60000x128 ![] bcast_S_S60000x128 main_cst
  let main_v2 : IVec S60000x128 1 := cmpf .olt main_v0 main_v1
  let main_c : IVec S_ 1 := constantI S_ 1 1#1
  let main_v3 : IVec S_ 1 := (fun x v => Host.reduce IntOp.andi x v reducesTo_S60000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S60000x128 : Shape := ⟨2, ![60000, 128]⟩
abbrev S2x960000 : Shape := ⟨2, ![2, 960000]⟩
abbrev S128x512 : Shape := ⟨2, ![128, 512]⟩
abbrev S512 : Shape := ⟨1, ![512]⟩
abbrev S512x512 : Shape := ⟨2, ![512, 512]⟩
abbrev S1024x2048 : Shape := ⟨2, ![1024, 2048]⟩
abbrev S2048 : Shape := ⟨1, ![2048]⟩
abbrev S2048x4096 : Shape := ⟨2, ![2048, 4096]⟩
abbrev S4096 : Shape := ⟨1, ![4096]⟩
abbrev S4096x2048 : Shape := ⟨2, ![4096, 2048]⟩
abbrev S2048x64 : Shape := ⟨2, ![2048, 64]⟩
abbrev S64 : Shape := ⟨1, ![64]⟩
abbrev S1x960000 : Shape := ⟨2, ![1, 960000]⟩
abbrev S960000 : Shape := ⟨1, ![960000]⟩
abbrev S_ : Shape := ⟨0, ![]⟩
abbrev S960000x1 : Shape := ⟨2, ![960000, 1]⟩
abbrev S960000x128 : Shape := ⟨2, ![960000, 128]⟩
abbrev S1x512 : Shape := ⟨2, ![1, 512]⟩
abbrev S60000x1024 : Shape := ⟨2, ![60000, 1024]⟩
abbrev S1000x128 : Shape := ⟨2, ![1000, 128]⟩
abbrev S1000x1024 : Shape := ⟨2, ![1000, 1024]⟩
abbrev S1000x512 : Shape := ⟨2, ![1000, 512]⟩
abbrev S1x2048 : Shape := ⟨2, ![1, 2048]⟩
abbrev S1x4096 : Shape := ⟨2, ![1, 4096]⟩
abbrev S60000x4096 : Shape := ⟨2, ![60000, 4096]⟩
abbrev S400x1024 : Shape := ⟨2, ![400, 1024]⟩
abbrev S400x4096 : Shape := ⟨2, ![400, 4096]⟩
abbrev S400x2048 : Shape := ⟨2, ![400, 2048]⟩
abbrev S1x64 : Shape := ⟨2, ![1, 64]⟩
abbrev S60000x64 : Shape := ⟨2, ![60000, 64]⟩
abbrev S480x4096 : Shape := ⟨2, ![480, 4096]⟩
abbrev S480x64 : Shape := ⟨2, ![480, 64]⟩
abbrev S480x2048 : Shape := ⟨2, ![480, 2048]⟩

abbrev nBuf : Space → Nat
  | .hbm => 70
  | .vmem => 38
  | .smem => 0
  | _ => 0

abbrev bufTy : (tb : Table) → Fin (tcTables nBuf tb) → BufTy
  | .hbm, ⟨0, _⟩ => ⟨S60000x128, .f32⟩
  | .hbm, ⟨1, _⟩ => ⟨S2x960000, .i32⟩
  | .hbm, ⟨2, _⟩ => ⟨S128x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S128x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512x512, .f32⟩
  | .hbm, ⟨17, _⟩ => ⟨S512, .f32⟩
  | .hbm, ⟨18, _⟩ => ⟨S1024x2048, .f32⟩
  | .hbm, ⟨19, _⟩ => ⟨S2048, .f32⟩
  | .hbm, ⟨20, _⟩ => ⟨S2048x4096, .f32⟩
  | .hbm, ⟨21, _⟩ => ⟨S4096, .f32⟩
  | .hbm, ⟨22, _⟩ => ⟨S4096x2048, .f32⟩
  | .hbm, ⟨23, _⟩ => ⟨S2048, .f32⟩
  | .hbm, ⟨24, _⟩ => ⟨S2048x64, .f32⟩
  | .hbm, ⟨25, _⟩ => ⟨S64, .f32⟩
  | .hbm, ⟨26, _⟩ => ⟨S1x960000, .i32⟩
  | .hbm, ⟨27, _⟩ => ⟨S960000, .i32⟩
  | .hbm, ⟨28, _⟩ => ⟨S1x960000, .i32⟩
  | .hbm, ⟨29, _⟩ => ⟨S960000, .i32⟩
  | .hbm, ⟨30, _⟩ => ⟨S_, .i32⟩
  | .hbm, ⟨31, _⟩ => ⟨S960000, .i32⟩
  | .hbm, ⟨32, _⟩ => ⟨S960000, .i1⟩
  | .hbm, ⟨33, _⟩ => ⟨S_, .i32⟩
  | .hbm, ⟨34, _⟩ => ⟨S960000, .i32⟩
  | .hbm, ⟨35, _⟩ => ⟨S960000, .i32⟩
  | .hbm, ⟨36, _⟩ => ⟨S960000, .i32⟩
  | .hbm, ⟨37, _⟩ => ⟨S960000x1, .i32⟩
  | .hbm, ⟨38, _⟩ => ⟨S960000x128, .f32⟩
  | .hbm, ⟨39, _⟩ => ⟨S_, .f32⟩
  | .hbm, ⟨40, _⟩ => ⟨S60000x128, .f32⟩
  | .hbm, ⟨41, _⟩ => ⟨S960000x1, .i32⟩
  | .hbm, ⟨42, _⟩ => ⟨S60000x128, .f32⟩
  | .hbm, ⟨43, _⟩ => ⟨S128x512, .bf16⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S512x512, .bf16⟩
  | .hbm, ⟨50, _⟩ => ⟨S1x512, .f32⟩
  | .hbm, ⟨51, _⟩ => ⟨S128x512, .bf16⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S1x512, .f32⟩
  | .hbm, ⟨57, _⟩ => ⟨S512x512, .bf16⟩
  | .hbm, ⟨58, _⟩ => ⟨S1x512, .f32⟩
  | .hbm, ⟨59, _⟩ => ⟨S60000x1024, .bf16⟩
  | .hbm, ⟨60, _⟩ => ⟨S1024x2048, .bf16⟩
  | .hbm, ⟨61, _⟩ => ⟨S1x2048, .f32⟩
  | .hbm, ⟨62, _⟩ => ⟨S2048x4096, .bf16⟩
  | .hbm, ⟨63, _⟩ => ⟨S1x4096, .f32⟩
  | .hbm, ⟨64, _⟩ => ⟨S60000x4096, .bf16⟩
  | .hbm, ⟨65, _⟩ => ⟨S4096x2048, .bf16⟩
  | .hbm, ⟨66, _⟩ => ⟨S1x2048, .f32⟩
  | .hbm, ⟨67, _⟩ => ⟨S2048x64, .bf16⟩
  | .hbm, ⟨68, _⟩ => ⟨S1x64, .f32⟩
  | .hbm, ⟨69, _⟩ => ⟨S60000x64, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S128x512, .bf16⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S1x512, .f32⟩
  | .local _ .vmem, ⟨20, _⟩ => ⟨S1000x1024, .bf16⟩
  | .local _ .vmem, ⟨21, _⟩ => ⟨S1000x1024, .bf16⟩
  | .local _ .vmem, ⟨22, _⟩ => ⟨S400x1024, .bf16⟩
  | .local _ .vmem, ⟨23, _⟩ => ⟨S400x1024, .bf16⟩
  | .local _ .vmem, ⟨24, _⟩ => ⟨S1024x2048, .bf16⟩
  | .local _ .vmem, ⟨25, _⟩ => ⟨S1x2048, .f32⟩
  | .local _ .vmem, ⟨26, _⟩ => ⟨S2048x4096, .bf16⟩
  | .local _ .vmem, ⟨27, _⟩ => ⟨S1x4096, .f32⟩
  | .local _ .vmem, ⟨28, _⟩ => ⟨S400x4096, .bf16⟩
  | .local _ .vmem, ⟨29, _⟩ => ⟨S400x4096, .bf16⟩
  | .local _ .vmem, ⟨30, _⟩ => ⟨S480x4096, .bf16⟩
  | .local _ .vmem, ⟨31, _⟩ => ⟨S480x4096, .bf16⟩
  | .local _ .vmem, ⟨32, _⟩ => ⟨S4096x2048, .bf16⟩
  | .local _ .vmem, ⟨33, _⟩ => ⟨S1x2048, .f32⟩
  | .local _ .vmem, ⟨34, _⟩ => ⟨S2048x64, .bf16⟩
  | .local _ .vmem, ⟨35, _⟩ => ⟨S1x64, .f32⟩
  | .local _ .vmem, ⟨36, _⟩ => ⟨S480x64, .f32⟩
  | .local _ .vmem, ⟨37, _⟩ => ⟨S480x64, .f32⟩
  | _, _ => ⟨S60000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg5_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg5_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc1_sem0_0 : DmaSem sig := 22
abbrev cc1_sem0_1 : DmaSem sig := 23
abbrev cc1_sem1_0 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem5_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem5_1 : DmaSem sig := 37

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1000x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S480x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S480x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x960000_S1x960000_0_0 : S2x960000.Slices ![0, 0] S1x960000
  shapeCasts_S1x960000_S960000 : S1x960000.ShapeCasts S960000
  slices_S2x960000_S1x960000_1_0 : S2x960000.Slices ![1, 0] S1x960000
  bcast_S_S960000 : S_.BroadcastsInDim S960000 (![] : Fin 0 → Fin S960000.rank)
  bcast_S960000_S960000x1_0 : S960000.BroadcastsInDim S960000x1 (![0] : Fin 1 → Fin S960000x1.rank)
  bcast_S_S60000x128 : S_.BroadcastsInDim S60000x128 (![] : Fin 0 → Fin S60000x128.rank)
  bitsLt_bf16_f32 : FTy.bits .bf16 < FTy.bits .f32
  shapeCasts_S512_S1x512 : S512.ShapeCasts S1x512
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1000x1024_S1000x512_0_0 : ∀ a, (![0, 0] : Fin 2 → Nat) a + S1000x512.size a ≤ S1000x1024.size a
  h_S1000x512 : 0 < S1000x512.numel
  packedbf16_S1000x1024_S1000x512_0_0 : (Rect.unit (s := S1000x1024) ![0, 0] S1000x512.size inb_S1000x1024_S1000x512_0_0).PackedRows (EltTy.packing .bf16)
  inb_S1000x1024_S1000x512_0_512 : ∀ a, (![0, 512] : Fin 2 → Nat) a + S1000x512.size a ≤ S1000x1024.size a
  packedbf16_S1000x1024_S1000x512_0_512 : (Rect.unit (s := S1000x1024) ![0, 512] S1000x512.size inb_S1000x1024_S1000x512_0_512).PackedRows (EltTy.packing .bf16)
  shapeCasts_S2048_S1x2048 : S2048.ShapeCasts S1x2048
  shapeCasts_S4096_S1x4096 : S4096.ShapeCasts S1x4096
  inb_S400x1024_S400x1024_0_0 : ∀ a, (![0, 0] : Fin 2 → Nat) a + S400x1024.size a ≤ S400x1024.size a
  h_S400x1024 : 0 < S400x1024.numel
  shapeCasts_S400x1024_S400x1024 : S400x1024.ShapeCasts S400x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S400x2048 : S1x2048.Broadcasts S400x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S400x4096 : S1x4096.Broadcasts S400x4096
  inb_S400x4096_S400x4096_0_0 : ∀ a, (![0, 0] : Fin 2 → Nat) a + S400x4096.size a ≤ S400x4096.size a
  h_S400x4096 : 0 < S400x4096.numel
  packedbf16_S400x4096_S400x4096_0_0 : (Rect.unit (s := S400x4096) ![0, 0] S400x4096.size inb_S400x4096_S400x4096_0_0).PackedRows (EltTy.packing .bf16)
  shapeCasts_S64_S1x64 : S64.ShapeCasts S1x64
  inb_S480x4096_S480x4096_0_0 : ∀ a, (![0, 0] : Fin 2 → Nat) a + S480x4096.size a ≤ S480x4096.size a
  h_S480x4096 : 0 < S480x4096.numel
  shapeCasts_S480x4096_S480x4096 : S480x4096.ShapeCasts S480x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  broadcasts_S1x2048_S480x2048 : S1x2048.Broadcasts S480x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S480x64 : S1x64.Broadcasts S480x64
  inb_S480x64_S480x64_0_0 : ∀ a, (![0, 0] : Fin 2 → Nat) a + S480x64.size a ≤ S480x64.size a
  h_S480x64 : 0 < S480x64.numel
  gather_S60000x128_S960000x1_S960000x128_1_0_n_n_0_1_1128_wf : GatherDims.WF S60000x128 S960000x1 S960000x128 [1] [0] [] [0] [] 1 ![1, 128]
  scatter_S60000x128_S960000x1_S960000x128_1_0_0_1_wf : ScatterDims.WF S60000x128 S960000x1 S960000x128 [1] [0] [0] 1
  dot_S1000x128_S128x512_S1000x512_1_0_0_1_n_n_wf : DotDims.WF S1000x128 S128x512 S1000x512 [1] [0] [0] [1] [] []
  dot_S1000x512_S512x512_S1000x512_1_0_0_1_n_n_wf : DotDims.WF S1000x512 S512x512 S1000x512 [1] [0] [0] [1] [] []
  dot_S400x1024_S1024x2048_S400x2048_1_0_0_1_n_n_wf : DotDims.WF S400x1024 S1024x2048 S400x2048 [1] [0] [0] [1] [] []
  dot_S400x2048_S2048x4096_S400x4096_1_0_0_1_n_n_wf : DotDims.WF S400x2048 S2048x4096 S400x4096 [1] [0] [0] [1] [] []
  dot_S480x4096_S4096x2048_S480x2048_1_0_0_1_n_n_wf : DotDims.WF S480x4096 S4096x2048 S480x2048 [1] [0] [0] [1] [] []
  dot_S480x2048_S2048x64_S480x64_1_0_0_1_n_n_wf : DotDims.WF S480x2048 S2048x64 S480x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S60000x128.size a
  hwx0_0 : ∀ i : grid0.Coords, EltTy.bits .f32 = 32 ∨ (Rect.block (s := S60000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S60000x128.size a
  hwx0_1 : ∀ i : grid0.Coords, EltTy.bits .f32 = 32 ∨ (Rect.block (s := S60000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x512.size a ≤ S128x512.size a
  hwx0_10 : ∀ i : grid0.Coords, EltTy.bits .bf16 = 32 ∨ (Rect.block (s := S128x512) S128x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x512.size a
  hwx0_14 : ∀ i : grid0.Coords, EltTy.bits .f32 = 32 ∨ (Rect.block (s := S1x512) S1x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x512.size a ≤ S1x512.size a
  hwx0_15 : ∀ i : grid0.Coords, EltTy.bits .f32 = 32 ∨ (Rect.block (s := S1x512) S1x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S512x512.size a
  hwx0_16 : ∀ i : grid0.Coords, EltTy.bits .bf16 = 32 ∨ (Rect.block (s := S512x512) S512x512.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x512.size a ≤ S1x512.size a
  hwx0_17 : ∀ i : grid0.Coords, EltTy.bits .f32 = 32 ∨ (Rect.block (s := S1x512) S1x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1000x1024.size a ≤ S60000x1024.size a
  hwx0_18 : ∀ i : grid0.Coords, EltTy.bits .bf16 = 32 ∨ (Rect.block (s := S60000x1024) S1000x1024.size (cc0_transform_18 i) (hinb0_18 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x1024.size a ≤ S60000x1024.size a
  hwx1_0 : ∀ i : grid1.Coords, EltTy.bits .bf16 = 32 ∨ (Rect.block (s := S60000x1024) S400x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .bf16 = 32 ∨ (Rect.block (s := S1024x2048) S1024x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x4096.size a ≤ S2048x4096.size a
  hwx1_3 : ∀ i : grid1.Coords, EltTy.bits .bf16 = 32 ∨ (Rect.block (s := S2048x4096) S2048x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x4096.size a ≤ S60000x4096.size a
  hwx1_5 : ∀ i : grid1.Coords, EltTy.bits .bf16 = 32 ∨ (Rect.block (s := S60000x4096) S400x4096.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S480x4096.size a ≤ S60000x4096.size a
  hwx2_0 : ∀ i : grid2.Coords, EltTy.bits .bf16 = 32 ∨ (Rect.block (s := S60000x4096) S480x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x2048.size a ≤ S4096x2048.size a
  hwx2_1 : ∀ i : grid2.Coords, EltTy.bits .bf16 = 32 ∨ (Rect.block (s := S4096x2048) S4096x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S2048x64.size a
  hwx2_3 : ∀ i : grid2.Coords, EltTy.bits .bf16 = 32 ∨ (Rect.block (s := S2048x64) S2048x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S480x64.size a ≤ S60000x64.size a
  hwx2_5 : ∀ i : grid2.Coords, EltTy.bits .f32 = 32 ∨ (Rect.block (s := S60000x64) S480x64.size (cc2_transform_5 i) (hinb2_5 i)).WholeWords (EltTy.packing .f32)

variable [Facts₀]

def gather_S60000x128_S960000x1_S960000x128_1_0_n_n_0_1_1128 : GatherDims S60000x128 S960000x1 S960000x128 where
  offsetDims := [1]
  collapsedSliceDims := [0]
  operandBatchingDims := []
  startIndicesBatchingDims := []
  startIndexMap := [0]
  indexVectorDim := 1
  sliceSizes := ![1, 128]
  wf := gather_S60000x128_S960000x1_S960000x128_1_0_n_n_0_1_1128_wf
def scatter_S60000x128_S960000x1_S960000x128_1_0_0_1 : ScatterDims S60000x128 S960000x1 S960000x128 where
  updateWindowDims := [1]
  insertedWindowDims := [0]
  scatterDimsToOperandDims := [0]
  indexVectorDim := 1
  wf := scatter_S60000x128_S960000x1_S960000x128_1_0_0_1_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S400x1024_S1024x2048_S400x2048_1_0_0_1_n_n : DotDims S400x1024 S1024x2048 S400x2048 where
  lhsContracting := [1]
  rhsContracting := [0]
  lhsNonContracting := [0]
  rhsNonContracting := [1]
  lhsBatch := []
  rhsBatch := []
  wf := dot_S400x1024_S1024x2048_S400x2048_1_0_0_1_n_n_wf
def dot_S400x2048_S2048x4096_S400x4096_1_0_0_1_n_n : DotDims S400x2048 S2048x4096 S400x4096 where
  lhsContracting := [1]
  rhsContracting := [0]
  lhsNonContracting := [0]
  rhsNonContracting := [1]
  lhsBatch := []
  rhsBatch := []
  wf := dot_S400x2048_S2048x4096_S400x4096_1_0_0_1_n_n_wf
def dot_S480x4096_S4096x2048_S480x2048_1_0_0_1_n_n : DotDims S480x4096 S4096x2048 S480x2048 where
  lhsContracting := [1]
  rhsContracting := [0]
  lhsNonContracting := [0]
  rhsNonContracting := [1]
  lhsBatch := []
  rhsBatch := []
  wf := dot_S480x4096_S4096x2048_S480x2048_1_0_0_1_n_n_wf
def dot_S480x2048_S2048x64_S480x64_1_0_0_1_n_n : DotDims S480x2048 S2048x64 S480x64 where
  lhsContracting := [1]
  rhsContracting := [0]
  lhsNonContracting := [0]
  rhsNonContracting := [1]
  lhsBatch := []
  rhsBatch := []
  wf := dot_S480x2048_S2048x64_S480x64_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S128x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v24) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v26) S1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v27) S1x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v28) S512x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v29) S1x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v30) S1000x1024.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_v30) S400x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S2048x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S400x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S480x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S4096x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S2048x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S480x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S60000x128 : Shape := ⟨2, ![60000, 128]⟩
abbrev S2x960000 : Shape := ⟨2, ![2, 960000]⟩
abbrev S128x512 : Shape := ⟨2, ![128, 512]⟩
abbrev S512 : Shape := ⟨1, ![512]⟩
abbrev S512x512 : Shape := ⟨2, ![512, 512]⟩
abbrev S1024x2048 : Shape := ⟨2, ![1024, 2048]⟩
abbrev S2048 : Shape := ⟨1, ![2048]⟩
abbrev S2048x4096 : Shape := ⟨2, ![2048, 4096]⟩
abbrev S4096 : Shape := ⟨1, ![4096]⟩
abbrev S4096x2048 : Shape := ⟨2, ![4096, 2048]⟩
abbrev S2048x64 : Shape := ⟨2, ![2048, 64]⟩
abbrev S64 : Shape := ⟨1, ![64]⟩
abbrev S1x960000 : Shape := ⟨2, ![1, 960000]⟩
abbrev S960000 : Shape := ⟨1, ![960000]⟩
abbrev S_ : Shape := ⟨0, ![]⟩
abbrev S960000x1 : Shape := ⟨2, ![960000, 1]⟩
abbrev S960000x128 : Shape := ⟨2, ![960000, 128]⟩
abbrev S60000x512 : Shape := ⟨2, ![60000, 512]⟩
abbrev S1x512 : Shape := ⟨2, ![1, 512]⟩
abbrev S60000x1024 : Shape := ⟨2, ![60000, 1024]⟩
abbrev S60000x2048 : Shape := ⟨2, ![60000, 2048]⟩
abbrev S1x2048 : Shape := ⟨2, ![1, 2048]⟩
abbrev S60000x4096 : Shape := ⟨2, ![60000, 4096]⟩
abbrev S1x4096 : Shape := ⟨2, ![1, 4096]⟩
abbrev S60000x64 : Shape := ⟨2, ![60000, 64]⟩
abbrev S1x64 : Shape := ⟨2, ![1, 64]⟩

abbrev nBuf : Space → Nat
  | .hbm => 155
  | .vmem => 0
  | .smem => 0
  | _ => 0

abbrev hbmTy0_0 (i : Nat) : BufTy := match i % 128 with
  | 0 => ⟨S60000x128, .f32⟩
  | 1 => ⟨S2x960000, .i32⟩
  | 2 => ⟨S128x512, .f32⟩
  | 3 => ⟨S512, .f32⟩
  | 4 => ⟨S512, .f32⟩
  | 5 => ⟨S512, .f32⟩
  | 6 => ⟨S512, .f32⟩
  | 7 => ⟨S512, .f32⟩
  | 8 => ⟨S512x512, .f32⟩
  | 9 => ⟨S512, .f32⟩
  | 10 => ⟨S128x512, .f32⟩
  | 11 => ⟨S512, .f32⟩
  | 12 => ⟨S512, .f32⟩
  | 13 => ⟨S512, .f32⟩
  | 14 => ⟨S512, .f32⟩
  | 15 => ⟨S512, .f32⟩
  | 16 => ⟨S512x512, .f32⟩
  | 17 => ⟨S512, .f32⟩
  | 18 => ⟨S1024x2048, .f32⟩
  | 19 => ⟨S2048, .f32⟩
  | 20 => ⟨S2048x4096, .f32⟩
  | 21 => ⟨S4096, .f32⟩
  | 22 => ⟨S4096x2048, .f32⟩
  | 23 => ⟨S2048, .f32⟩
  | 24 => ⟨S2048x64, .f32⟩
  | 25 => ⟨S64, .f32⟩
  | 26 => ⟨S1x960000, .i32⟩
  | 27 => ⟨S960000, .i32⟩
  | 28 => ⟨S1x960000, .i32⟩
  | 29 => ⟨S960000, .i32⟩
  | 30 => ⟨S_, .i32⟩
  | 31 => ⟨S960000, .i32⟩
  | 32 => ⟨S960000, .i1⟩
  | 33 => ⟨S_, .i32⟩
  | 34 => ⟨S960000, .i32⟩
  | 35 => ⟨S960000, .i32⟩
  | 36 => ⟨S960000, .i32⟩
  | 37 => ⟨S960000x1, .i32⟩
  | 38 => ⟨S960000x128, .f32⟩
  | 39 => ⟨S_, .f32⟩
  | 40 => ⟨S60000x128, .f32⟩
  | 41 => ⟨S960000x1, .i32⟩
  | 42 => ⟨S60000x128, .f32⟩
  | 43 => ⟨S60000x128, .f32⟩
  | 44 => ⟨S60000x512, .f32⟩
  | 45 => ⟨S1x512, .f32⟩
  | 46 => ⟨S60000x512, .f32⟩
  | 47 => ⟨S60000x512, .f32⟩
  | 48 => ⟨S1x512, .f32⟩
  | 49 => ⟨S60000x512, .f32⟩
  | 50 => ⟨S60000x512, .f32⟩
  | 51 => ⟨S_, .f32⟩
  | 52 => ⟨S512, .f32⟩
  | 53 => ⟨S512, .f32⟩
  | 54 => ⟨S512, .f32⟩
  | 55 => ⟨S1x512, .f32⟩
  | 56 => ⟨S60000x512, .f32⟩
  | 57 => ⟨S60000x512, .f32⟩
  | 58 => ⟨S1x512, .f32⟩
  | 59 => ⟨S60000x512, .f32⟩
  | 60 => ⟨S60000x512, .f32⟩
  | 61 => ⟨S1x512, .f32⟩
  | 62 => ⟨S60000x512, .f32⟩
  | 63 => ⟨S60000x512, .f32⟩
  | 64 => ⟨S_, .f32⟩
  | 65 => ⟨S60000x512, .f32⟩
  | 66 => ⟨S60000x512, .f32⟩
  | 67 => ⟨S60000x512, .f32⟩
  | 68 => ⟨S1x512, .f32⟩
  | 69 => ⟨S60000x512, .f32⟩
  | 70 => ⟨S60000x512, .f32⟩
  | 71 => ⟨S_, .f32⟩
  | 72 => ⟨S60000x512, .f32⟩
  | 73 => ⟨S60000x512, .f32⟩
  | 74 => ⟨S1x960000, .i32⟩
  | 75 => ⟨S960000, .i32⟩
  | 76 => ⟨S1x960000, .i32⟩
  | 77 => ⟨S960000, .i32⟩
  | 78 => ⟨S_, .i32⟩
  | 79 => ⟨S960000, .i32⟩
  | 80 => ⟨S960000, .i1⟩
  | 81 => ⟨S_, .i32⟩
  | 82 => ⟨S960000, .i32⟩
  | 83 => ⟨S960000, .i32⟩
  | 84 => ⟨S960000, .i32⟩
  | 85 => ⟨S960000x1, .i32⟩
  | 86 => ⟨S960000x128, .f32⟩
  | 87 => ⟨S_, .f32⟩
  | 88 => ⟨S60000x128, .f32⟩
  | 89 => ⟨S960000x1, .i32⟩
  | 90 => ⟨S60000x128, .f32⟩
  | 91 => ⟨S60000x128, .f32⟩
  | 92 => ⟨S60000x512, .f32⟩
  | 93 => ⟨S1x512, .f32⟩
  | 94 => ⟨S60000x512, .f32⟩
  | 95 => ⟨S60000x512, .f32⟩
  | 96 => ⟨S1x512, .f32⟩
  | 97 => ⟨S60000x512, .f32⟩
  | 98 => ⟨S60000x512, .f32⟩
  | 99 => ⟨S_, .f32⟩
  | 100 => ⟨S512, .f32⟩
  | 101 => ⟨S512, .f32⟩
  | 102 => ⟨S512, .f32⟩
  | 103 => ⟨S1x512, .f32⟩
  | 104 => ⟨S60000x512, .f32⟩
  | 105 => ⟨S60000x512, .f32⟩
  | 106 => ⟨S1x512, .f32⟩
  | 107 => ⟨S60000x512, .f32⟩
  | 108 => ⟨S60000x512, .f32⟩
  | 109 => ⟨S1x512, .f32⟩
  | 110 => ⟨S60000x512, .f32⟩
  | 111 => ⟨S60000x512, .f32⟩
  | 112 => ⟨S_, .f32⟩
  | 113 => ⟨S60000x512, .f32⟩
  | 114 => ⟨S60000x512, .f32⟩
  | 115 => ⟨S60000x512, .f32⟩
  | 116 => ⟨S1x512, .f32⟩
  | 117 => ⟨S60000x512, .f32⟩
  | 118 => ⟨S60000x512, .f32⟩
  | 119 => ⟨S_, .f32⟩
  | 120 => ⟨S60000x512, .f32⟩
  | 121 => ⟨S60000x512, .f32⟩
  | 122 => ⟨S60000x1024, .f32⟩
  | 123 => ⟨S60000x2048, .f32⟩
  | 124 => ⟨S1x2048, .f32⟩
  | 125 => ⟨S60000x2048, .f32⟩
  | 126 => ⟨S60000x2048, .f32⟩
  | 127 => ⟨S_, .f32⟩
  | _ => ⟨S60000x128, .f32⟩

abbrev hbmTy0_1 (i : Nat) : BufTy := match i % 128 with
  | 0 => ⟨S_, .f32⟩
  | 1 => ⟨S60000x2048, .f32⟩
  | 2 => ⟨S60000x2048, .i1⟩
  | 3 => ⟨S_, .f32⟩
  | 4 => ⟨S60000x2048, .f32⟩
  | 5 => ⟨S60000x2048, .f32⟩
  | 6 => ⟨S60000x2048, .f32⟩
  | 7 => ⟨S60000x4096, .f32⟩
  | 8 => ⟨S1x4096, .f32⟩
  | 9 => ⟨S60000x4096, .f32⟩
  | 10 => ⟨S60000x4096, .f32⟩
  | 11 => ⟨S60000x2048, .f32⟩
  | 12 => ⟨S1x2048, .f32⟩
  | 13 => ⟨S60000x2048, .f32⟩
  | 14 => ⟨S60000x2048, .f32⟩
  | 15 => ⟨S60000x64, .f32⟩
  | 16 => ⟨S1x64, .f32⟩
  | 17 => ⟨S60000x64, .f32⟩
  | 18 => ⟨S60000x64, .f32⟩
  | 19 => ⟨S60000x64, .f32⟩
  | 20 => ⟨S60000x64, .f32⟩
  | 21 => ⟨S_, .f32⟩
  | 22 => ⟨S60000x64, .f32⟩
  | 23 => ⟨S60000x64, .f32⟩
  | 24 => ⟨S_, .f32⟩
  | 25 => ⟨S60000x64, .f32⟩
  | 26 => ⟨S60000x64, .f32⟩
  | _ => ⟨S60000x128, .f32⟩

abbrev hbmTy (i : Nat) : BufTy := match i / 128 with
  | 0 => hbmTy0_0 i
  | 1 => hbmTy0_1 i
  | _ => ⟨S60000x128, .f32⟩

abbrev bufTy : (tb : Table) → Fin (tcTables nBuf tb) → BufTy
  | .hbm, ⟨i, _⟩ => hbmTy i
  | _, _ => ⟨S60000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_1 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_call0_cst : Ref sig .tc := ⟨.hbm, 64, rfl⟩
abbrev main_call0_v0 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_call1_cst : Ref sig .tc := ⟨.hbm, 71, rfl⟩
abbrev main_call1_v0 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c_2 : Ref sig .tc := ⟨.hbm, 78, rfl⟩
abbrev main_v44 : Ref sig .tc := ⟨.hbm, 79, rfl⟩
abbrev main_v45 : Ref sig .tc := ⟨.hbm, 80, rfl⟩
abbrev main_c_3 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_4 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_5 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_call2_cst : Ref sig .tc := ⟨.hbm, 112, rfl⟩
abbrev main_call2_v0 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_call3_cst : Ref sig .tc := ⟨.hbm, 119, rfl⟩
abbrev main_call3_v0 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_6 : Ref sig .tc := ⟨.hbm, 127, rfl⟩
abbrev main_call4_cst : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_7 : Ref sig .tc := ⟨.hbm, 149, rfl⟩
abbrev main_v100 : Ref sig .tc := ⟨.hbm, 150, rfl⟩
abbrev main_v101 : Ref sig .tc := ⟨.hbm, 151, rfl⟩
abbrev main_cst_8 : Ref sig .tc := ⟨.hbm, 152, rfl⟩
abbrev main_v102 : Ref sig .tc := ⟨.hbm, 153, rfl⟩
abbrev main_v103 : Ref sig .tc := ⟨.hbm, 154, rfl⟩

abbrev nD : Nat := 1
abbrev τ : Topo := Topo.v7x

variable {F : FTy → Type} [FloatOps F]

class Facts₀ : Prop where
  slices_S2x960000_S1x960000_0_0 : S2x960000.Slices ![0, 0] S1x960000
  shapeCasts_S1x960000_S960000 : S1x960000.ShapeCasts S960000
  slices_S2x960000_S1x960000_1_0 : S2x960000.Slices ![1, 0] S1x960000
  bcast_S_S960000 : S_.BroadcastsInDim S960000 (![] : Fin 0 → Fin S960000.rank)
  bcast_S960000_S960000x1_0 : S960000.BroadcastsInDim S960000x1 (![0] : Fin 1 → Fin S960000x1.rank)
  bcast_S_S60000x128 : S_.BroadcastsInDim S60000x128 (![] : Fin 0 → Fin S60000x128.rank)
  bcast_S512_S1x512_1 : S512.BroadcastsInDim S1x512 (![1] : Fin 1 → Fin S1x512.rank)
  bcast_S1x512_S60000x512_0_1 : S1x512.BroadcastsInDim S60000x512 (![0, 1] : Fin 2 → Fin S60000x512.rank)
  bcast_S_S512 : S_.BroadcastsInDim S512 (![] : Fin 0 → Fin S512.rank)
  bcast_S_S60000x512 : S_.BroadcastsInDim S60000x512 (![] : Fin 0 → Fin S60000x512.rank)
  concatenates_S60000x512_S60000x512_S60000x1024_d1 : Shape.Concatenates [S60000x512, S60000x512] S60000x1024 1
  bcast_S2048_S1x2048_1 : S2048.BroadcastsInDim S1x2048 (![1] : Fin 1 → Fin S1x2048.rank)
  bcast_S1x2048_S60000x2048_0_1 : S1x2048.BroadcastsInDim S60000x2048 (![0, 1] : Fin 2 → Fin S60000x2048.rank)
  bcast_S_S60000x2048 : S_.BroadcastsInDim S60000x2048 (![] : Fin 0 → Fin S60000x2048.rank)
  bcast_S4096_S1x4096_1 : S4096.BroadcastsInDim S1x4096 (![1] : Fin 1 → Fin S1x4096.rank)
  bcast_S1x4096_S60000x4096_0_1 : S1x4096.BroadcastsInDim S60000x4096 (![0, 1] : Fin 2 → Fin S60000x4096.rank)
  bcast_S64_S1x64_1 : S64.BroadcastsInDim S1x64 (![1] : Fin 1 → Fin S1x64.rank)
  bcast_S1x64_S60000x64_0_1 : S1x64.BroadcastsInDim S60000x64 (![0, 1] : Fin 2 → Fin S60000x64.rank)
  bcast_S_S60000x64 : S_.BroadcastsInDim S60000x64 (![] : Fin 0 → Fin S60000x64.rank)
  gather_S60000x128_S960000x1_S960000x128_1_0_n_n_0_1_1128_wf : GatherDims.WF S60000x128 S960000x1 S960000x128 [1] [0] [] [0] [] 1 ![1, 128]
  scatter_S60000x128_S960000x1_S960000x128_1_0_0_1_wf : ScatterDims.WF S60000x128 S960000x1 S960000x128 [1] [0] [0] 1
  dot_S60000x128_S128x512_S60000x512_1_0_0_1_n_n_wf : DotDims.WF S60000x128 S128x512 S60000x512 [1] [0] [0] [1] [] []
  dot_S60000x512_S512x512_S60000x512_1_0_0_1_n_n_wf : DotDims.WF S60000x512 S512x512 S60000x512 [1] [0] [0] [1] [] []
  dot_S60000x1024_S1024x2048_S60000x2048_1_0_0_1_n_n_wf : DotDims.WF S60000x1024 S1024x2048 S60000x2048 [1] [0] [0] [1] [] []
  dot_S60000x2048_S2048x4096_S60000x4096_1_0_0_1_n_n_wf : DotDims.WF S60000x2048 S2048x4096 S60000x4096 [1] [0] [0] [1] [] []
  dot_S60000x4096_S4096x2048_S60000x2048_1_0_0_1_n_n_wf : DotDims.WF S60000x4096 S4096x2048 S60000x2048 [1] [0] [0] [1] [] []
  dot_S60000x2048_S2048x64_S60000x64_1_0_0_1_n_n_wf : DotDims.WF S60000x2048 S2048x64 S60000x64 [1] [0] [0] [1] [] []

variable [Facts₀]

def gather_S60000x128_S960000x1_S960000x128_1_0_n_n_0_1_1128 : GatherDims S60000x128 S960000x1 S960000x128 where
  offsetDims := [1]
  collapsedSliceDims := [0]
  operandBatchingDims := []
  startIndicesBatchingDims := []
  startIndexMap := [0]
  indexVectorDim := 1
  sliceSizes := ![1, 128]
  wf := gather_S60000x128_S960000x1_S960000x128_1_0_n_n_0_1_1128_wf
def scatter_S60000x128_S960000x1_S960000x128_1_0_0_1 : ScatterDims S60000x128 S960000x1 S960000x128 where
  updateWindowDims := [1]
  insertedWindowDims := [0]
  scatterDimsToOperandDims := [0]
  indexVectorDim := 1
  wf := scatter_S60000x128_S960000x1_S960000x128_1_0_0_1_wf
def dot_S60000x128_S128x512_S60000x512_1_0_0_1_n_n : DotDims S60000x128 S128x512 S60000x512 where
  lhsContracting := [1]
  rhsContracting := [0]
  lhsNonContracting := [0]
  rhsNonContracting := [1]
  lhsBatch := []
  rhsBatch := []
  wf := dot_S60000x128_S128x512_S60000x512_1_0_0_1_n_n_wf
def dot_S60000x512_S512x512_S60000x512_1_0_0_1_n_n : DotDims S60000x512 S512x512 S60000x512 where
  lhsContracting := [1]
  rhsContracting := [0]
  lhsNonContracting := [0]
  rhsNonContracting := [1]
  lhsBatch := []
  rhsBatch := []
  wf := dot_S60000x512_S512x512_S60000x512_1_0_0_1_n_n_wf
def dot_S60000x1024_S1024x2048_S60000x2048_1_0_0_1_n_n : DotDims S60000x1024 S1024x2048 S60000x2048 where
  lhsContracting := [1]
  rhsContracting := [0]
  lhsNonContracting := [0]
  rhsNonContracting := [1]
  lhsBatch := []
  rhsBatch := []
  wf := dot_S60000x1024_S1024x2048_S60000x2048_1_0_0_1_n_n_wf
def dot_S60000x2048_S2048x4096_S60000x4096_1_0_0_1_n_n : DotDims S60000x2048 S2048x4096 S60000x4096 where
  lhsContracting := [1]
  rhsContracting := [0]
  lhsNonContracting := [0]
  rhsNonContracting := [1]
  lhsBatch := []
  rhsBatch := []
  wf := dot_S60000x2048_S2048x4096_S60000x4096_1_0_0_1_n_n_wf
def dot_S60000x4096_S4096x2048_S60000x2048_1_0_0_1_n_n : DotDims S60000x4096 S4096x2048 S60000x2048 where
  lhsContracting := [1]
  rhsContracting := [0]
  lhsNonContracting := [0]
  rhsNonContracting := [1]
  lhsBatch := []
  rhsBatch := []
  wf := dot_S60000x4096_S4096x2048_S60000x2048_1_0_0_1_n_n_wf
def dot_S60000x2048_S2048x64_S60000x64_1_0_0_1_n_n : DotDims S60000x2048 S2048x64 S60000x64 where
  lhsContracting := [1]
  rhsContracting := [0]
  lhsNonContracting := [0]
  rhsNonContracting := [1]
  lhsBatch := []
  rhsBatch := []
  wf := dot_S60000x2048_S2048x64_S60000x64_1_0_0_1_n_n_wf

class Facts : Prop extends Facts₀ where

variable [Facts]
-- ==== Proof.KernelRun.lean ====
/-
  The kernel program's run with every buffer named: from any launch memory every weakly fair execution of @main
  terminates, nothing faulting, and each unscoped buffer of the TensorCore ends at the last boundary's contents — the
  fold of the three stretches of host operations and the three regions' write-backs over the launch memory.  The
  frame claim keeps of this only the argument arrays; the value claim reads the result array off it.
-/
import proofs.«127801_j7292854468800_2_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.RunValue

end
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.Spec.lean ====
/-
  The network of this certificate, entry by entry, on the extended reals.

  A matrix is a function of a two-coordinate index into the extended reals; a bias, a running mean, a running
  variance, a scale and a shift are [1, C] rows.  Every layer is ROW-LOCAL: row r of its result depends on row r of
  its input alone, which is what lets a kernel that works on tiles of rows and a reference that works on whole
  matrices be read as one function.  The layers, generic in the number of rows R:

    branch   h ↦ relu (relu (bn (h W1 + b1)) W2 + b2),   bn z = (z - mean) * rsqrt (var + eps) * gamma + beta
    layer0   x, agg ↦ [branch_a (x + agg) | branch_b (x + agg)]            ([R, 1024]: the two branches side by side)
    layer1   h ↦ leaky (h Wfc + bfc) Wl1 + bl1                             ([R, 4096])
    layer2   b ↦ sigmoid ((b Wl2 + bl2) Wout + bout)                       ([R, 64])

  Constants are kept as the float words both programs spell; only the zero word is ever evaluated.
-/
import Idealize.ShloMosaic.Lib.ValueIdx
import Idealize.ShloMosaic.PureOps.Ideal.Laws
import proofs.«127801_j7292854468800_2_alg».proof.Proof.LibDense

noncomputable section

namespace Cert.GinSpec

open Idealize.ShloMosaic Idealize.ShloMosaic.ValueIdx Cert.Dense

/-- An [R, C] matrix of extended reals. -/
abbrev Mat (R C : Nat) : Type := (⟨2, ![R, C]⟩ : Shape).Idx → EReal

/-- The float words: zero, the batch norm's epsilon (1e-5 rounded), the leaky slope (0.01 rounded). -/
abbrev zero : EReal := Ideal.ofBits .f32 0x00000000#32
abbrev eps : EReal := Ideal.ofBits .f32 0x3727C5AC#32
abbrev slope : EReal := Ideal.ofBits .f32 0x3C23D70A#32

/-- max z 0. -/
def relu (z : EReal) : EReal := max z zero

/-- Batch norm with running statistics, in the order both programs multiply. -/
def bn (z mean var gamma beta : EReal) : EReal := (z - mean) * Ideal.rsqrt (var + eps) * gamma + beta

/-- The leaky relu as a select on z > 0 between z and z * slope. -/
def leaky (z : EReal) : EReal := Scalar.select (Ideal.cmp .ogt z zero) z (z * slope)

/-- One branch's parameters: the two weight matrices and, as rows, the two biases and the batch norm's
    scale, shift, running mean and running variance. -/
structure BranchP where
  w1 : Mat 128 512
  b1 : Mat 1 512
  gamma : Mat 1 512
  beta : Mat 1 512
  mean : Mat 1 512
  var : Mat 1 512
  w2 : Mat 512 512
  b2 : Mat 1 512

/-- The hidden activations of a branch: relu (bn (h W1 + b1)). -/
def hidden {R : Nat} (H : Mat R 128) (P : BranchP) : Mat R 512 :=
  fun i => relu (bn (lin H P.w1 P.b1 i) (P.mean (ix2 (0 : Fin 1) (i 1))) (P.var (ix2 (0 : Fin 1) (i 1)))
    (P.gamma (ix2 (0 : Fin 1) (i 1))) (P.beta (ix2 (0 : Fin 1) (i 1))))

/-- A branch: relu (hidden W2 + b2). -/
def branch {R : Nat} (H : Mat R 128) (P : BranchP) : Mat R 512 :=
  fun i => relu (lin (hidden H P) P.w2 P.b2 i)

/-- Two [R, 512] matrices side by side. -/
def beside {R : Nat} (A B : Mat R 512) : Mat R 1024 :=
  fun i => if h : (i 1).val < 512 then A (ix2 (i 0) ⟨(i 1).val, h⟩)
    else B (ix2 (i 0) ⟨(i 1).val - 512, by have := idx2_lt1 i; omega⟩)

/-- Layer 0: both branches of x + agg, side by side. -/
def layer0 {R : Nat} (X AGG : Mat R 128) (Pa Pb : BranchP) : Mat R 1024 :=
  beside (branch (fun i => X i + AGG i) Pa) (branch (fun i => X i + AGG i) Pb)

/-- Layer 1: leaky (h Wfc + bfc) Wl1 + bl1. -/
def layer1 {R : Nat} (H : Mat R 1024) (Wfc : Mat 1024 2048) (Bfc : Mat 1 2048) (Wl1 : Mat 2048 4096) (Bl1 : Mat 1 4096) :
    Mat R 4096 :=
  lin (fun i => leaky (lin H Wfc Bfc i)) Wl1 Bl1

/-- Layer 2: sigmoid ((b Wl2 + bl2) Wout + bout). -/
def layer2 {R : Nat} (B : Mat R 4096) (Wl2 : Mat 4096 2048) (Bl2 : Mat 1 2048) (Wout : Mat 2048 64) (Bout : Mat 1 64) :
    Mat R 64 :=
  fun i => Ideal.logistic (lin (lin B Wl2 Bl2) Wout Bout i)

/-- The whole network on R rows. -/
def net {R : Nat} (X AGG : Mat R 128) (Pa Pb : BranchP) (Wfc : Mat 1024 2048) (Bfc : Mat 1 2048) (Wl1 : Mat 2048 4096)
    (Bl1 : Mat 1 4096) (Wl2 : Mat 4096 2048) (Bl2 : Mat 1 2048) (Wout : Mat 2048 64) (Bout : Mat 1 64) : Mat R 64 :=
  layer2 (layer1 (layer0 X AGG Pa Pb) Wfc Bfc Wl1 Bl1) Wl2 Bl2 Wout Bout

/-! ## Row locality -/

/-- A dense layer at (r, q) depends on row r of its input alone. -/
theorem lin_row {R R' K C : Nat} (X : Mat R K) (X' : Mat R' K) (W : Mat K C) (B : Mat 1 C) (r : Fin R) (r' : Fin R')
    (q : Fin C) (h : ∀ k : Fin K, X (ix2 r k) = X' (ix2 r' k)) : lin X W B (ix2 r q) = lin X' W B (ix2 r' q) :=
  lin_congr (ix2 r q) (ix2 r' q) rfl h rfl rfl

theorem hidden_row {R R' : Nat} (H : Mat R 128) (H' : Mat R' 128) (P : BranchP) (r : Fin R) (r' : Fin R') (q : Fin 512)
    (h : ∀ k : Fin 128, H (ix2 r k) = H' (ix2 r' k)) : hidden H P (ix2 r q) = hidden H' P (ix2 r' q) := by
  unfold hidden
  rw [lin_row H H' P.w1 P.b1 r r' q h]
  rfl

theorem branch_row {R R' : Nat} (H : Mat R 128) (H' : Mat R' 128) (P : BranchP) (r : Fin R) (r' : Fin R') (q : Fin 512)
    (h : ∀ k : Fin 128, H (ix2 r k) = H' (ix2 r' k)) : branch H P (ix2 r q) = branch H' P (ix2 r' q) := by
  unfold branch
  rw [lin_row (hidden H P) (hidden H' P) P.w2 P.b2 r r' q fun k => hidden_row H H' P r r' k h]

theorem layer0_row {R R' : Nat} (X AGG : Mat R 128) (X' AGG' : Mat R' 128) (Pa Pb : BranchP) (r : Fin R) (r' : Fin R')
    (q : Fin 1024) (hX : ∀ k : Fin 128, X (ix2 r k) = X' (ix2 r' k)) (hA : ∀ k : Fin 128, AGG (ix2 r k) = AGG' (ix2 r' k)) :
    layer0 X AGG Pa Pb (ix2 r q) = layer0 X' AGG' Pa Pb (ix2 r' q) := by
  have hs : ∀ k : Fin 128, (fun i => X i + AGG i) (ix2 r k) = (fun i => X' i + AGG' i) (ix2 r' k) := fun k => by
    show X (ix2 r k) + AGG (ix2 r k) = X' (ix2 r' k) + AGG' (ix2 r' k)
    rw [hX k, hA k]
  unfold layer0 beside
  by_cases hq : q.val < 512
  · rw [dif_pos (show ((ix2 r q : (⟨2, ![R, 1024]⟩ : Shape).Idx) 1).val < 512 from hq),
      dif_pos (show ((ix2 r' q : (⟨2, ![R', 1024]⟩ : Shape).Idx) 1).val < 512 from hq)]
    exact branch_row _ _ Pa r r' _ hs
  · rw [dif_neg (show ¬ ((ix2 r q : (⟨2, ![R, 1024]⟩ : Shape).Idx) 1).val < 512 from hq),
      dif_neg (show ¬ ((ix2 r' q : (⟨2, ![R', 1024]⟩ : Shape).Idx) 1).val < 512 from hq)]
    exact branch_row _ _ Pb r r' _ hs

theorem layer1_row {R R' : Nat} (H : Mat R 1024) (H' : Mat R' 1024) (Wfc : Mat 1024 2048) (Bfc : Mat 1 2048)
    (Wl1 : Mat 2048 4096) (Bl1 : Mat 1 4096) (r : Fin R) (r' : Fin R') (q : Fin 4096)
    (h : ∀ k : Fin 1024, H (ix2 r k) = H' (ix2 r' k)) :
    layer1 H Wfc Bfc Wl1 Bl1 (ix2 r q) = layer1 H' Wfc Bfc Wl1 Bl1 (ix2 r' q) := by
  unfold layer1
  exact lin_row _ _ Wl1 Bl1 r r' q fun k => congrArg leaky (lin_row H H' Wfc Bfc r r' k h)

theorem layer2_row {R R' : Nat} (B : Mat R 4096) (B' : Mat R' 4096) (Wl2 : Mat 4096 2048) (Bl2 : Mat 1 2048)
    (Wout : Mat 2048 64) (Bout : Mat 1 64) (r : Fin R) (r' : Fin R') (q : Fin 64)
    (h : ∀ k : Fin 4096, B (ix2 r k) = B' (ix2 r' k)) :
    layer2 B Wl2 Bl2 Wout Bout (ix2 r q) = layer2 B' Wl2 Bl2 Wout Bout (ix2 r' q) := by
  unfold layer2
  exact congrArg Ideal.logistic (lin_row _ _ Wout Bout r r' q fun k => lin_row B B' Wl2 Bl2 r r' k h)

end Cert.GinSpec

end
-- ==== Proof.SpecCongr.lean ====
/-
  The layers of the specification at pointwise-equal parameters, and an index read through equal coordinates: what
  lets a tile's value, stated over the tile's own copies of the weights, be read as the whole-matrix layer.
-/
import proofs.«127801_j7292854468800_2_alg».proof.Proof.Spec

noncomputable section

namespace Cert.GinSpec

open Idealize.ShloMosaic Idealize.ShloMosaic.ValueIdx Cert.Dense

/-! ## The same layers of pointwise-equal parameters -/

theorem layer1_congr {R R' : Nat} (H : Mat R 1024) (H' : Mat R' 1024) (Wfc Wfc' : Mat 1024 2048) (Bfc Bfc' : Mat 1 2048)
    (Wl1 Wl1' : Mat 2048 4096) (Bl1 Bl1' : Mat 1 4096) (r : Fin R) (r' : Fin R') (q : Fin 4096)
    (h : ∀ k : Fin 1024, H (ix2 r k) = H' (ix2 r' k)) (h1 : ∀ i, Wfc i = Wfc' i) (h2 : ∀ i, Bfc i = Bfc' i)
    (h3 : ∀ i, Wl1 i = Wl1' i) (h4 : ∀ i, Bl1 i = Bl1' i) :
    layer1 H Wfc Bfc Wl1 Bl1 (ix2 r q) = layer1 H' Wfc' Bfc' Wl1' Bl1' (ix2 r' q) := by
  obtain rfl := funext h1; obtain rfl := funext h2; obtain rfl := funext h3; obtain rfl := funext h4
  exact layer1_row H H' Wfc Bfc Wl1 Bl1 r r' q h

theorem layer2_congr {R R' : Nat} (B : Mat R 4096) (B' : Mat R' 4096) (Wl2 Wl2' : Mat 4096 2048) (Bl2 Bl2' : Mat 1 2048)
    (Wout Wout' : Mat 2048 64) (Bout Bout' : Mat 1 64) (r : Fin R) (r' : Fin R') (q : Fin 64)
    (h : ∀ k : Fin 4096, B (ix2 r k) = B' (ix2 r' k)) (h1 : ∀ i, Wl2 i = Wl2' i) (h2 : ∀ i, Bl2 i = Bl2' i)
    (h3 : ∀ i, Wout i = Wout' i) (h4 : ∀ i, Bout i = Bout' i) :
    layer2 B Wl2 Bl2 Wout Bout (ix2 r q) = layer2 B' Wl2' Bl2' Wout' Bout' (ix2 r' q) := by
  obtain rfl := funext h1; obtain rfl := funext h2; obtain rfl := funext h3; obtain rfl := funext h4
  exact layer2_row B B' Wl2 Bl2 Wout Bout r r' q h

/-- Two parameter records with pointwise-equal fields are equal. -/
theorem BranchP.ext' (P P' : BranchP) (h1 : ∀ i, P.w1 i = P'.w1 i) (h2 : ∀ i, P.b1 i = P'.b1 i)
    (h3 : ∀ i, P.gamma i = P'.gamma i) (h4 : ∀ i, P.beta i = P'.beta i) (h5 : ∀ i, P.mean i = P'.mean i)
    (h6 : ∀ i, P.var i = P'.var i) (h7 : ∀ i, P.w2 i = P'.w2 i) (h8 : ∀ i, P.b2 i = P'.b2 i) : P = P' := by
  cases P; cases P'
  simp only [BranchP.mk.injEq]
  exact ⟨funext h1, funext h2, funext h3, funext h4, funext h5, funext h6, funext h7, funext h8⟩

/-- An index read through equal coordinates. -/
theorem read_at {S : Shape} (X : S.Idx → EReal) (i i' : S.Idx) (h : ∀ a, (i a).val = (i' a).val) : X i = X i' :=
  congrArg X (funext fun a => Fin.ext (h a))

end Cert.GinSpec

end
-- ==== Proof.KernelDots.lean ====
/-
  The six matrix products of the kernel bodies, each into a zero accumulator, read at an output entry as the
  textbook sum over the contracted axis (the product `mm` of two matrices of extended reals): every one contracts
  the left operand's second axis with the right operand's first.
-/
import proofs.«127801_j7292854468800_2_alg».proof.KernelIdeal
import proofs.«127801_j7292854468800_2_alg».proof.Proof.LibDense

noncomputable section

namespace Cert.KernelIdeal.Dots

open Idealize.ShloMosaic Idealize.ShloMosaic.ValueIdx Cert.Dense Cert.KernelIdeal

variable [Cert.KernelIdeal.Facts]

/-- The [1000, 128] by [128, 512] product. -/
theorem mm_1000_128_512 {φ₁ φ₂ : FTy} (l : FVec Ideal S1000x128 φ₁) (r : FVec Ideal S128x512 φ₂) (j : S1000x512.Idx) :
    matmul dot_S1000x128_S128x512_S1000x512_1_0_0_1_n_n none l r (constant S1000x512 .f32 0x00000000#32) j = mm l r j :=
  matmul_zero_eq dot_S1000x128_S128x512_S1000x512_1_0_0_1_n_n rfl rfl
    (fun i q => by simp [DotDims.lhsIdx, dot_S1000x128_S128x512_S1000x512_1_0_0_1_n_n]; rfl)
    (fun i q => by simp [DotDims.lhsIdx, dot_S1000x128_S128x512_S1000x512_1_0_0_1_n_n]; rfl)
    (fun i q => by simp [DotDims.rhsIdx, dot_S1000x128_S128x512_S1000x512_1_0_0_1_n_n]; rfl)
    (fun i q => by simp [DotDims.rhsIdx, dot_S1000x128_S128x512_S1000x512_1_0_0_1_n_n]; rfl) none l r j

/-- The [1000, 512] by [512, 512] product. -/
theorem mm_1000_512_512 {φ₁ φ₂ : FTy} (l : FVec Ideal S1000x512 φ₁) (r : FVec Ideal S512x512 φ₂) (j : S1000x512.Idx) :
    matmul dot_S1000x512_S512x512_S1000x512_1_0_0_1_n_n none l r (constant S1000x512 .f32 0x00000000#32) j = mm l r j :=
  matmul_zero_eq dot_S1000x512_S512x512_S1000x512_1_0_0_1_n_n rfl rfl
    (fun i q => by simp [DotDims.lhsIdx, dot_S1000x512_S512x512_S1000x512_1_0_0_1_n_n]; rfl)
    (fun i q => by simp [DotDims.lhsIdx, dot_S1000x512_S512x512_S1000x512_1_0_0_1_n_n]; rfl)
    (fun i q => by simp [DotDims.rhsIdx, dot_S1000x512_S512x512_S1000x512_1_0_0_1_n_n]; rfl)
    (fun i q => by simp [DotDims.rhsIdx, dot_S1000x512_S512x512_S1000x512_1_0_0_1_n_n]; rfl) none l r j

/-- The [400, 1024] by [1024, 2048] product. -/
theorem mm_400_1024_2048 {φ₁ φ₂ : FTy} (l : FVec Ideal S400x1024 φ₁) (r : FVec Ideal S1024x2048 φ₂) (j : S400x2048.Idx) :
    matmul dot_S400x1024_S1024x2048_S400x2048_1_0_0_1_n_n none l r (constant S400x2048 .f32 0x00000000#32) j = mm l r j :=
  matmul_zero_eq dot_S400x1024_S1024x2048_S400x2048_1_0_0_1_n_n rfl rfl
    (fun i q => by simp [DotDims.lhsIdx, dot_S400x1024_S1024x2048_S400x2048_1_0_0_1_n_n]; rfl)
    (fun i q => by simp [DotDims.lhsIdx, dot_S400x1024_S1024x2048_S400x2048_1_0_0_1_n_n]; rfl)
    (fun i q => by simp [DotDims.rhsIdx, dot_S400x1024_S1024x2048_S400x2048_1_0_0_1_n_n]; rfl)
    (fun i q => by simp [DotDims.rhsIdx, dot_S400x1024_S1024x2048_S400x2048_1_0_0_1_n_n]; rfl) none l r j

/-- The [400, 2048] by [2048, 4096] product. -/
theorem mm_400_2048_4096 {φ₁ φ₂ : FTy} (l : FVec Ideal S400x2048 φ₁) (r : FVec Ideal S2048x4096 φ₂) (j : S400x4096.Idx) :
    matmul dot_S400x2048_S2048x4096_S400x4096_1_0_0_1_n_n none l r (constant S400x4096 .f32 0x00000000#32) j = mm l r j :=
  matmul_zero_eq dot_S400x2048_S2048x4096_S400x4096_1_0_0_1_n_n rfl rfl
    (fun i q => by simp [DotDims.lhsIdx, dot_S400x2048_S2048x4096_S400x4096_1_0_0_1_n_n]; rfl)
    (fun i q => by simp [DotDims.lhsIdx, dot_S400x2048_S2048x4096_S400x4096_1_0_0_1_n_n]; rfl)
    (fun i q => by simp [DotDims.rhsIdx, dot_S400x2048_S2048x4096_S400x4096_1_0_0_1_n_n]; rfl)
    (fun i q => by simp [DotDims.rhsIdx, dot_S400x2048_S2048x4096_S400x4096_1_0_0_1_n_n]; rfl) none l r j

/-- The [480, 4096] by [4096, 2048] product. -/
theorem mm_480_4096_2048 {φ₁ φ₂ : FTy} (l : FVec Ideal S480x4096 φ₁) (r : FVec Ideal S4096x2048 φ₂) (j : S480x2048.Idx) :
    matmul dot_S480x4096_S4096x2048_S480x2048_1_0_0_1_n_n none l r (constant S480x2048 .f32 0x00000000#32) j = mm l r j :=
  matmul_zero_eq dot_S480x4096_S4096x2048_S480x2048_1_0_0_1_n_n rfl rfl
    (fun i q => by simp [DotDims.lhsIdx, dot_S480x4096_S4096x2048_S480x2048_1_0_0_1_n_n]; rfl)
    (fun i q => by simp [DotDims.lhsIdx, dot_S480x4096_S4096x2048_S480x2048_1_0_0_1_n_n]; rfl)
    (fun i q => by simp [DotDims.rhsIdx, dot_S480x4096_S4096x2048_S480x2048_1_0_0_1_n_n]; rfl)
    (fun i q => by simp [DotDims.rhsIdx, dot_S480x4096_S4096x2048_S480x2048_1_0_0_1_n_n]; rfl) none l r j

/-- The [480, 2048] by [2048, 64] product. -/
theorem mm_480_2048_64 {φ₁ φ₂ : FTy} (l : FVec Ideal S480x2048 φ₁) (r : FVec Ideal S2048x64 φ₂) (j : S480x64.Idx) :
    matmul dot_S480x2048_S2048x64_S480x64_1_0_0_1_n_n none l r (constant S480x64 .f32 0x00000000#32) j = mm l r j :=
  matmul_zero_eq dot_S480x2048_S2048x64_S480x64_1_0_0_1_n_n rfl rfl
    (fun i q => by simp [DotDims.lhsIdx, dot_S480x2048_S2048x64_S480x64_1_0_0_1_n_n]; rfl)
    (fun i q => by simp [DotDims.lhsIdx, dot_S480x2048_S2048x64_S480x64_1_0_0_1_n_n]; rfl)
    (fun i q => by simp [DotDims.rhsIdx, dot_S480x2048_S2048x64_S480x64_1_0_0_1_n_n]; rfl)
    (fun i q => by simp [DotDims.rhsIdx, dot_S480x2048_S2048x64_S480x64_1_0_0_1_n_n]; rfl) none l r j

end Cert.KernelIdeal.Dots

end
-- ==== Proof.Body0.lean ====
/-
  The body of the first kernel, on a tile of 1000 rows: each of the two column halves it stores is one branch of
  x + agg on the tile — relu (relu (bn ((x + agg) W1 + b1)) W2 + b2), bn z = (z - mean) * rsqrt (var + eps) * gamma + beta.
-/
import proofs.«127801_j7292854468800_2_alg».proof.Proof.Gen.KernelIdeal.Skeleton
import proofs.«127801_j7292854468800_2_alg».proof.Proof.Spec
import proofs.«127801_j7292854468800_2_alg».proof.Proof.KernelDots
import Idealize.ShloMosaic.Lib.Pipeline.Value
import Idealize.ShloMosaic.Lib.ValueLayout

noncomputable section

namespace Cert.KernelIdeal.Body

open Idealize.ShloMosaic Idealize.ShloMosaic.ValueIdx Cert.Dense Cert.GinSpec Cert.KernelIdeal Cert.KernelIdeal.Gen

variable [Cert.KernelIdeal.Facts]

/-- The left half: branch a of the tile. -/
theorem payA_eq (v0 v1 : Vec Ideal S1000x128 .f32) (w1 : Vec Ideal S128x512 .bf16)
    (b1 mean var gamma beta : Vec Ideal S1x512 .f32) (w2 : Vec Ideal S512x512 .bf16) (b2 : Vec Ideal S1x512 .f32) :
    k0_pay1 (F := Ideal) (k0_pay5 (k0_pay4 v0 v1 w1 b1 mean var gamma beta w2) b2)
      = branch (R := 1000) (fun i => v0 i + v1 i) ⟨w1, b1, gamma, beta, mean, var, w2, b2⟩ := by
  funext j
  obtain ⟨p, q, rfl⟩ : ∃ (p : Fin 1000) (q : Fin 512), j = ix2 p q := ⟨j 0, j 1, eq_ix2 j⟩
  unfold k0_pay1 k0_pay5 k0_pay4 k0_pay3 branch relu lin
  simp only [shapeCast_self, truncf_apply, maximumf_apply, addf_apply, broadcast_apply, Dots.mm_1000_512_512,
    broadcastTo_1b_ab_apply]
  refine congrArg₂ max (congrArg₂ (· + ·) (congrArg (fun X => mm X w2 (ix2 p q)) (funext fun i => ?_)) rfl) rfl
  obtain ⟨a, b, rfl⟩ : ∃ (a : Fin 1000) (b : Fin 512), i = ix2 a b := ⟨i 0, i 1, eq_ix2 i⟩
  simp only [truncf_apply, maximumf_apply, addf_apply, subf_apply, mulf_apply, broadcast_apply, Dots.mm_1000_128_512,
    broadcastTo_1b_ab_apply]
  rfl

/-- The right half: branch b of the tile. -/
theorem payB_eq (v0 v1 : Vec Ideal S1000x128 .f32) (w1 : Vec Ideal S128x512 .bf16)
    (b1 mean var gamma beta : Vec Ideal S1x512 .f32) (w2 : Vec Ideal S512x512 .bf16) (b2 : Vec Ideal S1x512 .f32) :
    k0_pay2 (F := Ideal) (k0_pay6 (k0_pay3 v0 v1) w1 b1 mean var gamma beta w2) b2
      = branch (R := 1000) (fun i => v0 i + v1 i) ⟨w1, b1, gamma, beta, mean, var, w2, b2⟩ := by
  funext j
  obtain ⟨p, q, rfl⟩ : ∃ (p : Fin 1000) (q : Fin 512), j = ix2 p q := ⟨j 0, j 1, eq_ix2 j⟩
  unfold k0_pay2 k0_pay6 k0_pay3 branch relu lin
  simp only [shapeCast_self, truncf_apply, maximumf_apply, addf_apply, broadcast_apply, Dots.mm_1000_512_512,
    broadcastTo_1b_ab_apply]
  refine congrArg₂ max (congrArg₂ (· + ·) (congrArg (fun X => mm X w2 (ix2 p q)) (funext fun i => ?_)) rfl) rfl
  obtain ⟨a, b, rfl⟩ : ∃ (a : Fin 1000) (b : Fin 512), i = ix2 a b := ⟨i 0, i 1, eq_ix2 i⟩
  simp only [truncf_apply, maximumf_apply, addf_apply, subf_apply, mulf_apply, broadcast_apply, Dots.mm_1000_128_512,
    broadcastTo_1b_ab_apply]
  rfl

end Cert.KernelIdeal.Body

end
-- ==== Proof.Region0.lean ====
/-
  The first pallas_call, whole: its output array after the run is layer 0 of its input arrays as the region finds
  them.  Point t works on rows 1000 t … 1000 t + 999: it loads that tile of x and of the aggregate and the whole
  parameters, and stores branch a of the tile in columns 0 … 511 and branch b in columns 512 … 1023; the two stores
  are the two halves of the tile of layer 0, which by row locality is that tile of layer 0 of the whole arrays; the 60
  tiles cover the 60000 rows.
-/
import proofs.«127801_j7292854468800_2_alg».proof.Proof.Gen.KernelIdeal.Frame
import proofs.«127801_j7292854468800_2_alg».proof.Proof.SpecCongr
import proofs.«127801_j7292854468800_2_alg».proof.Proof.Body0

set_option maxRecDepth 16384

noncomputable section

namespace Cert.KernelIdeal.Region0

open Idealize.ShloMosaic Idealize.ShloMosaic.TcCoe Idealize.ShloMosaic.ValueIdx Cert.GinSpec Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the tile of x, of the aggregate and of the output is the point's number,
    every parameter window is its whole array. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_18.index t (0 : Fin 2) = t.val
    ∧ win0_18.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0
    ∧ win0_16.index t (0 : Fin 2) = 0
    ∧ win0_16.index t (1 : Fin 2) = 0
    ∧ win0_17.index t (0 : Fin 2) = 0
    ∧ win0_17.index t (1 : Fin 2) = 0 :=
  (by decide +kernel : ∀ t : Fin grid0.N, _)

/-- The two stored halves are the two halves of one [1000, 1024] tile: the branches side by side. -/
theorem canon_beside (A B : Mat 1000 512) (y : S1000x1024.Idx) :
    View.canon ([⟨r0_5, B⟩, ⟨r0_4, A⟩] : List (View.Piece (Elt Ideal) S1000x1024 .bf16)) y = beside A B y := by
  have hB : ∀ x : r0_5.shape.Idx, B x = beside A B (r0_5.emb x) := fun x => by
    -- columns 512 … 1023
    have h1 : (r0_5.emb x 1).val = 512 + 1 * (x 1).val := rfl
    have h0 : (r0_5.emb x 0).val = 0 + 1 * (x 0).val := rfl
    have hx1 : (x 1).val < 512 := (x 1).isLt
    unfold beside
    rw [dif_neg (by omega)]
    exact read_at B _ _ fun a => by
      match a with
      | ⟨0, _⟩ => show (x 0).val = (r0_5.emb x 0).val; omega
      | ⟨1, _⟩ => show (x 1).val = (r0_5.emb x 1).val - 512; omega
  have hA : ∀ x : r0_4.shape.Idx, A x = beside A B (r0_4.emb x) := fun x => by
    -- columns 0 … 511
    have h1 : (r0_4.emb x 1).val = 0 + 1 * (x 1).val := rfl
    have h0 : (r0_4.emb x 0).val = 0 + 1 * (x 0).val := rfl
    have hx1 : (x 1).val < 512 := (x 1).isLt
    unfold beside
    rw [dif_pos (by omega)]
    exact read_at A _ _ fun a => by
      match a with
      | ⟨0, _⟩ => show (x 0).val = (r0_4.emb x 0).val; omega
      | ⟨1, _⟩ => show (x 1).val = (r0_4.emb x 1).val; omega
  refine View.canon_apply_of_pieces (beside A B) _ (fun pc hpc => ?_) y (cover0_18 (F := Ideal) B A y)
  simp only [List.mem_cons, List.mem_nil_iff, or_false] at hpc
  rcases hpc with rfl | rfl
  · exact hB
  · exact hA

set_option maxHeartbeats 1000000 in
/-- What point t writes back is tile t of layer 0 of the arrays as the region finds them. -/
theorem flushed_eq (c : Dev nD) (t : Fin cfg0.N) :
    (dat0 V c).flushed 18 t = ((cfg0.win 18).blk t).view.read (Elt Ideal)
      (layer0 (R := 60000) (V c main_arg0) (V c main_v13)
        ⟨V c main_v14, V c main_v15, V c main_v16, V c main_v17, V c main_v18, V c main_v19, V c main_v20, V c main_v21⟩
        ⟨V c main_v22, V c main_v23, V c main_v24, V c main_v25, V c main_v26, V c main_v27, V c main_v28, V c main_v29⟩) := by
  show (cfg0.win 18).cut (grid0.coords t) ((dat0 V c).after 18 t) = _
  rw [after0_18]
  unfold out0_18
  simp only [View.ld_unit_zero (S := S1000x128) hz, View.ld_unit_zero (S := S128x512) hz,
    View.ld_unit_zero (S := S1x512) hz, View.ld_unit_zero (S := S512x512) hz]
  rw [Body.payA_eq, Body.payB_eq]
  obtain ⟨e0, e1, e2, e3, e4, e5, e6, e7, e8, e9, e10, e11, e12, e13, e14, e15, e16, e17, e18, e19, e20, e21, e22, e23, e24, e25, e26, e27, e28, e29, e30, e31, e32, e33, e34, e35, e36, e37⟩ := idx_facts t
  have ht : t.val < 60 := lt_of_lt_of_eq t.isLt N_0
  funext y
  obtain ⟨p, q, rfl⟩ : ∃ (p : Fin 1000) (q : Fin 1024), y = ix2 p q := ⟨y 0, y 1, eq_ix2 y⟩
  refine (canon_beside _ _ (ix2 p q)).trans ?_
  show layer0 (R := 1000) (iblk0 V c 0 t) (iblk0 V c 1 t)
        ⟨iblk0 V c 2 t, iblk0 V c 3 t, iblk0 V c 4 t, iblk0 V c 5 t, iblk0 V c 6 t, iblk0 V c 7 t, iblk0 V c 8 t, iblk0 V c 9 t⟩
        ⟨iblk0 V c 10 t, iblk0 V c 11 t, iblk0 V c 12 t, iblk0 V c 13 t, iblk0 V c 14 t, iblk0 V c 15 t, iblk0 V c 16 t, iblk0 V c 17 t⟩ (ix2 p q)
    = layer0 (R := 60000) (V c main_arg0) (V c main_v13)
        ⟨V c main_v14, V c main_v15, V c main_v16, V c main_v17, V c main_v18, V c main_v19, V c main_v20, V c main_v21⟩
        ⟨V c main_v22, V c main_v23, V c main_v24, V c main_v25, V c main_v26, V c main_v27, V c main_v28, V c main_v29⟩
        (((cfg0.win 18).blk t).view.emb (ix2 p q))
  have hemb : ((cfg0.win 18).blk t).view.emb (ix2 p q) = ix2 (⟨t.val * 1000 + p.val, by omega⟩ : Fin 60000) q := by
    funext a; apply Fin.ext
    match a with
    | ⟨0, _⟩ => show win0_18.index t (0 : Fin 2) * 1000 + 1 * p.val = t.val * 1000 + p.val; omega
    | ⟨1, _⟩ => show win0_18.index t (1 : Fin 2) * 1024 + 1 * q.val = q.val; omega
  rw [hemb]
  have hPa : (⟨iblk0 V c 2 t, iblk0 V c 3 t, iblk0 V c 4 t, iblk0 V c 5 t, iblk0 V c 6 t, iblk0 V c 7 t, iblk0 V c 8 t, iblk0 V c 9 t⟩ : BranchP)
      = ⟨V c main_v14, V c main_v15, V c main_v16, V c main_v17, V c main_v18, V c main_v19, V c main_v20, V c main_v21⟩ := by
    refine BranchP.ext' _ _ (fun i => ?_) (fun i => ?_) (fun i => ?_) (fun i => ?_) (fun i => ?_) (fun i => ?_) (fun i => ?_) (fun i => ?_)
    · show V c main_v14 (((cfg0.win 2).blk t).view.emb i) = V c main_v14 i
      refine read_at _ _ _ fun a => ?_
      match a with
      | ⟨0, _⟩ => show win0_2.index t (0 : Fin 2) * 128 + 1 * (i 0).val = (i 0).val; omega
      | ⟨1, _⟩ => show win0_2.index t (1 : Fin 2) * 512 + 1 * (i 1).val = (i 1).val; omega
    · show V c main_v15 (((cfg0.win 3).blk t).view.emb i) = V c main_v15 i
      refine read_at _ _ _ fun a => ?_
      match a with
      | ⟨0, _⟩ => show win0_3.index t (0 : Fin 2) * 1 + 1 * (i 0).val = (i 0).val; omega
      | ⟨1, _⟩ => show win0_3.index t (1 : Fin 2) * 512 + 1 * (i 1).val = (i 1).val; omega
    · show V c main_v16 (((cfg0.win 4).blk t).view.emb i) = V c main_v16 i
      refine read_at _ _ _ fun a => ?_
      match a with
      | ⟨0, _⟩ => show win0_4.index t (0 : Fin 2) * 1 + 1 * (i 0).val = (i 0).val; omega
      | ⟨1, _⟩ => show win0_4.index t (1 : Fin 2) * 512 + 1 * (i 1).val = (i 1).val; omega
    · show V c main_v17 (((cfg0.win 5).blk t).view.emb i) = V c main_v17 i
      refine read_at _ _ _ fun a => ?_
      match a with
      | ⟨0, _⟩ => show win0_5.index t (0 : Fin 2) * 1 + 1 * (i 0).val = (i 0).val; omega
      | ⟨1, _⟩ => show win0_5.index t (1 : Fin 2) * 512 + 1 * (i 1).val = (i 1).val; omega
    · show V c main_v18 (((cfg0.win 6).blk t).view.emb i) = V c main_v18 i
      refine read_at _ _ _ fun a => ?_
      match a with
      | ⟨0, _⟩ => show win0_6.index t (0 : Fin 2) * 1 + 1 * (i 0).val = (i 0).val; omega
      | ⟨1, _⟩ => show win0_6.index t (1 : Fin 2) * 512 + 1 * (i 1).val = (i 1).val; omega
    · show V c main_v19 (((cfg0.win 7).blk t).view.emb i) = V c main_v19 i
      refine read_at _ _ _ fun a => ?_
      match a with
      | ⟨0, _⟩ => show win0_7.index t (0 : Fin 2) * 1 + 1 * (i 0).val = (i 0).val; omega
      | ⟨1, _⟩ => show win0_7.index t (1 : Fin 2) * 512 + 1 * (i 1).val = (i 1).val; omega
    · show V c main_v20 (((cfg0.win 8).blk t).view.emb i) = V c main_v20 i
      refine read_at _ _ _ fun a => ?_
      match a with
      | ⟨0, _⟩ => show win0_8.index t (0 : Fin 2) * 512 + 1 * (i 0).val = (i 0).val; omega
      | ⟨1, _⟩ => show win0_8.index t (1 : Fin 2) * 512 + 1 * (i 1).val = (i 1).val; omega
    · show V c main_v21 (((cfg0.win 9).blk t).view.emb i) = V c main_v21 i
      refine read_at _ _ _ fun a => ?_
      match a with
      | ⟨0, _⟩ => show win0_9.index t (0 : Fin 2) * 1 + 1 * (i 0).val = (i 0).val; omega
      | ⟨1, _⟩ => show win0_9.index t (1 : Fin 2) * 512 + 1 * (i 1).val = (i 1).val; omega
  have hPb : (⟨iblk0 V c 10 t, iblk0 V c 11 t, iblk0 V c 12 t, iblk0 V c 13 t, iblk0 V c 14 t, iblk0 V c 15 t, iblk0 V c 16 t, iblk0 V c 17 t⟩ : BranchP)
      = ⟨V c main_v22, V c main_v23, V c main_v24, V c main_v25, V c main_v26, V c main_v27, V c main_v28, V c main_v29⟩ := by
    refine BranchP.ext' _ _ (fun i => ?_) (fun i => ?_) (fun i => ?_) (fun i => ?_) (fun i => ?_) (fun i => ?_) (fun i => ?_) (fun i => ?_)
    · show V c main_v22 (((cfg0.win 10).blk t).view.emb i) = V c main_v22 i
      refine read_at _ _ _ fun a => ?_
      match a with
      | ⟨0, _⟩ => show win0_10.index t (0 : Fin 2) * 128 + 1 * (i 0).val = (i 0).val; omega
      | ⟨1, _⟩ => show win0_10.index t (1 : Fin 2) * 512 + 1 * (i 1).val = (i 1).val; omega
    · show V c main_v23 (((cfg0.win 11).blk t).view.emb i) = V c main_v23 i
      refine read_at _ _ _ fun a => ?_
      match a with
      | ⟨0, _⟩ => show win0_11.index t (0 : Fin 2) * 1 + 1 * (i 0).val = (i 0).val; omega
      | ⟨1, _⟩ => show win0_11.index t (1 : Fin 2) * 512 + 1 * (i 1).val = (i 1).val; omega
    · show V c main_v24 (((cfg0.win 12).blk t).view.emb i) = V c main_v24 i
      refine read_at _ _ _ fun a => ?_
      match a with
      | ⟨0, _⟩ => show win0_12.index t (0 : Fin 2) * 1 + 1 * (i 0).val = (i 0).val; omega
      | ⟨1, _⟩ => show win0_12.index t (1 : Fin 2) * 512 + 1 * (i 1).val = (i 1).val; omega
    · show V c main_v25 (((cfg0.win 13).blk t).view.emb i) = V c main_v25 i
      refine read_at _ _ _ fun a => ?_
      match a with
      | ⟨0, _⟩ => show win0_13.index t (0 : Fin 2) * 1 + 1 * (i 0).val = (i 0).val; omega
      | ⟨1, _⟩ => show win0_13.index t (1 : Fin 2) * 512 + 1 * (i 1).val = (i 1).val; omega
    · show V c main_v26 (((cfg0.win 14).blk t).view.emb i) = V c main_v26 i
      refine read_at _ _ _ fun a => ?_
      match a with
      | ⟨0, _⟩ => show win0_14.index t (0 : Fin 2) * 1 + 1 * (i 0).val = (i 0).val; omega
      | ⟨1, _⟩ => show win0_14.index t (1 : Fin 2) * 512 + 1 * (i 1).val = (i 1).val; omega
    · show V c main_v27 (((cfg0.win 15).blk t).view.emb i) = V c main_v27 i
      refine read_at _ _ _ fun a => ?_
      match a with
      | ⟨0, _⟩ => show win0_15.index t (0 : Fin 2) * 1 + 1 * (i 0).val = (i 0).val; omega
      | ⟨1, _⟩ => show win0_15.index t (1 : Fin 2) * 512 + 1 * (i 1).val = (i 1).val; omega
    · show V c main_v28 (((cfg0.win 16).blk t).view.emb i) = V c main_v28 i
      refine read_at _ _ _ fun a => ?_
      match a with
      | ⟨0, _⟩ => show win0_16.index t (0 : Fin 2) * 512 + 1 * (i 0).val = (i 0).val; omega
      | ⟨1, _⟩ => show win0_16.index t (1 : Fin 2) * 512 + 1 * (i 1).val = (i 1).val; omega
    · show V c main_v29 (((cfg0.win 17).blk t).view.emb i) = V c main_v29 i
      refine read_at _ _ _ fun a => ?_
      match a with
      | ⟨0, _⟩ => show win0_17.index t (0 : Fin 2) * 1 + 1 * (i 0).val = (i 0).val; omega
      | ⟨1, _⟩ => show win0_17.index t (1 : Fin 2) * 512 + 1 * (i 1).val = (i 1).val; omega
  rw [hPa, hPb]
  refine layer0_row _ _ _ _ _ _ p _ q (fun k => ?_) (fun k => ?_)
  · show V c main_arg0 (((cfg0.win 0).blk t).view.emb (ix2 p k)) = V c main_arg0 (ix2 (⟨t.val * 1000 + p.val, by omega⟩ : Fin 60000) k)
    refine read_at _ _ _ fun a => ?_
    match a with
    | ⟨0, _⟩ => show win0_0.index t (0 : Fin 2) * 1000 + 1 * p.val = t.val * 1000 + p.val; omega
    | ⟨1, _⟩ => show win0_0.index t (1 : Fin 2) * 128 + 1 * k.val = k.val; omega
  · show V c main_v13 (((cfg0.win 1).blk t).view.emb (ix2 p k)) = V c main_v13 (ix2 (⟨t.val * 1000 + p.val, by omega⟩ : Fin 60000) k)
    refine read_at _ _ _ fun a => ?_
    match a with
    | ⟨0, _⟩ => show win0_1.index t (0 : Fin 2) * 1000 + 1 * p.val = t.val * 1000 + p.val; omega
    | ⟨1, _⟩ => show win0_1.index t (1 : Fin 2) * 128 + 1 * k.val = k.val; omega

/-- An index of the output array is in point t's tile iff each coordinate is in the tile's range. -/
theorem mem_blk (t : Fin cfg0.N) (i : S60000x1024.Idx) :
    i ∈ ((cfg0.win 18).blk t).view.set ↔ ∀ a : Fin 2, win0_18.index t a * S1000x1024.size a ≤ (i a).val
      ∧ (i a).val < win0_18.index t a * S1000x1024.size a + S1000x1024.size a := by
  show i ∈ ((View.whole main_v30).slice (win0_18.rect t)).set ↔ _
  rw [View.set_slice_whole, Rect.mem_set_unit]
  exact Iff.rfl

/-- Every row is in some tile: row r in tile r / 1000. -/
theorem cover (i : S60000x1024.Idx) :
    ∃ t : Fin cfg0.N, (cfg0.win 18).flush t = true ∧ i ∈ ((cfg0.win 18).blk t).view.set := by
  have hi0 : (i 0).val < 60000 := (i 0).isLt
  have hi1 : (i 1).val < 1024 := (i 1).isLt
  have hN : cfg0.N = 60 := N_0
  let t : Fin cfg0.N := ⟨(i 0).val / 1000, by rw [hN]; omega⟩
  obtain ⟨e0, e1, e2, e3, e4, e5, e6, e7, e8, e9, e10, e11, e12, e13, e14, e15, e16, e17, e18, e19, e20, e21, e22, e23, e24, e25, e26, e27, e28, e29, e30, e31, e32, e33, e34, e35, e36, e37⟩ := idx_facts t
  have htv : t.val = (i 0).val / 1000 := rfl
  refine ⟨t, flush0_18 t, ?_⟩
  rw [mem_blk]
  intro a
  match a with
  | ⟨0, _⟩ => show win0_18.index t (0 : Fin 2) * 1000 ≤ (i 0).val ∧ (i 0).val < win0_18.index t (0 : Fin 2) * 1000 + 1000; omega
  | ⟨1, _⟩ => show win0_18.index t (1 : Fin 2) * 1024 ≤ (i 1).val ∧ (i 1).val < win0_18.index t (1 : Fin 2) * 1024 + 1024; omega

/-- The output array after the region: layer 0 of the arrays as the region finds them. -/
theorem final (c : Dev nD) : (dat0 V c).arrAt 18 cfg0.N
    = layer0 (R := 60000) (V c main_arg0) (V c main_v13)
        ⟨V c main_v14, V c main_v15, V c main_v16, V c main_v17, V c main_v18, V c main_v19, V c main_v20, V c main_v21⟩
        ⟨V c main_v22, V c main_v23, V c main_v24, V c main_v25, V c main_v26, V c main_v27, V c main_v28, V c main_v29⟩ :=
  (dat0 V c).arrAt_eq_of_cover 18 _ (fun t _ => flushed_eq V c t) cover

end Cert.KernelIdeal.Region0

end
-- ==== Proof.Body1.lean ====
/-
  The body of the second kernel, on a tile of 400 rows: what it stores is layer 1 of the tile it loads —
  leaky (h Wfc + bfc) Wl1 + bl1, entry by entry (a change of float format is the identity on the extended reals).
-/
import proofs.«127801_j7292854468800_2_alg».proof.Proof.Gen.KernelIdeal.Skeleton
import proofs.«127801_j7292854468800_2_alg».proof.Proof.Spec
import proofs.«127801_j7292854468800_2_alg».proof.Proof.KernelDots
import Idealize.ShloMosaic.Lib.Pipeline.Value
import Idealize.ShloMosaic.Lib.ValueLayout

noncomputable section

namespace Cert.KernelIdeal.Body

open Idealize.ShloMosaic Idealize.ShloMosaic.ValueIdx Cert.Dense Cert.GinSpec Cert.KernelIdeal Cert.KernelIdeal.Gen

variable [Cert.KernelIdeal.Facts]

/-- The stored tile is layer 1 of the loaded tile. -/
theorem pay1_eq (x0 : Vec Ideal S400x1024 .bf16) (x1 : Vec Ideal S1024x2048 .bf16) (x2 : Vec Ideal S1x2048 .f32)
    (x3 : Vec Ideal S2048x4096 .bf16) (x4 : Vec Ideal S1x4096 .f32) :
    k1_pay1 (F := Ideal) x0 x1 x2 x3 x4 = layer1 (R := 400) x0 x1 x2 x3 x4 := by
  funext j
  obtain ⟨p, q, rfl⟩ : ∃ (p : Fin 400) (q : Fin 4096), j = ix2 p q := ⟨j 0, j 1, eq_ix2 j⟩
  unfold k1_pay1 layer1 lin
  simp only [shapeCast_self, truncf_apply, addf_apply, Dots.mm_400_2048_4096, broadcastTo_1b_ab_apply]
  refine congrArg₂ (· + ·) (congrArg (fun X => mm X x3 (ix2 p q)) (funext fun i => ?_)) rfl
  obtain ⟨a, b, rfl⟩ : ∃ (a : Fin 400) (b : Fin 2048), i = ix2 a b := ⟨i 0, i 1, eq_ix2 i⟩
  simp only [truncf_apply, select_apply, cmpf_apply, addf_apply, mulf_apply, broadcast_apply, Dots.mm_400_1024_2048,
    broadcastTo_1b_ab_apply]
  rfl

end Cert.KernelIdeal.Body

end
-- ==== Proof.Region1.lean ====
/-
  The second pallas_call, whole: its output array after the run is layer 1 of its input arrays as the region finds
  them.  Point t works on rows 400 t … 400 t + 399: it loads that tile of the activations and the whole weights, and
  writes back layer 1 of the tile, which by row locality is that tile of layer 1 of the whole activations; the 150
  tiles cover the 60000 rows.
-/
import proofs.«127801_j7292854468800_2_alg».proof.Proof.Gen.KernelIdeal.Frame
import proofs.«127801_j7292854468800_2_alg».proof.Proof.SpecCongr
import proofs.«127801_j7292854468800_2_alg».proof.Proof.Body1

set_option maxRecDepth 16384

noncomputable section

namespace Cert.KernelIdeal.Region1

open Idealize.ShloMosaic Idealize.ShloMosaic.TcCoe Idealize.ShloMosaic.ValueIdx Cert.GinSpec Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activations' and the output's tile is the point's number, every
    weight window is its whole array. -/
theorem idx_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point t writes back is tile t of layer 1 of the arrays as the region finds them. -/
theorem flushed_eq (c : Dev nD) (t : Fin cfg1.N) :
    (dat1 V c).flushed 5 t = ((cfg1.win 5).blk t).view.read (Elt Ideal)
      (layer1 (R := 60000) (V c main_v30) (V c main_v31) (V c main_v32) (V c main_v33) (V c main_v34)) := by
  show (cfg1.win 5).cut (grid1.coords t) ((dat1 V c).after 5 t) = _
  rw [after1_5]
  unfold out1_5
  rw [View.canon_unit_zero hz]
  simp only [View.ld_unit_zero (S := S400x1024) hz, View.ld_unit_zero (S := S1024x2048) hz,
    View.ld_unit_zero (S := S1x2048) hz, View.ld_unit_zero (S := S2048x4096) hz, View.ld_unit_zero (S := S1x4096) hz]
  rw [Body.pay1_eq]
  obtain ⟨e0, e1, e2, e3, e4, e5, e6, e7, e8, e9, e10, e11⟩ := idx_facts t
  have ht : t.val < 150 := lt_of_lt_of_eq t.isLt N_1
  funext y
  obtain ⟨p, q, rfl⟩ : ∃ (p : Fin 400) (q : Fin 4096), y = ix2 p q := ⟨y 0, y 1, eq_ix2 y⟩
  show layer1 (R := 400) (iblk1 V c 0 t) (iblk1 V c 1 t) (iblk1 V c 2 t) (iblk1 V c 3 t) (iblk1 V c 4 t) (ix2 p q)
    = layer1 (R := 60000) (V c main_v30) (V c main_v31) (V c main_v32) (V c main_v33) (V c main_v34)
        (((cfg1.win 5).blk t).view.emb (ix2 p q))
  have hemb : ((cfg1.win 5).blk t).view.emb (ix2 p q) = ix2 (⟨t.val * 400 + p.val, by omega⟩ : Fin 60000) q := by
    funext a; apply Fin.ext
    match a with
    | ⟨0, _⟩ => show win1_5.index t (0 : Fin 2) * 400 + 1 * p.val = t.val * 400 + p.val; omega
    | ⟨1, _⟩ => show win1_5.index t (1 : Fin 2) * 4096 + 1 * q.val = q.val; omega
  rw [hemb]
  refine layer1_congr _ _ _ _ _ _ _ _ _ _ p _ q (fun k => ?_) (fun i => ?_) (fun i => ?_) (fun i => ?_) (fun i => ?_)
  · show V c main_v30 (((cfg1.win 0).blk t).view.emb (ix2 p k)) = V c main_v30 (ix2 (⟨t.val * 400 + p.val, by omega⟩ : Fin 60000) k)
    refine read_at _ _ _ fun a => ?_
    match a with
    | ⟨0, _⟩ => show win1_0.index t (0 : Fin 2) * 400 + 1 * p.val = t.val * 400 + p.val; omega
    | ⟨1, _⟩ => show win1_0.index t (1 : Fin 2) * 1024 + 1 * k.val = k.val; omega
  · show V c main_v31 (((cfg1.win 1).blk t).view.emb i) = V c main_v31 i
    refine read_at _ _ _ fun a => ?_
    match a with
    | ⟨0, _⟩ => show win1_1.index t (0 : Fin 2) * 1024 + 1 * (i 0).val = (i 0).val; omega
    | ⟨1, _⟩ => show win1_1.index t (1 : Fin 2) * 2048 + 1 * (i 1).val = (i 1).val; omega
  · show V c main_v32 (((cfg1.win 2).blk t).view.emb i) = V c main_v32 i
    refine read_at _ _ _ fun a => ?_
    match a with
    | ⟨0, _⟩ => show win1_2.index t (0 : Fin 2) * 1 + 1 * (i 0).val = (i 0).val; omega
    | ⟨1, _⟩ => show win1_2.index t (1 : Fin 2) * 2048 + 1 * (i 1).val = (i 1).val; omega
  · show V c main_v33 (((cfg1.win 3).blk t).view.emb i) = V c main_v33 i
    refine read_at _ _ _ fun a => ?_
    match a with
    | ⟨0, _⟩ => show win1_3.index t (0 : Fin 2) * 2048 + 1 * (i 0).val = (i 0).val; omega
    | ⟨1, _⟩ => show win1_3.index t (1 : Fin 2) * 4096 + 1 * (i 1).val = (i 1).val; omega
  · show V c main_v34 (((cfg1.win 4).blk t).view.emb i) = V c main_v34 i
    refine read_at _ _ _ fun a => ?_
    match a with
    | ⟨0, _⟩ => show win1_4.index t (0 : Fin 2) * 1 + 1 * (i 0).val = (i 0).val; omega
    | ⟨1, _⟩ => show win1_4.index t (1 : Fin 2) * 4096 + 1 * (i 1).val = (i 1).val; omega

/-- An index of the output array is in point t's tile iff each coordinate is in the tile's range. -/
theorem mem_blk (t : Fin cfg1.N) (i : S60000x4096.Idx) :
    i ∈ ((cfg1.win 5).blk t).view.set ↔ ∀ a : Fin 2, win1_5.index t a * S400x4096.size a ≤ (i a).val
      ∧ (i a).val < win1_5.index t a * S400x4096.size a + S400x4096.size a := by
  show i ∈ ((View.whole main_v35).slice (win1_5.rect t)).set ↔ _
  rw [View.set_slice_whole, Rect.mem_set_unit]
  exact Iff.rfl

/-- Every row is in some tile: row r in tile r / 400. -/
theorem cover (i : S60000x4096.Idx) :
    ∃ t : Fin cfg1.N, (cfg1.win 5).flush t = true ∧ i ∈ ((cfg1.win 5).blk t).view.set := by
  have hi0 : (i 0).val < 60000 := (i 0).isLt
  have hi1 : (i 1).val < 4096 := (i 1).isLt
  have hN : cfg1.N = 150 := N_1
  let t : Fin cfg1.N := ⟨(i 0).val / 400, by rw [hN]; omega⟩
  obtain ⟨e0, e1, e2, e3, e4, e5, e6, e7, e8, e9, e10, e11⟩ := idx_facts t
  have htv : t.val = (i 0).val / 400 := rfl
  refine ⟨t, flush1_5 t, ?_⟩
  rw [mem_blk]
  intro a
  match a with
  | ⟨0, _⟩ => show win1_5.index t (0 : Fin 2) * 400 ≤ (i 0).val ∧ (i 0).val < win1_5.index t (0 : Fin 2) * 400 + 400; omega
  | ⟨1, _⟩ => show win1_5.index t (1 : Fin 2) * 4096 ≤ (i 1).val ∧ (i 1).val < win1_5.index t (1 : Fin 2) * 4096 + 4096; omega

/-- The output array after the region: layer 1 of the arrays as the region finds them. -/
theorem final (c : Dev nD) : (dat1 V c).arrAt 5 cfg1.N
    = layer1 (R := 60000) (V c main_v30) (V c main_v31) (V c main_v32) (V c main_v33) (V c main_v34) :=
  (dat1 V c).arrAt_eq_of_cover 5 _ (fun t _ => flushed_eq V c t) cover

end Cert.KernelIdeal.Region1

end
-- ==== Proof.Body2.lean ====
/-
  The body of the third kernel, on a tile of 480 rows: what it stores is layer 2 of the tile it loads —
  sigmoid ((b Wl2 + bl2) Wout + bout), entry by entry.
-/
import proofs.«127801_j7292854468800_2_alg».proof.Proof.Gen.KernelIdeal.Skeleton
import proofs.«127801_j7292854468800_2_alg».proof.Proof.Spec
import proofs.«127801_j7292854468800_2_alg».proof.Proof.KernelDots
import Idealize.ShloMosaic.Lib.Pipeline.Value
import Idealize.ShloMosaic.Lib.ValueLayout

noncomputable section

namespace Cert.KernelIdeal.Body

open Idealize.ShloMosaic Idealize.ShloMosaic.ValueIdx Cert.Dense Cert.GinSpec Cert.KernelIdeal Cert.KernelIdeal.Gen

variable [Cert.KernelIdeal.Facts]

/-- The stored tile is layer 2 of the loaded tile. -/
theorem pay2_eq (x0 : Vec Ideal S480x4096 .bf16) (x1 : Vec Ideal S4096x2048 .bf16) (x2 : Vec Ideal S1x2048 .f32)
    (x3 : Vec Ideal S2048x64 .bf16) (x4 : Vec Ideal S1x64 .f32) :
    k2_pay1 (F := Ideal) x0 x1 x2 x3 x4 = layer2 (R := 480) x0 x1 x2 x3 x4 := by
  funext j
  obtain ⟨p, q, rfl⟩ : ∃ (p : Fin 480) (q : Fin 64), j = ix2 p q := ⟨j 0, j 1, eq_ix2 j⟩
  unfold k2_pay1 layer2 lin
  simp only [shapeCast_self]
  refine congrArg Ideal.logistic ?_
  simp only [truncf_apply, addf_apply, Dots.mm_480_2048_64, broadcastTo_1b_ab_apply]
  refine congrArg₂ (· + ·) (congrArg (fun X => mm X x3 (ix2 p q)) (funext fun i => ?_)) rfl
  obtain ⟨a, b, rfl⟩ : ∃ (a : Fin 480) (b : Fin 2048), i = ix2 a b := ⟨i 0, i 1, eq_ix2 i⟩
  simp only [truncf_apply, addf_apply, Dots.mm_480_4096_2048, broadcastTo_1b_ab_apply]

end Cert.KernelIdeal.Body

end
-- ==== Proof.Region2.lean ====
/-
  The third pallas_call, whole: its output array after the run is layer 2 of its input arrays as the region finds
  them.  Point t works on rows 480 t … 480 t + 479: it loads that tile of the activations and the whole weights, and
  writes back layer 2 of the tile, which by row locality is that tile of layer 2 of the whole activations; the 125
  tiles cover the 60000 rows.
-/
import proofs.«127801_j7292854468800_2_alg».proof.Proof.Gen.KernelIdeal.Frame
import proofs.«127801_j7292854468800_2_alg».proof.Proof.SpecCongr
import proofs.«127801_j7292854468800_2_alg».proof.Proof.Body2

set_option maxRecDepth 16384

noncomputable section

namespace Cert.KernelIdeal.Region2

open Idealize.ShloMosaic Idealize.ShloMosaic.TcCoe Idealize.ShloMosaic.ValueIdx Cert.GinSpec Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activations' and the output's tile is the point's number, every
    weight window is its whole array. -/
theorem idx_facts : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- What point t writes back is tile t of layer 2 of the arrays as the region finds them. -/
theorem flushed_eq (c : Dev nD) (t : Fin cfg2.N) :
    (dat2 V c).flushed 5 t = ((cfg2.win 5).blk t).view.read (Elt Ideal)
      (layer2 (R := 60000) (V c main_v35) (V c main_v36) (V c main_v37) (V c main_v38) (V c main_v39)) := by
  show (cfg2.win 5).cut (grid2.coords t) ((dat2 V c).after 5 t) = _
  rw [after2_5]
  unfold out2_5
  rw [View.canon_unit_zero hz]
  simp only [View.ld_unit_zero (S := S480x4096) hz, View.ld_unit_zero (S := S4096x2048) hz,
    View.ld_unit_zero (S := S1x2048) hz, View.ld_unit_zero (S := S2048x64) hz, View.ld_unit_zero (S := S1x64) hz]
  rw [Body.pay2_eq]
  obtain ⟨e0, e1, e2, e3, e4, e5, e6, e7, e8, e9, e10, e11⟩ := idx_facts t
  have ht : t.val < 125 := lt_of_lt_of_eq t.isLt N_2
  funext y
  obtain ⟨p, q, rfl⟩ : ∃ (p : Fin 480) (q : Fin 64), y = ix2 p q := ⟨y 0, y 1, eq_ix2 y⟩
  show layer2 (R := 480) (iblk2 V c 0 t) (iblk2 V c 1 t) (iblk2 V c 2 t) (iblk2 V c 3 t) (iblk2 V c 4 t) (ix2 p q)
    = layer2 (R := 60000) (V c main_v35) (V c main_v36) (V c main_v37) (V c main_v38) (V c main_v39)
        (((cfg2.win 5).blk t).view.emb (ix2 p q))
  have hemb : ((cfg2.win 5).blk t).view.emb (ix2 p q) = ix2 (⟨t.val * 480 + p.val, by omega⟩ : Fin 60000) q := by
    funext a; apply Fin.ext
    match a with
    | ⟨0, _⟩ => show win2_5.index t (0 : Fin 2) * 480 + 1 * p.val = t.val * 480 + p.val; omega
    | ⟨1, _⟩ => show win2_5.index t (1 : Fin 2) * 64 + 1 * q.val = q.val; omega
  rw [hemb]
  refine layer2_congr _ _ _ _ _ _ _ _ _ _ p _ q (fun k => ?_) (fun i => ?_) (fun i => ?_) (fun i => ?_) (fun i => ?_)
  · show V c main_v35 (((cfg2.win 0).blk t).view.emb (ix2 p k)) = V c main_v35 (ix2 (⟨t.val * 480 + p.val, by omega⟩ : Fin 60000) k)
    refine read_at _ _ _ fun a => ?_
    match a with
    | ⟨0, _⟩ => show win2_0.index t (0 : Fin 2) * 480 + 1 * p.val = t.val * 480 + p.val; omega
    | ⟨1, _⟩ => show win2_0.index t (1 : Fin 2) * 4096 + 1 * k.val = k.val; omega
  · show V c main_v36 (((cfg2.win 1).blk t).view.emb i) = V c main_v36 i
    refine read_at _ _ _ fun a => ?_
    match a with
    | ⟨0, _⟩ => show win2_1.index t (0 : Fin 2) * 4096 + 1 * (i 0).val = (i 0).val; omega
    | ⟨1, _⟩ => show win2_1.index t (1 : Fin 2) * 2048 + 1 * (i 1).val = (i 1).val; omega
  · show V c main_v37 (((cfg2.win 2).blk t).view.emb i) = V c main_v37 i
    refine read_at _ _ _ fun a => ?_
    match a with
    | ⟨0, _⟩ => show win2_2.index t (0 : Fin 2) * 1 + 1 * (i 0).val = (i 0).val; omega
    | ⟨1, _⟩ => show win2_2.index t (1 : Fin 2) * 2048 + 1 * (i 1).val = (i 1).val; omega
  · show V c main_v38 (((cfg2.win 3).blk t).view.emb i) = V c main_v38 i
    refine read_at _ _ _ fun a => ?_
    match a with
    | ⟨0, _⟩ => show win2_3.index t (0 : Fin 2) * 2048 + 1 * (i 0).val = (i 0).val; omega
    | ⟨1, _⟩ => show win2_3.index t (1 : Fin 2) * 64 + 1 * (i 1).val = (i 1).val; omega
  · show V c main_v39 (((cfg2.win 4).blk t).view.emb i) = V c main_v39 i
    refine read_at _ _ _ fun a => ?_
    match a with
    | ⟨0, _⟩ => show win2_4.index t (0 : Fin 2) * 1 + 1 * (i 0).val = (i 0).val; omega
    | ⟨1, _⟩ => show win2_4.index t (1 : Fin 2) * 64 + 1 * (i 1).val = (i 1).val; omega

/-- An index of the output array is in point t's tile iff each coordinate is in the tile's range. -/
theorem mem_blk (t : Fin cfg2.N) (i : S60000x64.Idx) :
    i ∈ ((cfg2.win 5).blk t).view.set ↔ ∀ a : Fin 2, win2_5.index t a * S480x64.size a ≤ (i a).val
      ∧ (i a).val < win2_5.index t a * S480x64.size a + S480x64.size a := by
  show i ∈ ((View.whole main_v40).slice (win2_5.rect t)).set ↔ _
  rw [View.set_slice_whole, Rect.mem_set_unit]
  exact Iff.rfl

/-- Every row is in some tile: row r in tile r / 480. -/
theorem cover (i : S60000x64.Idx) :
    ∃ t : Fin cfg2.N, (cfg2.win 5).flush t = true ∧ i ∈ ((cfg2.win 5).blk t).view.set := by
  have hi0 : (i 0).val < 60000 := (i 0).isLt
  have hi1 : (i 1).val < 64 := (i 1).isLt
  have hN : cfg2.N = 125 := N_2
  let t : Fin cfg2.N := ⟨(i 0).val / 480, by rw [hN]; omega⟩
  obtain ⟨e0, e1, e2, e3, e4, e5, e6, e7, e8, e9, e10, e11⟩ := idx_facts t
  have htv : t.val = (i 0).val / 480 := rfl
  refine ⟨t, flush2_5 t, ?_⟩
  rw [mem_blk]
  intro a
  match a with
  | ⟨0, _⟩ => show win2_5.index t (0 : Fin 2) * 480 ≤ (i 0).val ∧ (i 0).val < win2_5.index t (0 : Fin 2) * 480 + 480; omega
  | ⟨1, _⟩ => show win2_5.index t (1 : Fin 2) * 64 ≤ (i 1).val ∧ (i 1).val < win2_5.index t (1 : Fin 2) * 64 + 64; omega

/-- The output array after the region: layer 2 of the arrays as the region finds them. -/
theorem final (c : Dev nD) : (dat2 V c).arrAt 5 cfg2.N
    = layer2 (R := 60000) (V c main_v35) (V c main_v36) (V c main_v37) (V c main_v38) (V c main_v39) :=
  (dat2 V c).arrAt_eq_of_cover 5 _ (fun t _ => flushed_eq V c t) cover

end Cert.KernelIdeal.Region2

end
-- ==== Proof.HostReads.lean ====
/-
  The host operations of the kernel program, read back: the aggregate agg = segment_sum (x[src], dst) as one function
  of x and the edge list, each weight matrix's change of float format, each bias or statistic vector's view as a
  [1, C] row, and the buffers a stretch of operations leaves alone.  Each is stated from an arbitrary contents W of the
  buffers at the stretch's start.
-/
import proofs.«127801_j7292854468800_2_alg».proof.Proof.Gen.KernelIdeal.Launch
import Idealize.ShloMosaic.Lib.StableHlo.Run
import Idealize.ShloMosaic.PureOps.Ideal

set_option maxRecDepth 16384

noncomputable section

namespace Cert.KernelIdeal.HostReads

open Idealize.ShloMosaic Idealize.ShloMosaic.TcCoe Cert.KernelIdeal Cert.KernelIdeal.Gen Idealize.ShloMosaic.StableHlo

/-- The aggregate: the rows of x gathered at the edges' sources (row 0 of the edge list; a negative index counted from
    the end), added into a zero matrix at the edges' destinations (row 1 of the edge list). -/
def agg (x : (⟨S60000x128, .f32⟩ : BufTy).Contents (Elt Ideal)) (ei : (⟨S2x960000, .i32⟩ : BufTy).Contents (Elt Ideal)) :
    (⟨S60000x128, .f32⟩ : BufTy).Contents (Elt Ideal) :=
  Host.scatterAdd (F := Ideal) scatter_S60000x128_S960000x1_S960000x128_1_0_0_1
    (broadcastInDim S60000x128 ![] bcast_S_S60000x128 (constant (F := Ideal) S_ .f32 0x00000000#32))
    (broadcastInDim S960000x1 ![0] bcast_S960000_S960000x1_0 (shapeCast S960000 (extractStridedSlice S1x960000 ![1, 0] ei slices_S2x960000_S1x960000_1_0) shapeCasts_S1x960000_S960000))
    (Host.gather gather_S60000x128_S960000x1_S960000x128_1_0_n_n_0_1_1128 x
      (broadcastInDim S960000x1 ![0] bcast_S960000_S960000x1_0
        (select (cmpi .slt (shapeCast S960000 (extractStridedSlice S1x960000 ![0, 0] ei slices_S2x960000_S1x960000_0_0) shapeCasts_S1x960000_S960000) (broadcastInDim S960000 ![] bcast_S_S960000 (constantI S_ 32 0#32)))
          (addi (shapeCast S960000 (extractStridedSlice S1x960000 ![0, 0] ei slices_S2x960000_S1x960000_0_0) shapeCasts_S1x960000_S960000) (broadcastInDim S960000 ![] bcast_S_S960000 (constantI S_ 32 60000#32))) (shapeCast S960000 (extractStridedSlice S1x960000 ![0, 0] ei slices_S2x960000_S1x960000_0_0) shapeCasts_S1x960000_S960000))))

variable (W : Valuation τ sig (Elt Ideal))

/-! ## The first stretch -/

theorem v13 : StableHlo.after (hostOps0 (F := Ideal)) W (Proc.devRef .tc main_v13)
    = agg (W (Proc.devRef .tc main_arg0)) (W (Proc.devRef .tc main_arg1)) := by
  after_results_simp <;> rfl

theorem v14 : StableHlo.after (hostOps0 (F := Ideal)) W (Proc.devRef .tc main_v14)
    = (show FVec Ideal S128x512 .bf16 from truncf .bf16 (show FVec Ideal S128x512 .f32 from W (Proc.devRef .tc main_arg2)) bitsLt_bf16_f32) := by
  after_results_simp <;> rfl

theorem v15 : StableHlo.after (hostOps0 (F := Ideal)) W (Proc.devRef .tc main_v15) = shapeCast S1x512 (W (Proc.devRef .tc main_arg3)) shapeCasts_S512_S1x512 := by
  after_results_simp <;> rfl

theorem v16 : StableHlo.after (hostOps0 (F := Ideal)) W (Proc.devRef .tc main_v16) = shapeCast S1x512 (W (Proc.devRef .tc main_arg4)) shapeCasts_S512_S1x512 := by
  after_results_simp <;> rfl

theorem v17 : StableHlo.after (hostOps0 (F := Ideal)) W (Proc.devRef .tc main_v17) = shapeCast S1x512 (W (Proc.devRef .tc main_arg5)) shapeCasts_S512_S1x512 := by
  after_results_simp <;> rfl

theorem v18 : StableHlo.after (hostOps0 (F := Ideal)) W (Proc.devRef .tc main_v18) = shapeCast S1x512 (W (Proc.devRef .tc main_arg6)) shapeCasts_S512_S1x512 := by
  after_results_simp <;> rfl

theorem v19 : StableHlo.after (hostOps0 (F := Ideal)) W (Proc.devRef .tc main_v19) = shapeCast S1x512 (W (Proc.devRef .tc main_arg7)) shapeCasts_S512_S1x512 := by
  after_results_simp <;> rfl

theorem v20 : StableHlo.after (hostOps0 (F := Ideal)) W (Proc.devRef .tc main_v20)
    = (show FVec Ideal S512x512 .bf16 from truncf .bf16 (show FVec Ideal S512x512 .f32 from W (Proc.devRef .tc main_arg8)) bitsLt_bf16_f32) := by
  after_results_simp <;> rfl

theorem v21 : StableHlo.after (hostOps0 (F := Ideal)) W (Proc.devRef .tc main_v21) = shapeCast S1x512 (W (Proc.devRef .tc main_arg9)) shapeCasts_S512_S1x512 := by
  after_results_simp <;> rfl

theorem v22 : StableHlo.after (hostOps0 (F := Ideal)) W (Proc.devRef .tc main_v22)
    = (show FVec Ideal S128x512 .bf16 from truncf .bf16 (show FVec Ideal S128x512 .f32 from W (Proc.devRef .tc main_arg10)) bitsLt_bf16_f32) := by
  after_results_simp <;> rfl

theorem v23 : StableHlo.after (hostOps0 (F := Ideal)) W (Proc.devRef .tc main_v23) = shapeCast S1x512 (W (Proc.devRef .tc main_arg11)) shapeCasts_S512_S1x512 := by
  after_results_simp <;> rfl

theorem v24 : StableHlo.after (hostOps0 (F := Ideal)) W (Proc.devRef .tc main_v24) = shapeCast S1x512 (W (Proc.devRef .tc main_arg12)) shapeCasts_S512_S1x512 := by
  after_results_simp <;> rfl

theorem v25 : StableHlo.after (hostOps0 (F := Ideal)) W (Proc.devRef .tc main_v25) = shapeCast S1x512 (W (Proc.devRef .tc main_arg13)) shapeCasts_S512_S1x512 := by
  after_results_simp <;> rfl

theorem v26 : StableHlo.after (hostOps0 (F := Ideal)) W (Proc.devRef .tc main_v26) = shapeCast S1x512 (W (Proc.devRef .tc main_arg14)) shapeCasts_S512_S1x512 := by
  after_results_simp <;> rfl

theorem v27 : StableHlo.after (hostOps0 (F := Ideal)) W (Proc.devRef .tc main_v27) = shapeCast S1x512 (W (Proc.devRef .tc main_arg15)) shapeCasts_S512_S1x512 := by
  after_results_simp <;> rfl

theorem v28 : StableHlo.after (hostOps0 (F := Ideal)) W (Proc.devRef .tc main_v28)
    = (show FVec Ideal S512x512 .bf16 from truncf .bf16 (show FVec Ideal S512x512 .f32 from W (Proc.devRef .tc main_arg16)) bitsLt_bf16_f32) := by
  after_results_simp <;> rfl

theorem v29 : StableHlo.after (hostOps0 (F := Ideal)) W (Proc.devRef .tc main_v29) = shapeCast S1x512 (W (Proc.devRef .tc main_arg17)) shapeCasts_S512_S1x512 := by
  after_results_simp <;> rfl

theorem keep0_arg0 : StableHlo.after (hostOps0 (F := Ideal)) W (Proc.devRef .tc main_arg0) = W (Proc.devRef .tc main_arg0) :=
  StableHlo.after_of_forall_not_mem (b := (Proc.devRef .tc main_arg0)) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem keep0_arg18 : StableHlo.after (hostOps0 (F := Ideal)) W (Proc.devRef .tc main_arg18) = W (Proc.devRef .tc main_arg18) :=
  StableHlo.after_of_forall_not_mem (b := (Proc.devRef .tc main_arg18)) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem keep0_arg19 : StableHlo.after (hostOps0 (F := Ideal)) W (Proc.devRef .tc main_arg19) = W (Proc.devRef .tc main_arg19) :=
  StableHlo.after_of_forall_not_mem (b := (Proc.devRef .tc main_arg19)) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem keep0_arg20 : StableHlo.after (hostOps0 (F := Ideal)) W (Proc.devRef .tc main_arg20) = W (Proc.devRef .tc main_arg20) :=
  StableHlo.after_of_forall_not_mem (b := (Proc.devRef .tc main_arg20)) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem keep0_arg21 : StableHlo.after (hostOps0 (F := Ideal)) W (Proc.devRef .tc main_arg21) = W (Proc.devRef .tc main_arg21) :=
  StableHlo.after_of_forall_not_mem (b := (Proc.devRef .tc main_arg21)) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem keep0_arg22 : StableHlo.after (hostOps0 (F := Ideal)) W (Proc.devRef .tc main_arg22) = W (Proc.devRef .tc main_arg22) :=
  StableHlo.after_of_forall_not_mem (b := (Proc.devRef .tc main_arg22)) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem keep0_arg23 : StableHlo.after (hostOps0 (F := Ideal)) W (Proc.devRef .tc main_arg23) = W (Proc.devRef .tc main_arg23) :=
  StableHlo.after_of_forall_not_mem (b := (Proc.devRef .tc main_arg23)) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem keep0_arg24 : StableHlo.after (hostOps0 (F := Ideal)) W (Proc.devRef .tc main_arg24) = W (Proc.devRef .tc main_arg24) :=
  StableHlo.after_of_forall_not_mem (b := (Proc.devRef .tc main_arg24)) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem keep0_arg25 : StableHlo.after (hostOps0 (F := Ideal)) W (Proc.devRef .tc main_arg25) = W (Proc.devRef .tc main_arg25) :=
  StableHlo.after_of_forall_not_mem (b := (Proc.devRef .tc main_arg25)) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The second stretch -/

theorem v31 : StableHlo.after (hostOps1 (F := Ideal)) W (Proc.devRef .tc main_v31)
    = (show FVec Ideal S1024x2048 .bf16 from truncf .bf16 (show FVec Ideal S1024x2048 .f32 from W (Proc.devRef .tc main_arg18)) bitsLt_bf16_f32) := by
  after_results <;> rfl
theorem v32 : StableHlo.after (hostOps1 (F := Ideal)) W (Proc.devRef .tc main_v32) = shapeCast S1x2048 (W (Proc.devRef .tc main_arg19)) shapeCasts_S2048_S1x2048 := by
  after_results <;> rfl
theorem v33 : StableHlo.after (hostOps1 (F := Ideal)) W (Proc.devRef .tc main_v33)
    = (show FVec Ideal S2048x4096 .bf16 from truncf .bf16 (show FVec Ideal S2048x4096 .f32 from W (Proc.devRef .tc main_arg20)) bitsLt_bf16_f32) := by
  after_results <;> rfl
theorem v34 : StableHlo.after (hostOps1 (F := Ideal)) W (Proc.devRef .tc main_v34) = shapeCast S1x4096 (W (Proc.devRef .tc main_arg21)) shapeCasts_S4096_S1x4096 := by
  after_results <;> rfl

theorem keep1_v30 : StableHlo.after (hostOps1 (F := Ideal)) W (Proc.devRef .tc main_v30) = W (Proc.devRef .tc main_v30) :=
  StableHlo.after_of_forall_not_mem (b := (Proc.devRef .tc main_v30)) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem keep1_arg22 : StableHlo.after (hostOps1 (F := Ideal)) W (Proc.devRef .tc main_arg22) = W (Proc.devRef .tc main_arg22) :=
  StableHlo.after_of_forall_not_mem (b := (Proc.devRef .tc main_arg22)) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem keep1_arg23 : StableHlo.after (hostOps1 (F := Ideal)) W (Proc.devRef .tc main_arg23) = W (Proc.devRef .tc main_arg23) :=
  StableHlo.after_of_forall_not_mem (b := (Proc.devRef .tc main_arg23)) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem keep1_arg24 : StableHlo.after (hostOps1 (F := Ideal)) W (Proc.devRef .tc main_arg24) = W (Proc.devRef .tc main_arg24) :=
  StableHlo.after_of_forall_not_mem (b := (Proc.devRef .tc main_arg24)) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem keep1_arg25 : StableHlo.after (hostOps1 (F := Ideal)) W (Proc.devRef .tc main_arg25) = W (Proc.devRef .tc main_arg25) :=
  StableHlo.after_of_forall_not_mem (b := (Proc.devRef .tc main_arg25)) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The third stretch -/

theorem v36 : StableHlo.after (hostOps2 (F := Ideal)) W (Proc.devRef .tc main_v36)
    = (show FVec Ideal S4096x2048 .bf16 from truncf .bf16 (show FVec Ideal S4096x2048 .f32 from W (Proc.devRef .tc main_arg22)) bitsLt_bf16_f32) := by
  after_results <;> rfl
theorem v37 : StableHlo.after (hostOps2 (F := Ideal)) W (Proc.devRef .tc main_v37) = shapeCast S1x2048 (W (Proc.devRef .tc main_arg23)) shapeCasts_S2048_S1x2048 := by
  after_results <;> rfl
theorem v38 : StableHlo.after (hostOps2 (F := Ideal)) W (Proc.devRef .tc main_v38)
    = (show FVec Ideal S2048x64 .bf16 from truncf .bf16 (show FVec Ideal S2048x64 .f32 from W (Proc.devRef .tc main_arg24)) bitsLt_bf16_f32) := by
  after_results <;> rfl
theorem v39 : StableHlo.after (hostOps2 (F := Ideal)) W (Proc.devRef .tc main_v39) = shapeCast S1x64 (W (Proc.devRef .tc main_arg25)) shapeCasts_S64_S1x64 := by
  after_results <;> rfl

theorem keep2_v35 : StableHlo.after (hostOps2 (F := Ideal)) W (Proc.devRef .tc main_v35) = W (Proc.devRef .tc main_v35) :=
  StableHlo.after_of_forall_not_mem (b := (Proc.devRef .tc main_v35)) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelIdeal.HostReads

end
-- ==== Proof.KernelValue.lean ====
/-
  The kernel program's result array, read through its three regions: the last region leaves layer 2 of what the
  second left and of the last two weight matrices and biases; the second leaves layer 1 of what the first left; the
  first leaves layer 0 of x, the aggregate and the two branches' parameters.  Between the regions the host only
  changes the weights' float format (the identity on the extended reals) and views each bias or statistic vector as a
  [1, C] row.  So the result is the whole network of the argument arrays.
-/
import proofs.«127801_j7292854468800_2_alg».proof.Proof.Gen.KernelIdeal.Frame
import proofs.«127801_j7292854468800_2_alg».proof.Proof.SpecCongr
import proofs.«127801_j7292854468800_2_alg».proof.Proof.Region0
import proofs.«127801_j7292854468800_2_alg».proof.Proof.Region1
import proofs.«127801_j7292854468800_2_alg».proof.Proof.Region2
import proofs.«127801_j7292854468800_2_alg».proof.Proof.HostReads
import Idealize.ShloMosaic.Lib.ValueLayout

set_option maxRecDepth 16384

noncomputable section

namespace Cert.KernelIdeal.KValue

open Idealize.ShloMosaic Idealize.ShloMosaic.TcCoe Idealize.ShloMosaic.ValueIdx Cert.GinSpec Cert.Dense
open Cert.KernelIdeal Cert.KernelIdeal.Gen

/-- A vector viewed as a [1, C] row, entry by entry. -/
theorem row_of_cast {C : Nat} (b : (⟨1, ![C]⟩ : Shape).Idx → EReal) (h : (⟨1, ![C]⟩ : Shape).ShapeCasts ⟨2, ![1, C]⟩)
    (i : (⟨2, ![1, C]⟩ : Shape).Idx) : shapeCast ⟨2, ![1, C]⟩ b h i = row b i := by
  obtain ⟨u, j, rfl⟩ : ∃ (u : Fin 1) (j : Fin C), i = ix2 u j := ⟨i 0, i 1, eq_ix2 i⟩
  exact shapeCast_a_1a_apply b h u j

variable (m : (ℓ : Loc nD τ sig) → Buf (Elt Ideal) ℓ) (ρ : Dev nD → PrngReg) (c : Dev nD)

/-! ## The argument arrays at the later boundaries: nothing writes them -/

theorem arg22_at4 : W4 m ρ c (Proc.devRef .tc main_arg22) = (m ((c : Thread nD τ).loc main_arg22)) :=
  (W4_of_ne m ρ c main_arg22 (by decide)).trans ((HostReads.keep1_arg22 (W2 m ρ c)).trans
    ((W2_of_ne m ρ c main_arg22 (by decide)).trans (HostReads.keep0_arg22 (W0 m ρ c))))

theorem arg23_at4 : W4 m ρ c (Proc.devRef .tc main_arg23) = (m ((c : Thread nD τ).loc main_arg23)) :=
  (W4_of_ne m ρ c main_arg23 (by decide)).trans ((HostReads.keep1_arg23 (W2 m ρ c)).trans
    ((W2_of_ne m ρ c main_arg23 (by decide)).trans (HostReads.keep0_arg23 (W0 m ρ c))))

theorem arg24_at4 : W4 m ρ c (Proc.devRef .tc main_arg24) = (m ((c : Thread nD τ).loc main_arg24)) :=
  (W4_of_ne m ρ c main_arg24 (by decide)).trans ((HostReads.keep1_arg24 (W2 m ρ c)).trans
    ((W2_of_ne m ρ c main_arg24 (by decide)).trans (HostReads.keep0_arg24 (W0 m ρ c))))

theorem arg25_at4 : W4 m ρ c (Proc.devRef .tc main_arg25) = (m ((c : Thread nD τ).loc main_arg25)) :=
  (W4_of_ne m ρ c main_arg25 (by decide)).trans ((HostReads.keep1_arg25 (W2 m ρ c)).trans
    ((W2_of_ne m ρ c main_arg25 (by decide)).trans (HostReads.keep0_arg25 (W0 m ρ c))))

theorem arg18_at2 : W2 m ρ c (Proc.devRef .tc main_arg18) = (m ((c : Thread nD τ).loc main_arg18)) :=
  (W2_of_ne m ρ c main_arg18 (by decide)).trans (HostReads.keep0_arg18 (W0 m ρ c))

theorem arg19_at2 : W2 m ρ c (Proc.devRef .tc main_arg19) = (m ((c : Thread nD τ).loc main_arg19)) :=
  (W2_of_ne m ρ c main_arg19 (by decide)).trans (HostReads.keep0_arg19 (W0 m ρ c))

theorem arg20_at2 : W2 m ρ c (Proc.devRef .tc main_arg20) = (m ((c : Thread nD τ).loc main_arg20)) :=
  (W2_of_ne m ρ c main_arg20 (by decide)).trans (HostReads.keep0_arg20 (W0 m ρ c))

theorem arg21_at2 : W2 m ρ c (Proc.devRef .tc main_arg21) = (m ((c : Thread nD τ).loc main_arg21)) :=
  (W2_of_ne m ρ c main_arg21 (by decide)).trans (HostReads.keep0_arg21 (W0 m ρ c))

/-! ## Each region's input arrays -/

theorem in2_1 (i) : V5 m ρ c main_v36 i = (m ((c : Thread nD τ).loc main_arg22)) i := by
  show StableHlo.after (hostOps2 (F := Ideal)) (W4 m ρ c) (Proc.devRef .tc main_v36) i = _
  rw [HostReads.v36, arg22_at4 m ρ c]
  rfl

theorem in2_2 (i) : V5 m ρ c main_v37 i = row (m ((c : Thread nD τ).loc main_arg23)) i := by
  show StableHlo.after (hostOps2 (F := Ideal)) (W4 m ρ c) (Proc.devRef .tc main_v37) i = _
  rw [HostReads.v37, arg23_at4 m ρ c]
  exact row_of_cast _ _ i

theorem in2_3 (i) : V5 m ρ c main_v38 i = (m ((c : Thread nD τ).loc main_arg24)) i := by
  show StableHlo.after (hostOps2 (F := Ideal)) (W4 m ρ c) (Proc.devRef .tc main_v38) i = _
  rw [HostReads.v38, arg24_at4 m ρ c]
  rfl

theorem in2_4 (i) : V5 m ρ c main_v39 i = row (m ((c : Thread nD τ).loc main_arg25)) i := by
  show StableHlo.after (hostOps2 (F := Ideal)) (W4 m ρ c) (Proc.devRef .tc main_v39) i = _
  rw [HostReads.v39, arg25_at4 m ρ c]
  exact row_of_cast _ _ i

theorem in1_1 (i) : V3 m ρ c main_v31 i = (m ((c : Thread nD τ).loc main_arg18)) i := by
  show StableHlo.after (hostOps1 (F := Ideal)) (W2 m ρ c) (Proc.devRef .tc main_v31) i = _
  rw [HostReads.v31, arg18_at2 m ρ c]
  rfl

theorem in1_2 (i) : V3 m ρ c main_v32 i = row (m ((c : Thread nD τ).loc main_arg19)) i := by
  show StableHlo.after (hostOps1 (F := Ideal)) (W2 m ρ c) (Proc.devRef .tc main_v32) i = _
  rw [HostReads.v32, arg19_at2 m ρ c]
  exact row_of_cast _ _ i

theorem in1_3 (i) : V3 m ρ c main_v33 i = (m ((c : Thread nD τ).loc main_arg20)) i := by
  show StableHlo.after (hostOps1 (F := Ideal)) (W2 m ρ c) (Proc.devRef .tc main_v33) i = _
  rw [HostReads.v33, arg20_at2 m ρ c]
  rfl

theorem in1_4 (i) : V3 m ρ c main_v34 i = row (m ((c : Thread nD τ).loc main_arg21)) i := by
  show StableHlo.after (hostOps1 (F := Ideal)) (W2 m ρ c) (Proc.devRef .tc main_v34) i = _
  rw [HostReads.v34, arg21_at2 m ρ c]
  exact row_of_cast _ _ i

theorem in0_14 (i) : V1 m ρ c main_v14 i = (m ((c : Thread nD τ).loc main_arg2)) i := by
  show StableHlo.after (hostOps0 (F := Ideal)) (W0 m ρ c) (Proc.devRef .tc main_v14) i = _
  rw [HostReads.v14]
  rfl

theorem in0_15 (i) : V1 m ρ c main_v15 i = row (m ((c : Thread nD τ).loc main_arg3)) i := by
  show StableHlo.after (hostOps0 (F := Ideal)) (W0 m ρ c) (Proc.devRef .tc main_v15) i = _
  rw [HostReads.v15]
  exact row_of_cast _ _ i

theorem in0_16 (i) : V1 m ρ c main_v16 i = row (m ((c : Thread nD τ).loc main_arg4)) i := by
  show StableHlo.after (hostOps0 (F := Ideal)) (W0 m ρ c) (Proc.devRef .tc main_v16) i = _
  rw [HostReads.v16]
  exact row_of_cast _ _ i

theorem in0_17 (i) : V1 m ρ c main_v17 i = row (m ((c : Thread nD τ).loc main_arg5)) i := by
  show StableHlo.after (hostOps0 (F := Ideal)) (W0 m ρ c) (Proc.devRef .tc main_v17) i = _
  rw [HostReads.v17]
  exact row_of_cast _ _ i

theorem in0_18 (i) : V1 m ρ c main_v18 i = row (m ((c : Thread nD τ).loc main_arg6)) i := by
  show StableHlo.after (hostOps0 (F := Ideal)) (W0 m ρ c) (Proc.devRef .tc main_v18) i = _
  rw [HostReads.v18]
  exact row_of_cast _ _ i

theorem in0_19 (i) : V1 m ρ c main_v19 i = row (m ((c : Thread nD τ).loc main_arg7)) i := by
  show StableHlo.after (hostOps0 (F := Ideal)) (W0 m ρ c) (Proc.devRef .tc main_v19) i = _
  rw [HostReads.v19]
  exact row_of_cast _ _ i

theorem in0_20 (i) : V1 m ρ c main_v20 i = (m ((c : Thread nD τ).loc main_arg8)) i := by
  show StableHlo.after (hostOps0 (F := Ideal)) (W0 m ρ c) (Proc.devRef .tc main_v20) i = _
  rw [HostReads.v20]
  rfl

theorem in0_21 (i) : V1 m ρ c main_v21 i = row (m ((c : Thread nD τ).loc main_arg9)) i := by
  show StableHlo.after (hostOps0 (F := Ideal)) (W0 m ρ c) (Proc.devRef .tc main_v21) i = _
  rw [HostReads.v21]
  exact row_of_cast _ _ i

theorem in0_22 (i) : V1 m ρ c main_v22 i = (m ((c : Thread nD τ).loc main_arg10)) i := by
  show StableHlo.after (hostOps0 (F := Ideal)) (W0 m ρ c) (Proc.devRef .tc main_v22) i = _
  rw [HostReads.v22]
  rfl

theorem in0_23 (i) : V1 m ρ c main_v23 i = row (m ((c : Thread nD τ).loc main_arg11)) i := by
  show StableHlo.after (hostOps0 (F := Ideal)) (W0 m ρ c) (Proc.devRef .tc main_v23) i = _
  rw [HostReads.v23]
  exact row_of_cast _ _ i

theorem in0_24 (i) : V1 m ρ c main_v24 i = row (m ((c : Thread nD τ).loc main_arg12)) i := by
  show StableHlo.after (hostOps0 (F := Ideal)) (W0 m ρ c) (Proc.devRef .tc main_v24) i = _
  rw [HostReads.v24]
  exact row_of_cast _ _ i

theorem in0_25 (i) : V1 m ρ c main_v25 i = row (m ((c : Thread nD τ).loc main_arg13)) i := by
  show StableHlo.after (hostOps0 (F := Ideal)) (W0 m ρ c) (Proc.devRef .tc main_v25) i = _
  rw [HostReads.v25]
  exact row_of_cast _ _ i

theorem in0_26 (i) : V1 m ρ c main_v26 i = row (m ((c : Thread nD τ).loc main_arg14)) i := by
  show StableHlo.after (hostOps0 (F := Ideal)) (W0 m ρ c) (Proc.devRef .tc main_v26) i = _
  rw [HostReads.v26]
  exact row_of_cast _ _ i

theorem in0_27 (i) : V1 m ρ c main_v27 i = row (m ((c : Thread nD τ).loc main_arg15)) i := by
  show StableHlo.after (hostOps0 (F := Ideal)) (W0 m ρ c) (Proc.devRef .tc main_v27) i = _
  rw [HostReads.v27]
  exact row_of_cast _ _ i

theorem in0_28 (i) : V1 m ρ c main_v28 i = (m ((c : Thread nD τ).loc main_arg16)) i := by
  show StableHlo.after (hostOps0 (F := Ideal)) (W0 m ρ c) (Proc.devRef .tc main_v28) i = _
  rw [HostReads.v28]
  rfl

theorem in0_29 (i) : V1 m ρ c main_v29 i = row (m ((c : Thread nD τ).loc main_arg17)) i := by
  show StableHlo.after (hostOps0 (F := Ideal)) (W0 m ρ c) (Proc.devRef .tc main_v29) i = _
  rw [HostReads.v29]
  exact row_of_cast _ _ i

/-- The third region's activations are what the second region left. -/
theorem in2_0 : V5 m ρ c main_v35 = (dat1 (V3 m ρ) c).arrAt 5 cfg1.N :=
  (HostReads.keep2_v35 (W4 m ρ c)).trans (W4_arr m ρ c 5)

/-- The second region's activations are what the first region left. -/
theorem in1_0 : V3 m ρ c main_v30 = (dat0 (V1 m ρ) c).arrAt 18 cfg0.N :=
  (HostReads.keep1_v30 (W2 m ρ c)).trans (W2_arr m ρ c 18)

theorem in0_x : V1 m ρ c main_arg0 = (m ((c : Thread nD τ).loc main_arg0)) := HostReads.keep0_arg0 (W0 m ρ c)

theorem in0_agg : V1 m ρ c main_v13 = HostReads.agg (m ((c : Thread nD τ).loc main_arg0)) (m ((c : Thread nD τ).loc main_arg1)) :=
  HostReads.v13 (W0 m ρ c)

set_option maxHeartbeats 4000000 in
theorem in0_Pa : (⟨V1 m ρ c main_v14, V1 m ρ c main_v15, V1 m ρ c main_v16, V1 m ρ c main_v17, V1 m ρ c main_v18,
      V1 m ρ c main_v19, V1 m ρ c main_v20, V1 m ρ c main_v21⟩ : BranchP)
    = ⟨(m ((c : Thread nD τ).loc main_arg2)), row (m ((c : Thread nD τ).loc main_arg3)), row (m ((c : Thread nD τ).loc main_arg4)), row (m ((c : Thread nD τ).loc main_arg5)), row (m ((c : Thread nD τ).loc main_arg6)), row (m ((c : Thread nD τ).loc main_arg7)), (m ((c : Thread nD τ).loc main_arg8)), row (m ((c : Thread nD τ).loc main_arg9))⟩ :=
  BranchP.ext' _ _ (in0_14 m ρ c) (in0_15 m ρ c) (in0_16 m ρ c) (in0_17 m ρ c) (in0_18 m ρ c) (in0_19 m ρ c)
    (in0_20 m ρ c) (in0_21 m ρ c)

set_option maxHeartbeats 4000000 in
theorem in0_Pb : (⟨V1 m ρ c main_v22, V1 m ρ c main_v23, V1 m ρ c main_v24, V1 m ρ c main_v25, V1 m ρ c main_v26,
      V1 m ρ c main_v27, V1 m ρ c main_v28, V1 m ρ c main_v29⟩ : BranchP)
    = ⟨(m ((c : Thread nD τ).loc main_arg10)), row (m ((c : Thread nD τ).loc main_arg11)), row (m ((c : Thread nD τ).loc main_arg12)), row (m ((c : Thread nD τ).loc main_arg13)), row (m ((c : Thread nD τ).loc main_arg14)), row (m ((c : Thread nD τ).loc main_arg15)), (m ((c : Thread nD τ).loc main_arg16)), row (m ((c : Thread nD τ).loc main_arg17))⟩ :=
  BranchP.ext' _ _ (in0_22 m ρ c) (in0_23 m ρ c) (in0_24 m ρ c) (in0_25 m ρ c) (in0_26 m ρ c) (in0_27 m ρ c)
    (in0_28 m ρ c) (in0_29 m ρ c)

/-! ## The result -/

/-- The result array at the last boundary is the whole network of the argument arrays. -/
theorem result : W6 m ρ c (Proc.devRef .tc main_v40)
    = net (R := 60000) (m ((c : Thread nD τ).loc main_arg0)) (HostReads.agg (m ((c : Thread nD τ).loc main_arg0)) (m ((c : Thread nD τ).loc main_arg1)))
      ⟨(m ((c : Thread nD τ).loc main_arg2)), row (m ((c : Thread nD τ).loc main_arg3)), row (m ((c : Thread nD τ).loc main_arg4)), row (m ((c : Thread nD τ).loc main_arg5)), row (m ((c : Thread nD τ).loc main_arg6)), row (m ((c : Thread nD τ).loc main_arg7)), (m ((c : Thread nD τ).loc main_arg8)), row (m ((c : Thread nD τ).loc main_arg9))⟩
      ⟨(m ((c : Thread nD τ).loc main_arg10)), row (m ((c : Thread nD τ).loc main_arg11)), row (m ((c : Thread nD τ).loc main_arg12)), row (m ((c : Thread nD τ).loc main_arg13)), row (m ((c : Thread nD τ).loc main_arg14)), row (m ((c : Thread nD τ).loc main_arg15)), (m ((c : Thread nD τ).loc main_arg16)), row (m ((c : Thread nD τ).loc main_arg17))⟩
      (m ((c : Thread nD τ).loc main_arg18)) (row (m ((c : Thread nD τ).loc main_arg19))) (m ((c : Thread nD τ).loc main_arg20)) (row (m ((c : Thread nD τ).loc main_arg21))) (m ((c : Thread nD τ).loc main_arg22)) (row (m ((c : Thread nD τ).loc main_arg23))) (m ((c : Thread nD τ).loc main_arg24)) (row (m ((c : Thread nD τ).loc main_arg25))) := by
  refine ((W6_arr m ρ c 5).trans (Region2.final (V5 m ρ) c)).trans ?_
  funext j
  obtain ⟨r, q, rfl⟩ : ∃ (r : Fin 60000) (q : Fin 64), j = ix2 r q := ⟨j 0, j 1, eq_ix2 j⟩
  unfold net
  refine layer2_congr _ _ _ _ _ _ _ _ _ _ r r q (fun k => ?_) (in2_1 m ρ c) (in2_2 m ρ c) (in2_3 m ρ c) (in2_4 m ρ c)
  rw [in2_0, Region1.final (V3 m ρ) c]
  refine layer1_congr _ _ _ _ _ _ _ _ _ _ r r k (fun k' => ?_) (in1_1 m ρ c) (in1_2 m ρ c) (in1_3 m ρ c) (in1_4 m ρ c)
  rw [in1_0, Region0.final (V1 m ρ) c, in0_x, in0_agg, in0_Pa, in0_Pb]

end Cert.KernelIdeal.KValue

end
-- ==== Proof.KernelClaim.lean ====
/-
  The kernel program's run, read: from any launch memory every weakly fair execution of @main terminates, nothing
  faulting, with the result array at the whole network of the argument arrays and the argument arrays unchanged.
-/
import proofs.«127801_j7292854468800_2_alg».proof.Proof.KernelRun
import proofs.«127801_j7292854468800_2_alg».proof.Proof.KernelValue

set_option maxRecDepth 16384

noncomputable section

namespace Cert.KernelIdeal.KValue

open Idealize.ShloMosaic Idealize.ShloMosaic.TcCoe Idealize.ShloMosaic.ValueIdx Idealize.SL.Sem Cert.GinSpec Cert.Dense
open Cert.KernelIdeal Cert.KernelIdeal.Gen

variable (m : (ℓ : Loc nD τ sig) → Buf (Elt Ideal) ℓ) (ρ : Dev nD → PrngReg)

/-- The network of the launch memory's argument arrays. -/
def out (c : Dev nD) : Buf (Elt Ideal) ((c : Thread nD τ).loc main_v40) :=
  net (R := 60000) (m ((c : Thread nD τ).loc main_arg0)) (HostReads.agg (m ((c : Thread nD τ).loc main_arg0)) (m ((c : Thread nD τ).loc main_arg1)))
      ⟨(m ((c : Thread nD τ).loc main_arg2)), row (m ((c : Thread nD τ).loc main_arg3)), row (m ((c : Thread nD τ).loc main_arg4)), row (m ((c : Thread nD τ).loc main_arg5)), row (m ((c : Thread nD τ).loc main_arg6)), row (m ((c : Thread nD τ).loc main_arg7)), (m ((c : Thread nD τ).loc main_arg8)), row (m ((c : Thread nD τ).loc main_arg9))⟩
      ⟨(m ((c : Thread nD τ).loc main_arg10)), row (m ((c : Thread nD τ).loc main_arg11)), row (m ((c : Thread nD τ).loc main_arg12)), row (m ((c : Thread nD τ).loc main_arg13)), row (m ((c : Thread nD τ).loc main_arg14)), row (m ((c : Thread nD τ).loc main_arg15)), (m ((c : Thread nD τ).loc main_arg16)), row (m ((c : Thread nD τ).loc main_arg17))⟩
      (m ((c : Thread nD τ).loc main_arg18)) (row (m ((c : Thread nD τ).loc main_arg19))) (m ((c : Thread nD τ).loc main_arg20)) (row (m ((c : Thread nD τ).loc main_arg21))) (m ((c : Thread nD τ).loc main_arg22)) (row (m ((c : Thread nD τ).loc main_arg23))) (m ((c : Thread nD τ).loc main_arg24)) (row (m ((c : Thread nD τ).loc main_arg25)))

theorem run : θ_run (defs (F := Ideal)) (onTc (τ := τ) (main (F := Ideal))) ⟨m, fun _ => 0, ρ⟩ (fun r => ∀ c : Dev nD,
      r.2.mem ((c : Thread nD τ).loc main_v40) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)) :=
  (θ_run (defs (F := Ideal)) _ _).mono (fun r h c =>
    ⟨(h c _ (mem_uc main_v40 (by decide))).trans (result m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c),
      (h c _ (mem_uc main_arg14 (by decide))).trans (W6_main_arg14 m ρ c),
      (h c _ (mem_uc main_arg15 (by decide))).trans (W6_main_arg15 m ρ c),
      (h c _ (mem_uc main_arg16 (by decide))).trans (W6_main_arg16 m ρ c),
      (h c _ (mem_uc main_arg17 (by decide))).trans (W6_main_arg17 m ρ c),
      (h c _ (mem_uc main_arg18 (by decide))).trans (W6_main_arg18 m ρ c),
      (h c _ (mem_uc main_arg19 (by decide))).trans (W6_main_arg19 m ρ c),
      (h c _ (mem_uc main_arg20 (by decide))).trans (W6_main_arg20 m ρ c),
      (h c _ (mem_uc main_arg21 (by decide))).trans (W6_main_arg21 m ρ c),
      (h c _ (mem_uc main_arg22 (by decide))).trans (W6_main_arg22 m ρ c),
      (h c _ (mem_uc main_arg23 (by decide))).trans (W6_main_arg23 m ρ c),
      (h c _ (mem_uc main_arg24 (by decide))).trans (W6_main_arg24 m ρ c),
      (h c _ (mem_uc main_arg25 (by decide))).trans (W6_main_arg25 m ρ c)⟩)
    (RunValue.run_all m ρ)

end Cert.KernelIdeal.KValue

end
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.RefRun.lean ====
/-
  The reference program's @main as one list of its host operations, and its run read back.

  @main is printed as two consecutive windows and calls three outlined functions (relu four times; leaky_relu
  once, which itself calls the select function) through typed references. Here the callee's operations are listed
  at each call site over that call's record of buffers, so that @main is one straight line of 129 operations;
  every weakly fair execution of it then terminates with every buffer at the fold of the operations' results over
  the launch contents.
-/
import proofs.«127801_j7292854468800_2_alg».proof.Proof.Gen.ReferenceIdeal
import proofs.«127801_j7292854468800_2_alg».proof.Proof.LibAfterAppend
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of @main's first window (statements 1 … 60), the two calls of relu listed inline. -/
abbrev ops0 : List (HloOp τ sig (Elt F)) :=
  [ unary main_arg1 main_v0 ((extractStridedSlice S1x960000 ![0, 0] · slices_S2x960000_S1x960000_0_0) : (⟨S2x960000, .i32⟩ : BufTy).Contents (Elt F) → (⟨S1x960000, .i32⟩ : BufTy).Contents (Elt F)),
    reshape main_v0 main_v1 rfl shapeCasts_S1x960000_S960000,
    unary main_arg1 main_v2 ((extractStridedSlice S1x960000 ![1, 0] · slices_S2x960000_S1x960000_1_0) : (⟨S2x960000, .i32⟩ : BufTy).Contents (Elt F) → (⟨S1x960000, .i32⟩ : BufTy).Contents (Elt F)),
    reshape main_v2 main_v3 rfl shapeCasts_S1x960000_S960000,
    nullary main_c (constantI S_ 32 0#32),
    unary main_c main_v4 (broadcastInDim S960000 ![] bcast_S_S960000 : (⟨S_, .i32⟩ : BufTy).Contents (Elt F) → (⟨S960000, .i32⟩ : BufTy).Contents (Elt F)),
    binary main_v1 main_v4 main_v5 (cmpi .slt : (⟨S960000, .i32⟩ : BufTy).Contents (Elt F) → (⟨S960000, .i32⟩ : BufTy).Contents (Elt F) → (⟨S960000, .i1⟩ : BufTy).Contents (Elt F)),
    nullary main_c_0 (constantI S_ 32 60000#32),
    unary main_c_0 main_v6 (broadcastInDim S960000 ![] bcast_S_S960000 : (⟨S_, .i32⟩ : BufTy).Contents (Elt F) → (⟨S960000, .i32⟩ : BufTy).Contents (Elt F)),
    binary main_v1 main_v6 main_v7 (addi : (⟨S960000, .i32⟩ : BufTy).Contents (Elt F) → (⟨S960000, .i32⟩ : BufTy).Contents (Elt F) → (⟨S960000, .i32⟩ : BufTy).Contents (Elt F)),
    ternary main_v5 main_v7 main_v1 main_v8 (select : (⟨S960000, .i1⟩ : BufTy).Contents (Elt F) → (⟨S960000, .i32⟩ : BufTy).Contents (Elt F) → (⟨S960000, .i32⟩ : BufTy).Contents (Elt F) → (⟨S960000, .i32⟩ : BufTy).Contents (Elt F)),
    unary main_v8 main_v9 (broadcastInDim S960000x1 ![0] bcast_S960000_S960000x1_0 : (⟨S960000, .i32⟩ : BufTy).Contents (Elt F) → (⟨S960000x1, .i32⟩ : BufTy).Contents (Elt F)),
    binary main_arg0 main_v9 main_v10 ((fun x i => Host.gather gather_S60000x128_S960000x1_S960000x128_1_0_n_n_0_1_1128 x i) : (⟨S60000x128, .f32⟩ : BufTy).Contents (Elt F) → (⟨S960000x1, .i32⟩ : BufTy).Contents (Elt F) → (⟨S960000x128, .f32⟩ : BufTy).Contents (Elt F)),
    nullary main_cst (constant S_ .f32 0x00000000#32),
    unary main_cst main_v11 (broadcastInDim S60000x128 ![] bcast_S_S60000x128 : (⟨S_, .f32⟩ : BufTy).Contents (Elt F) → (⟨S60000x128, .f32⟩ : BufTy).Contents (Elt F)),
    unary main_v3 main_v12 (broadcastInDim S960000x1 ![0] bcast_S960000_S960000x1_0 : (⟨S960000, .i32⟩ : BufTy).Contents (Elt F) → (⟨S960000x1, .i32⟩ : BufTy).Contents (Elt F)),
    ternary main_v11 main_v12 main_v10 main_v13 ((fun x i u => Host.scatterAdd scatter_S60000x128_S960000x1_S960000x128_1_0_0_1 x i u) : (⟨S60000x128, .f32⟩ : BufTy).Contents (Elt F) → (⟨S960000x1, .i32⟩ : BufTy).Contents (Elt F) → (⟨S960000x128, .f32⟩ : BufTy).Contents (Elt F) → (⟨S60000x128, .f32⟩ : BufTy).Contents (Elt F)),
    binary main_arg0 main_v13 main_v14 (addf : (⟨S60000x128, .f32⟩ : BufTy).Contents (Elt F) → (⟨S60000x128, .f32⟩ : BufTy).Contents (Elt F) → (⟨S60000x128, .f32⟩ : BufTy).Contents (Elt F)),
    binary main_v14 main_arg2 main_v15 ((fun l r => Host.dotGeneral dot_S60000x128_S128x512_S60000x512_1_0_0_1_n_n none l r) : (⟨S60000x128, .f32⟩ : BufTy).Contents (Elt F) → (⟨S128x512, .f32⟩ : BufTy).Contents (Elt F) → (⟨S60000x512, .f32⟩ : BufTy).Contents (Elt F)),
    unary main_arg3 main_v16 (broadcastInDim S1x512 ![1] bcast_S512_S1x512_1 : (⟨S512, .f32⟩ : BufTy).Contents (Elt F) → (⟨S1x512, .f32⟩ : BufTy).Contents (Elt F)),
    unary main_v16 main_v17 (broadcastInDim S60000x512 ![0, 1] bcast_S1x512_S60000x512_0_1 : (⟨S1x512, .f32⟩ : BufTy).Contents (Elt F) → (⟨S60000x512, .f32⟩ : BufTy).Contents (Elt F)),
    binary main_v15 main_v17 main_v18 (addf : (⟨S60000x512, .f32⟩ : BufTy).Contents (Elt F) → (⟨S60000x512, .f32⟩ : BufTy).Contents (Elt F) → (⟨S60000x512, .f32⟩ : BufTy).Contents (Elt F)),
    unary main_arg6 main_v19 (broadcastInDim S1x512 ![1] bcast_S512_S1x512_1 : (⟨S512, .f32⟩ : BufTy).Contents (Elt F) → (⟨S1x512, .f32⟩ : BufTy).Contents (Elt F)),
    unary main_v19 main_v20 (broadcastInDim S60000x512 ![0, 1] bcast_S1x512_S60000x512_0_1 : (⟨S1x512, .f32⟩ : BufTy).Contents (Elt F) → (⟨S60000x512, .f32⟩ : BufTy).Contents (Elt F)),
    binary main_v18 main_v20 main_v21 (subf : (⟨S60000x512, .f32⟩ : BufTy).Contents (Elt F) → (⟨S60000x512, .f32⟩ : BufTy).Contents (Elt F) → (⟨S60000x512, .f32⟩ : BufTy).Contents (Elt F)),
    nullary main_cst_1 (constant S_ .f32 0x3727C5AC#32),
    unary main_cst_1 main_v22 (broadcastInDim S512 ![] bcast_S_S512 : (⟨S_, .f32⟩ : BufTy).Contents (Elt F) → (⟨S512, .f32⟩ : BufTy).Contents (Elt F)),
    binary main_arg7 main_v22 main_v23 (addf : (⟨S512, .f32⟩ : BufTy).Contents (Elt F) → (⟨S512, .f32⟩ : BufTy).Contents (Elt F) → (⟨S512, .f32⟩ : BufTy).Contents (Elt F)),
    unary main_v23 main_v24 (Host.rsqrt : (⟨S512, .f32⟩ : BufTy).Contents (Elt F) → (⟨S512, .f32⟩ : BufTy).Contents (Elt F)),
    unary main_v24 main_v25 (broadcastInDim S1x512 ![1] bcast_S512_S1x512_1 : (⟨S512, .f32⟩ : BufTy).Contents (Elt F) → (⟨S1x512, .f32⟩ : BufTy).Contents (Elt F)),
    unary main_v25 main_v26 (broadcastInDim S60000x512 ![0, 1] bcast_S1x512_S60000x512_0_1 : (⟨S1x512, .f32⟩ : BufTy).Contents (Elt F) → (⟨S60000x512, .f32⟩ : BufTy).Contents (Elt F)),
    binary main_v21 main_v26 main_v27 (mulf : (⟨S60000x512, .f32⟩ : BufTy).Contents (Elt F) → (⟨S60000x512, .f32⟩ : BufTy).Contents (Elt F) → (⟨S60000x512, .f32⟩ : BufTy).Contents (Elt F)),
    unary main_arg4 main_v28 (broadcastInDim S1x512 ![1] bcast_S512_S1x512_1 : (⟨S512, .f32⟩ : BufTy).Contents (Elt F) → (⟨S1x512, .f32⟩ : BufTy).Contents (Elt F)),
    unary main_v28 main_v29 (broadcastInDim S60000x512 ![0, 1] bcast_S1x512_S60000x512_0_1 : (⟨S1x512, .f32⟩ : BufTy).Contents (Elt F) → (⟨S60000x512, .f32⟩ : BufTy).Contents (Elt F)),
    binary main_v27 main_v29 main_v30 (mulf : (⟨S60000x512, .f32⟩ : BufTy).Contents (Elt F) → (⟨S60000x512, .f32⟩ : BufTy).Contents (Elt F) → (⟨S60000x512, .f32⟩ : BufTy).Contents (Elt F)),
    unary main_arg5 main_v31 (broadcastInDim S1x512 ![1] bcast_S512_S1x512_1 : (⟨S512, .f32⟩ : BufTy).Contents (Elt F) → (⟨S1x512, .f32⟩ : BufTy).Contents (Elt F)),
    unary main_v31 main_v32 (broadcastInDim S60000x512 ![0, 1] bcast_S1x512_S60000x512_0_1 : (⟨S1x512, .f32⟩ : BufTy).Contents (Elt F) → (⟨S60000x512, .f32⟩ : BufTy).Contents (Elt F)),
    binary main_v30 main_v32 main_v33 (addf : (⟨S60000x512, .f32⟩ : BufTy).Contents (Elt F) → (⟨S60000x512, .f32⟩ : BufTy).Contents (Elt F) → (⟨S60000x512, .f32⟩ : BufTy).Contents (Elt F)),
    TRef.nullary main_call0.cst (constant S_ .f32 0x00000000#32),
    TRef.unary main_call0.cst main_call0.v0 (broadcastInDim S60000x512 ![] bcast_S_S60000x512),
    TRef.binary (.of main_v33 : TRef sig ⟨S60000x512, .f32⟩) main_call0.v0 main_call0.v1 maximumf,
    binary main_v34 main_arg8 main_v35 ((fun l r => Host.dotGeneral dot_S60000x512_S512x512_S60000x512_1_0_0_1_n_n none l r) : (⟨S60000x512, .f32⟩ : BufTy).Contents (Elt F) → (⟨S512x512, .f32⟩ : BufTy).Contents (Elt F) → (⟨S60000x512, .f32⟩ : BufTy).Contents (Elt F)),
    unary main_arg9 main_v36 (broadcastInDim S1x512 ![1] bcast_S512_S1x512_1 : (⟨S512, .f32⟩ : BufTy).Contents (Elt F) → (⟨S1x512, .f32⟩ : BufTy).Contents (Elt F)),
    unary main_v36 main_v37 (broadcastInDim S60000x512 ![0, 1] bcast_S1x512_S60000x512_0_1 : (⟨S1x512, .f32⟩ : BufTy).Contents (Elt F) → (⟨S60000x512, .f32⟩ : BufTy).Contents (Elt F)),
    binary main_v35 main_v37 main_v38 (addf : (⟨S60000x512, .f32⟩ : BufTy).Contents (Elt F) → (⟨S60000x512, .f32⟩ : BufTy).Contents (Elt F) → (⟨S60000x512, .f32⟩ : BufTy).Contents (Elt F)),
    TRef.nullary main_call1.cst (constant S_ .f32 0x00000000#32),
    TRef.unary main_call1.cst main_call1.v0 (broadcastInDim S60000x512 ![] bcast_S_S60000x512),
    TRef.binary (.of main_v38 : TRef sig ⟨S60000x512, .f32⟩) main_call1.v0 main_call1.v1 maximumf,
    unary main_arg1 main_v40 ((extractStridedSlice S1x960000 ![0, 0] · slices_S2x960000_S1x960000_0_0) : (⟨S2x960000, .i32⟩ : BufTy).Contents (Elt F) → (⟨S1x960000, .i32⟩ : BufTy).Contents (Elt F)),
    reshape main_v40 main_v41 rfl shapeCasts_S1x960000_S960000,
    unary main_arg1 main_v42 ((extractStridedSlice S1x960000 ![1, 0] · slices_S2x960000_S1x960000_1_0) : (⟨S2x960000, .i32⟩ : BufTy).Contents (Elt F) → (⟨S1x960000, .i32⟩ : BufTy).Contents (Elt F)),
    reshape main_v42 main_v43 rfl shapeCasts_S1x960000_S960000,
    nullary main_c_2 (constantI S_ 32 0#32),
    unary main_c_2 main_v44 (broadcastInDim S960000 ![] bcast_S_S960000 : (⟨S_, .i32⟩ : BufTy).Contents (Elt F) → (⟨S960000, .i32⟩ : BufTy).Contents (Elt F)),
    binary main_v41 main_v44 main_v45 (cmpi .slt : (⟨S960000, .i32⟩ : BufTy).Contents (Elt F) → (⟨S960000, .i32⟩ : BufTy).Contents (Elt F) → (⟨S960000, .i1⟩ : BufTy).Contents (Elt F)),
    nullary main_c_3 (constantI S_ 32 60000#32),
    unary main_c_3 main_v46 (broadcastInDim S960000 ![] bcast_S_S960000 : (⟨S_, .i32⟩ : BufTy).Contents (Elt F) → (⟨S960000, .i32⟩ : BufTy).Contents (Elt F)),
    binary main_v41 main_v46 main_v47 (addi : (⟨S960000, .i32⟩ : BufTy).Contents (Elt F) → (⟨S960000, .i32⟩ : BufTy).Contents (Elt F) → (⟨S960000, .i32⟩ : BufTy).Contents (Elt F)),
    ternary main_v45 main_v47 main_v41 main_v48 (select : (⟨S960000, .i1⟩ : BufTy).Contents (Elt F) → (⟨S960000, .i32⟩ : BufTy).Contents (Elt F) → (⟨S960000, .i32⟩ : BufTy).Contents (Elt F) → (⟨S960000, .i32⟩ : BufTy).Contents (Elt F)),
    unary main_v48 main_v49 (broadcastInDim S960000x1 ![0] bcast_S960000_S960000x1_0 : (⟨S960000, .i32⟩ : BufTy).Contents (Elt F) → (⟨S960000x1, .i32⟩ : BufTy).Contents (Elt F)),
    binary main_arg0 main_v49 main_v50 ((fun x i => Host.gather gather_S60000x128_S960000x1_S960000x128_1_0_n_n_0_1_1128 x i) : (⟨S60000x128, .f32⟩ : BufTy).Contents (Elt F) → (⟨S960000x1, .i32⟩ : BufTy).Contents (Elt F) → (⟨S960000x128, .f32⟩ : BufTy).Contents (Elt F)),
    nullary main_cst_4 (constant S_ .f32 0x00000000#32),
    unary main_cst_4 main_v51 (broadcastInDim S60000x128 ![] bcast_S_S60000x128 : (⟨S_, .f32⟩ : BufTy).Contents (Elt F) → (⟨S60000x128, .f32⟩ : BufTy).Contents (Elt F)),
    unary main_v43 main_v52 (broadcastInDim S960000x1 ![0] bcast_S960000_S960000x1_0 : (⟨S960000, .i32⟩ : BufTy).Contents (Elt F) → (⟨S960000x1, .i32⟩ : BufTy).Contents (Elt F)) ]

/-- The operations of @main's second window (statements 61 … 116), the two calls of relu and the call of
    leaky_relu (with its select) listed inline. -/
abbrev ops1 : List (HloOp τ sig (Elt F)) :=
  [ ternary main_v51 main_v52 main_v50 main_v53 ((fun x i u => Host.scatterAdd scatter_S60000x128_S960000x1_S960000x128_1_0_0_1 x i u) : (⟨S60000x128, .f32⟩ : BufTy).Contents (Elt F) → (⟨S960000x1, .i32⟩ : BufTy).Contents (Elt F) → (⟨S960000x128, .f32⟩ : BufTy).Contents (Elt F) → (⟨S60000x128, .f32⟩ : BufTy).Contents (Elt F)),
    binary main_arg0 main_v53 main_v54 (addf : (⟨S60000x128, .f32⟩ : BufTy).Contents (Elt F) → (⟨S60000x128, .f32⟩ : BufTy).Contents (Elt F) → (⟨S60000x128, .f32⟩ : BufTy).Contents (Elt F)),
    binary main_v54 main_arg10 main_v55 ((fun l r => Host.dotGeneral dot_S60000x128_S128x512_S60000x512_1_0_0_1_n_n none l r) : (⟨S60000x128, .f32⟩ : BufTy).Contents (Elt F) → (⟨S128x512, .f32⟩ : BufTy).Contents (Elt F) → (⟨S60000x512, .f32⟩ : BufTy).Contents (Elt F)),
    unary main_arg11 main_v56 (broadcastInDim S1x512 ![1] bcast_S512_S1x512_1 : (⟨S512, .f32⟩ : BufTy).Contents (Elt F) → (⟨S1x512, .f32⟩ : BufTy).Contents (Elt F)),
    unary main_v56 main_v57 (broadcastInDim S60000x512 ![0, 1] bcast_S1x512_S60000x512_0_1 : (⟨S1x512, .f32⟩ : BufTy).Contents (Elt F) → (⟨S60000x512, .f32⟩ : BufTy).Contents (Elt F)),
    binary main_v55 main_v57 main_v58 (addf : (⟨S60000x512, .f32⟩ : BufTy).Contents (Elt F) → (⟨S60000x512, .f32⟩ : BufTy).Contents (Elt F) → (⟨S60000x512, .f32⟩ : BufTy).Contents (Elt F)),
    unary main_arg14 main_v59 (broadcastInDim S1x512 ![1] bcast_S512_S1x512_1 : (⟨S512, .f32⟩ : BufTy).Contents (Elt F) → (⟨S1x512, .f32⟩ : BufTy).Contents (Elt F)),
    unary main_v59 main_v60 (broadcastInDim S60000x512 ![0, 1] bcast_S1x512_S60000x512_0_1 : (⟨S1x512, .f32⟩ : BufTy).Contents (Elt F) → (⟨S60000x512, .f32⟩ : BufTy).Contents (Elt F)),
    binary main_v58 main_v60 main_v61 (subf : (⟨S60000x512, .f32⟩ : BufTy).Contents (Elt F) → (⟨S60000x512, .f32⟩ : BufTy).Contents (Elt F) → (⟨S60000x512, .f32⟩ : BufTy).Contents (Elt F)),
    nullary main_cst_5 (constant S_ .f32 0x3727C5AC#32),
    unary main_cst_5 main_v62 (broadcastInDim S512 ![] bcast_S_S512 : (⟨S_, .f32⟩ : BufTy).Contents (Elt F) → (⟨S512, .f32⟩ : BufTy).Contents (Elt F)),
    binary main_arg15 main_v62 main_v63 (addf : (⟨S512, .f32⟩ : BufTy).Contents (Elt F) → (⟨S512, .f32⟩ : BufTy).Contents (Elt F) → (⟨S512, .f32⟩ : BufTy).Contents (Elt F)),
    unary main_v63 main_v64 (Host.rsqrt : (⟨S512, .f32⟩ : BufTy).Contents (Elt F) → (⟨S512, .f32⟩ : BufTy).Contents (Elt F)),
    unary main_v64 main_v65 (broadcastInDim S1x512 ![1] bcast_S512_S1x512_1 : (⟨S512, .f32⟩ : BufTy).Contents (Elt F) → (⟨S1x512, .f32⟩ : BufTy).Contents (Elt F)),
    unary main_v65 main_v66 (broadcastInDim S60000x512 ![0, 1] bcast_S1x512_S60000x512_0_1 : (⟨S1x512, .f32⟩ : BufTy).Contents (Elt F) → (⟨S60000x512, .f32⟩ : BufTy).Contents (Elt F)),
    binary main_v61 main_v66 main_v67 (mulf : (⟨S60000x512, .f32⟩ : BufTy).Contents (Elt F) → (⟨S60000x512, .f32⟩ : BufTy).Contents (Elt F) → (⟨S60000x512, .f32⟩ : BufTy).Contents (Elt F)),
    unary main_arg12 main_v68 (broadcastInDim S1x512 ![1] bcast_S512_S1x512_1 : (⟨S512, .f32⟩ : BufTy).Contents (Elt F) → (⟨S1x512, .f32⟩ : BufTy).Contents (Elt F)),
    unary main_v68 main_v69 (broadcastInDim S60000x512 ![0, 1] bcast_S1x512_S60000x512_0_1 : (⟨S1x512, .f32⟩ : BufTy).Contents (Elt F) → (⟨S60000x512, .f32⟩ : BufTy).Contents (Elt F)),
    binary main_v67 main_v69 main_v70 (mulf : (⟨S60000x512, .f32⟩ : BufTy).Contents (Elt F) → (⟨S60000x512, .f32⟩ : BufTy).Contents (Elt F) → (⟨S60000x512, .f32⟩ : BufTy).Contents (Elt F)),
    unary main_arg13 main_v71 (broadcastInDim S1x512 ![1] bcast_S512_S1x512_1 : (⟨S512, .f32⟩ : BufTy).Contents (Elt F) → (⟨S1x512, .f32⟩ : BufTy).Contents (Elt F)),
    unary main_v71 main_v72 (broadcastInDim S60000x512 ![0, 1] bcast_S1x512_S60000x512_0_1 : (⟨S1x512, .f32⟩ : BufTy).Contents (Elt F) → (⟨S60000x512, .f32⟩ : BufTy).Contents (Elt F)),
    binary main_v70 main_v72 main_v73 (addf : (⟨S60000x512, .f32⟩ : BufTy).Contents (Elt F) → (⟨S60000x512, .f32⟩ : BufTy).Contents (Elt F) → (⟨S60000x512, .f32⟩ : BufTy).Contents (Elt F)),
    TRef.nullary main_call2.cst (constant S_ .f32 0x00000000#32),
    TRef.unary main_call2.cst main_call2.v0 (broadcastInDim S60000x512 ![] bcast_S_S60000x512),
    TRef.binary (.of main_v73 : TRef sig ⟨S60000x512, .f32⟩) main_call2.v0 main_call2.v1 maximumf,
    binary main_v74 main_arg16 main_v75 ((fun l r => Host.dotGeneral dot_S60000x512_S512x512_S60000x512_1_0_0_1_n_n none l r) : (⟨S60000x512, .f32⟩ : BufTy).Contents (Elt F) → (⟨S512x512, .f32⟩ : BufTy).Contents (Elt F) → (⟨S60000x512, .f32⟩ : BufTy).Contents (Elt F)),
    unary main_arg17 main_v76 (broadcastInDim S1x512 ![1] bcast_S512_S1x512_1 : (⟨S512, .f32⟩ : BufTy).Contents (Elt F) → (⟨S1x512, .f32⟩ : BufTy).Contents (Elt F)),
    unary main_v76 main_v77 (broadcastInDim S60000x512 ![0, 1] bcast_S1x512_S60000x512_0_1 : (⟨S1x512, .f32⟩ : BufTy).Contents (Elt F) → (⟨S60000x512, .f32⟩ : BufTy).Contents (Elt F)),
    binary main_v75 main_v77 main_v78 (addf : (⟨S60000x512, .f32⟩ : BufTy).Contents (Elt F) → (⟨S60000x512, .f32⟩ : BufTy).Contents (Elt F) → (⟨S60000x512, .f32⟩ : BufTy).Contents (Elt F)),
    TRef.nullary main_call3.cst (constant S_ .f32 0x00000000#32),
    TRef.unary main_call3.cst main_call3.v0 (broadcastInDim S60000x512 ![] bcast_S_S60000x512),
    TRef.binary (.of main_v78 : TRef sig ⟨S60000x512, .f32⟩) main_call3.v0 main_call3.v1 maximumf,
    binary main_v39 main_v79 main_v80 ((fun a b => concatenate S60000x1024 1 [⟨S60000x512, a⟩, ⟨S60000x512, b⟩] concatenates_S60000x512_S60000x512_S60000x1024_d1) : (⟨S60000x512, .f32⟩ : BufTy).Contents (Elt F) → (⟨S60000x512, .f32⟩ : BufTy).Contents (Elt F) → (⟨S60000x1024, .f32⟩ : BufTy).Contents (Elt F)),
    binary main_v80 main_arg18 main_v81 ((fun l r => Host.dotGeneral dot_S60000x1024_S1024x2048_S60000x2048_1_0_0_1_n_n none l r) : (⟨S60000x1024, .f32⟩ : BufTy).Contents (Elt F) → (⟨S1024x2048, .f32⟩ : BufTy).Contents (Elt F) → (⟨S60000x2048, .f32⟩ : BufTy).Contents (Elt F)),
    unary main_arg19 main_v82 (broadcastInDim S1x2048 ![1] bcast_S2048_S1x2048_1 : (⟨S2048, .f32⟩ : BufTy).Contents (Elt F) → (⟨S1x2048, .f32⟩ : BufTy).Contents (Elt F)),
    unary main_v82 main_v83 (broadcastInDim S60000x2048 ![0, 1] bcast_S1x2048_S60000x2048_0_1 : (⟨S1x2048, .f32⟩ : BufTy).Contents (Elt F) → (⟨S60000x2048, .f32⟩ : BufTy).Contents (Elt F)),
    binary main_v81 main_v83 main_v84 (addf : (⟨S60000x2048, .f32⟩ : BufTy).Contents (Elt F) → (⟨S60000x2048, .f32⟩ : BufTy).Contents (Elt F) → (⟨S60000x2048, .f32⟩ : BufTy).Contents (Elt F)),
    nullary main_cst_6 (constant S_ .f32 0x3C23D70A#32),
    TRef.nullary main_call4.cst (constant S_ .f32 0x00000000#32),
    TRef.unary main_call4.cst main_call4.v0 (broadcastInDim S60000x2048 ![] bcast_S_S60000x2048),
    TRef.binary (.of main_v84 : TRef sig ⟨S60000x2048, .f32⟩) main_call4.v0 main_call4.v1 (cmpf .oge),
    TRef.unary (.of main_cst_6 : TRef sig ⟨S_, .f32⟩) main_call4.v2 id,
    TRef.unary main_call4.v2 main_call4.v3 (broadcastInDim S60000x2048 ![] bcast_S_S60000x2048),
    TRef.binary main_call4.v3 (.of main_v84 : TRef sig ⟨S60000x2048, .f32⟩) main_call4.v4 mulf,
    TRef.ternary main_call4.v1 (.of main_v84 : TRef sig ⟨S60000x2048, .f32⟩) main_call4.v4 main_call4.call0.v0 select,
    binary main_v85 main_arg20 main_v86 ((fun l r => Host.dotGeneral dot_S60000x2048_S2048x4096_S60000x4096_1_0_0_1_n_n none l r) : (⟨S60000x2048, .f32⟩ : BufTy).Contents (Elt F) → (⟨S2048x4096, .f32⟩ : BufTy).Contents (Elt F) → (⟨S60000x4096, .f32⟩ : BufTy).Contents (Elt F)),
    unary main_arg21 main_v87 (broadcastInDim S1x4096 ![1] bcast_S4096_S1x4096_1 : (⟨S4096, .f32⟩ : BufTy).Contents (Elt F) → (⟨S1x4096, .f32⟩ : BufTy).Contents (Elt F)),
    unary main_v87 main_v88 (broadcastInDim S60000x4096 ![0, 1] bcast_S1x4096_S60000x4096_0_1 : (⟨S1x4096, .f32⟩ : BufTy).Contents (Elt F) → (⟨S60000x4096, .f32⟩ : BufTy).Contents (Elt F)),
    binary main_v86 main_v88 main_v89 (addf : (⟨S60000x4096, .f32⟩ : BufTy).Contents (Elt F) → (⟨S60000x4096, .f32⟩ : BufTy).Contents (Elt F) → (⟨S60000x4096, .f32⟩ : BufTy).Contents (Elt F)),
    binary main_v89 main_arg22 main_v90 ((fun l r => Host.dotGeneral dot_S60000x4096_S4096x2048_S60000x2048_1_0_0_1_n_n none l r) : (⟨S60000x4096, .f32⟩ : BufTy).Contents (Elt F) → (⟨S4096x2048, .f32⟩ : BufTy).Contents (Elt F) → (⟨S60000x2048, .f32⟩ : BufTy).Contents (Elt F)),
    unary main_arg23 main_v91 (broadcastInDim S1x2048 ![1] bcast_S2048_S1x2048_1 : (⟨S2048, .f32⟩ : BufTy).Contents (Elt F) → (⟨S1x2048, .f32⟩ : BufTy).Contents (Elt F)),
    unary main_v91 main_v92 (broadcastInDim S60000x2048 ![0, 1] bcast_S1x2048_S60000x2048_0_1 : (⟨S1x2048, .f32⟩ : BufTy).Contents (Elt F) → (⟨S60000x2048, .f32⟩ : BufTy).Contents (Elt F)),
    binary main_v90 main_v92 main_v93 (addf : (⟨S60000x2048, .f32⟩ : BufTy).Contents (Elt F) → (⟨S60000x2048, .f32⟩ : BufTy).Contents (Elt F) → (⟨S60000x2048, .f32⟩ : BufTy).Contents (Elt F)),
    binary main_v93 main_arg24 main_v94 ((fun l r => Host.dotGeneral dot_S60000x2048_S2048x64_S60000x64_1_0_0_1_n_n none l r) : (⟨S60000x2048, .f32⟩ : BufTy).Contents (Elt F) → (⟨S2048x64, .f32⟩ : BufTy).Contents (Elt F) → (⟨S60000x64, .f32⟩ : BufTy).Contents (Elt F)),
    unary main_arg25 main_v95 (broadcastInDim S1x64 ![1] bcast_S64_S1x64_1 : (⟨S64, .f32⟩ : BufTy).Contents (Elt F) → (⟨S1x64, .f32⟩ : BufTy).Contents (Elt F)),
    unary main_v95 main_v96 (broadcastInDim S60000x64 ![0, 1] bcast_S1x64_S60000x64_0_1 : (⟨S1x64, .f32⟩ : BufTy).Contents (Elt F) → (⟨S60000x64, .f32⟩ : BufTy).Contents (Elt F)),
    binary main_v94 main_v96 main_v97 (addf : (⟨S60000x64, .f32⟩ : BufTy).Contents (Elt F) → (⟨S60000x64, .f32⟩ : BufTy).Contents (Elt F) → (⟨S60000x64, .f32⟩ : BufTy).Contents (Elt F)),
    unary main_v97 main_v98 (Host.negf : (⟨S60000x64, .f32⟩ : BufTy).Contents (Elt F) → (⟨S60000x64, .f32⟩ : BufTy).Contents (Elt F)),
    unary main_v98 main_v99 (Host.exp : (⟨S60000x64, .f32⟩ : BufTy).Contents (Elt F) → (⟨S60000x64, .f32⟩ : BufTy).Contents (Elt F)),
    nullary main_cst_7 (constant S_ .f32 0x3F800000#32),
    unary main_cst_7 main_v100 (broadcastInDim S60000x64 ![] bcast_S_S60000x64 : (⟨S_, .f32⟩ : BufTy).Contents (Elt F) → (⟨S60000x64, .f32⟩ : BufTy).Contents (Elt F)),
    binary main_v100 main_v99 main_v101 (addf : (⟨S60000x64, .f32⟩ : BufTy).Contents (Elt F) → (⟨S60000x64, .f32⟩ : BufTy).Contents (Elt F) → (⟨S60000x64, .f32⟩ : BufTy).Contents (Elt F)),
    nullary main_cst_8 (constant S_ .f32 0x3F800000#32),
    unary main_cst_8 main_v102 (broadcastInDim S60000x64 ![] bcast_S_S60000x64 : (⟨S_, .f32⟩ : BufTy).Contents (Elt F) → (⟨S60000x64, .f32⟩ : BufTy).Contents (Elt F)),
    binary main_v102 main_v101 main_v103 (Host.divf : (⟨S60000x64, .f32⟩ : BufTy).Contents (Elt F) → (⟨S60000x64, .f32⟩ : BufTy).Contents (Elt F) → (⟨S60000x64, .f32⟩ : BufTy).Contents (Elt F)) ]

/-- @main's 129 operations, in order. -/
abbrev ops : List (HloOp τ sig (Elt F)) := ops0 ++ ops1

set_option maxRecDepth 65536 in
/-- The first window is its operations in sequence: the calls unfolded, the sequencing reassociated. -/
theorem part0_eq (c : Dev nD) : main_part0 (F := F) c = seq ops0 := by
  simp only [main_part0, fn_relu.body, seq, bind_assoc, pure_bind]
  rfl

set_option maxRecDepth 65536 in
/-- The second window likewise. -/
theorem part1_eq (c : Dev nD) : main_part1 (F := F) c = seq ops1 := by
  simp only [main_part1, fn_relu.body, fn_leaky_relu.body, fn_where.body, seq, bind_assoc, pure_bind]

/-- @main is the two windows in sequence, so the concatenation of their operations in sequence. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub ..⟩

theorem ops1_sub : (ops1 : List (HloOp τ sig (Elt F))).Forall fun op => op.bufs ⊆ tcRefs τ sig :=
  ⟨ternary_bufs_sub .., binary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., unary_bufs_sub ..,
    binary_bufs_sub .., binary_bufs_sub .., unary_bufs_sub .., unary_bufs_sub .., binary_bufs_sub .., binary_bufs_sub ..,
    unary_bufs_sub .., unary_bufs_sub .., binary_bufs_sub .., unary_bufs_sub .., unary_bufs_sub .., nullary_bufs_sub ..,
    unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    · exact List.forall_iff_forall_mem.mp ops1_sub op h

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

/-- On the device, for any float values, from any memory with zero counters: every weakly fair execution of
    @main terminates, and every final state has each buffer at the fold of the 129 operations' results over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ
    (fun _ op h => by
      rcases List.mem_append.mp h with h | h
      · exact ops0_fresh op h
      · exact ops1_fresh op h)

end Cert.ReferenceIdeal.RefValue

end
-- ==== Proof.RefStages.lean ====
/-
  The stages of the reference's network, each a composition of the host operations the program prints, and the
  reference's result as one function of its 26 argument arrays (RefOut). All at the extended reals.
-/
import proofs.«127801_j7292854468800_2_alg».proof.Proof.Gen.ReferenceIdeal
import Idealize.ShloMosaic.PureOps.Ideal.Laws

noncomputable section

namespace Cert.ReferenceIdeal.RefValue

open Cert.ReferenceIdeal Cert.ReferenceIdeal.Gen Idealize.ShloMosaic

/-- An f32 array of shape `S` read at the extended reals. -/
abbrev Vf (S : Shape) : Type := FVec Ideal S .f32

/-- The message aggregation (segment sum of the gathered source rows at the destination rows), as the seventeen
    host operations compute it from the node features `x` and the edge list `e`: the two rows of `e` as vectors,
    negative source indices wrapped by 60000, the rows of `x` gathered at the sources, scattered with addition
    into a zero array at the destinations. -/
def Agg (x : Vf S60000x128) (e : IVec S2x960000 32) : Vf S60000x128 :=
  Host.scatterAdd (F := Ideal) scatter_S60000x128_S960000x1_S960000x128_1_0_0_1
    (broadcastInDim S60000x128 ![] bcast_S_S60000x128 (constant (F := Ideal) S_ .f32 0x00000000#32))
    (broadcastInDim S960000x1 ![0] bcast_S960000_S960000x1_0
      (shapeCast S960000 (extractStridedSlice S1x960000 ![1, 0] e slices_S2x960000_S1x960000_1_0) shapeCasts_S1x960000_S960000))
    (Host.gather gather_S60000x128_S960000x1_S960000x128_1_0_n_n_0_1_1128 x
      (broadcastInDim S960000x1 ![0] bcast_S960000_S960000x1_0
        (select
          (cmpi .slt (shapeCast S960000 (extractStridedSlice S1x960000 ![0, 0] e slices_S2x960000_S1x960000_0_0) shapeCasts_S1x960000_S960000)
            (broadcastInDim S960000 ![] bcast_S_S960000 (constantI S_ 32 0#32)))
          (addi (shapeCast S960000 (extractStridedSlice S1x960000 ![0, 0] e slices_S2x960000_S1x960000_0_0) shapeCasts_S1x960000_S960000)
            (broadcastInDim S960000 ![] bcast_S_S960000 (constantI S_ 32 60000#32)))
          (shapeCast S960000 (extractStridedSlice S1x960000 ![0, 0] e slices_S2x960000_S1x960000_0_0) shapeCasts_S1x960000_S960000))))

/-- A length-512 vector as the [60000, 512] array whose every row it is. -/
def Rows512 (b : Vf S512) : Vf S60000x512 :=
  broadcastInDim S60000x512 ![0, 1] bcast_S1x512_S60000x512_0_1 (broadcastInDim S1x512 ![1] bcast_S512_S1x512_1 b)
/-- A length-2048 vector as the [60000, 2048] array whose every row it is. -/
def Rows2048 (b : Vf S2048) : Vf S60000x2048 :=
  broadcastInDim S60000x2048 ![0, 1] bcast_S1x2048_S60000x2048_0_1 (broadcastInDim S1x2048 ![1] bcast_S2048_S1x2048_1 b)
/-- A length-4096 vector as the [60000, 4096] array whose every row it is. -/
def Rows4096 (b : Vf S4096) : Vf S60000x4096 :=
  broadcastInDim S60000x4096 ![0, 1] bcast_S1x4096_S60000x4096_0_1 (broadcastInDim S1x4096 ![1] bcast_S4096_S1x4096_1 b)
/-- A length-64 vector as the [60000, 64] array whose every row it is. -/
def Rows64 (b : Vf S64) : Vf S60000x64 :=
  broadcastInDim S60000x64 ![0, 1] bcast_S1x64_S60000x64_0_1 (broadcastInDim S1x64 ![1] bcast_S64_S1x64_1 b)

/-- relu on a [60000, 512] array: the maximum with the zero array. -/
def Relu512 (z : Vf S60000x512) : Vf S60000x512 :=
  maximumf z (broadcastInDim S60000x512 ![] bcast_S_S60000x512 (constant (F := Ideal) S_ .f32 0x00000000#32))

/-- A branch's first layer before its relu: the batch norm (running statistics) of h W1 + b1, in the order the
    program multiplies: ((z - mean) * rsqrt (var + eps)) * gamma + beta. -/
def HiddenPre (h : Vf S60000x128) (w1 : Vf S128x512) (b1 gamma beta mean var : Vf S512) : Vf S60000x512 :=
  addf (mulf (mulf (subf (addf (Host.dotGeneral (F := Ideal) dot_S60000x128_S128x512_S60000x512_1_0_0_1_n_n none h w1) (Rows512 b1)) (Rows512 mean))
    (Rows512 (Host.rsqrt (addf var (broadcastInDim S512 ![] bcast_S_S512 (constant (F := Ideal) S_ .f32 0x3727C5AC#32))))))
    (Rows512 gamma)) (Rows512 beta)

/-- A branch's second layer before its relu: a W2 + b2. -/
def Lin512 (a : Vf S60000x512) (w : Vf S512x512) (b : Vf S512) : Vf S60000x512 :=
  addf (Host.dotGeneral (F := Ideal) dot_S60000x512_S512x512_S60000x512_1_0_0_1_n_n none a w) (Rows512 b)

/-- A branch: relu (relu (bn (h W1 + b1)) W2 + b2). -/
def Branch (h : Vf S60000x128) (w1 : Vf S128x512) (b1 gamma beta mean var : Vf S512) (w2 : Vf S512x512) (b2 : Vf S512) :
    Vf S60000x512 :=
  Relu512 (Lin512 (Relu512 (HiddenPre h w1 b1 gamma beta mean var)) w2 b2)

/-- The two branches side by side. -/
def Concat (a b : Vf S60000x512) : Vf S60000x1024 :=
  concatenate S60000x1024 1 [⟨S60000x512, a⟩, ⟨S60000x512, b⟩] concatenates_S60000x512_S60000x512_S60000x1024_d1

/-- The first dense layer of the head: hc Wfc + bfc. -/
def Fc (hc : Vf S60000x1024) (w : Vf S1024x2048) (b : Vf S2048) : Vf S60000x2048 :=
  addf (Host.dotGeneral (F := Ideal) dot_S60000x1024_S1024x2048_S60000x2048_1_0_0_1_n_n none hc w) (Rows2048 b)

/-- The leaky relu as the reference spells it: where z ≥ 0 take z, elsewhere slope · z. -/
def Leaky (z : Vf S60000x2048) : Vf S60000x2048 :=
  select (cmpf .oge z (broadcastInDim S60000x2048 ![] bcast_S_S60000x2048 (constant (F := Ideal) S_ .f32 0x00000000#32))) z
    (mulf (broadcastInDim S60000x2048 ![] bcast_S_S60000x2048 (constant (F := Ideal) S_ .f32 0x3C23D70A#32)) z)

/-- a Wl1 + bl1. -/
def Lin1 (a : Vf S60000x2048) (w : Vf S2048x4096) (b : Vf S4096) : Vf S60000x4096 :=
  addf (Host.dotGeneral (F := Ideal) dot_S60000x2048_S2048x4096_S60000x4096_1_0_0_1_n_n none a w) (Rows4096 b)

/-- b Wl2 + bl2. -/
def Lin2 (a : Vf S60000x4096) (w : Vf S4096x2048) (b : Vf S2048) : Vf S60000x2048 :=
  addf (Host.dotGeneral (F := Ideal) dot_S60000x4096_S4096x2048_S60000x2048_1_0_0_1_n_n none a w) (Rows2048 b)

/-- c Wout + bout. -/
def LinOut (a : Vf S60000x2048) (w : Vf S2048x64) (b : Vf S64) : Vf S60000x64 :=
  addf (Host.dotGeneral (F := Ideal) dot_S60000x2048_S2048x64_S60000x64_1_0_0_1_n_n none a w) (Rows64 b)

/-- The sigmoid as the reference spells it: 1 / (1 + exp (-z)). -/
def Sigmoid (z : Vf S60000x64) : Vf S60000x64 :=
  Host.divf (broadcastInDim S60000x64 ![] bcast_S_S60000x64 (constant (F := Ideal) S_ .f32 0x3F800000#32))
    (addf (broadcastInDim S60000x64 ![] bcast_S_S60000x64 (constant (F := Ideal) S_ .f32 0x3F800000#32)) (Host.exp (Host.negf z)))

/-- The reference's result as one function of its 26 argument arrays. -/
def RefOut (a0 : Vf S60000x128) (a1 : IVec S2x960000 32) (a2 : Vf S128x512) (a3 a4 a5 a6 a7 : Vf S512) (a8 : Vf S512x512) (a9 : Vf S512)
    (a10 : Vf S128x512) (a11 a12 a13 a14 a15 : Vf S512) (a16 : Vf S512x512) (a17 : Vf S512)
    (a18 : Vf S1024x2048) (a19 : Vf S2048) (a20 : Vf S2048x4096) (a21 : Vf S4096) (a22 : Vf S4096x2048) (a23 : Vf S2048)
    (a24 : Vf S2048x64) (a25 : Vf S64) : Vf S60000x64 :=
  Sigmoid (LinOut (Lin2 (Lin1 (Leaky (Fc (Concat
      (Branch (addf a0 (Agg a0 a1)) a2 a3 a4 a5 a6 a7 a8 a9)
      (Branch (addf a0 (Agg a0 a1)) a10 a11 a12 a13 a14 a15 a16 a17)) a18 a19)) a20 a21) a22 a23) a24 a25)

end Cert.ReferenceIdeal.RefValue

end
-- ==== Proof.RefRead.lean ====
/-
  The reference's line of 129 operations read against the stages: the line is cut into thirteen stretches — the
  aggregation, each branch's first layer, each relu, each second layer, the second aggregation, the head's first
  layer, the leaky relu, the rest —, each stretch read from an arbitrary contents, and what a later stretch still
  reads is carried from stretch to stretch. The operations of the outlined functions are restated as plain
  operations at their buffers (the transports of their typed references are the identity at literal references).
  At the end: the run of @main with its result named RefOut of the arguments, the arguments unchanged.
-/
import proofs.«127801_j7292854468800_2_alg».proof.Proof.RefRun
import proofs.«127801_j7292854468800_2_alg».proof.Proof.RefStages
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The line in thirteen stretches -/

section Stretches
variable {F : FTy → Type} [FloatOps F]

/-- Stretch 1: the aggregation (the first branch's copy). -/
abbrev w1 : List (HloOp τ sig (Elt F)) :=
  [ unary main_arg1 main_v0 ((extractStridedSlice S1x960000 ![0, 0] · slices_S2x960000_S1x960000_0_0) : (⟨S2x960000, .i32⟩ : BufTy).Contents (Elt F) → (⟨S1x960000, .i32⟩ : BufTy).Contents (Elt F)),
    reshape main_v0 main_v1 rfl shapeCasts_S1x960000_S960000,
    unary main_arg1 main_v2 ((extractStridedSlice S1x960000 ![1, 0] · slices_S2x960000_S1x960000_1_0) : (⟨S2x960000, .i32⟩ : BufTy).Contents (Elt F) → (⟨S1x960000, .i32⟩ : BufTy).Contents (Elt F)),
    reshape main_v2 main_v3 rfl shapeCasts_S1x960000_S960000,
    nullary main_c (constantI S_ 32 0#32),
    unary main_c main_v4 (broadcastInDim S960000 ![] bcast_S_S960000 : (⟨S_, .i32⟩ : BufTy).Contents (Elt F) → (⟨S960000, .i32⟩ : BufTy).Contents (Elt F)),
    binary main_v1 main_v4 main_v5 (cmpi .slt : (⟨S960000, .i32⟩ : BufTy).Contents (Elt F) → (⟨S960000, .i32⟩ : BufTy).Contents (Elt F) → (⟨S960000, .i1⟩ : BufTy).Contents (Elt F)),
    nullary main_c_0 (constantI S_ 32 60000#32),
    unary main_c_0 main_v6 (broadcastInDim S960000 ![] bcast_S_S960000 : (⟨S_, .i32⟩ : BufTy).Contents (Elt F) → (⟨S960000, .i32⟩ : BufTy).Contents (Elt F)),
    binary main_v1 main_v6 main_v7 (addi : (⟨S960000, .i32⟩ : BufTy).Contents (Elt F) → (⟨S960000, .i32⟩ : BufTy).Contents (Elt F) → (⟨S960000, .i32⟩ : BufTy).Contents (Elt F)),
    ternary main_v5 main_v7 main_v1 main_v8 (select : (⟨S960000, .i1⟩ : BufTy).Contents (Elt F) → (⟨S960000, .i32⟩ : BufTy).Contents (Elt F) → (⟨S960000, .i32⟩ : BufTy).Contents (Elt F) → (⟨S960000, .i32⟩ : BufTy).Contents (Elt F)),
    unary main_v8 main_v9 (broadcastInDim S960000x1 ![0] bcast_S960000_S960000x1_0 : (⟨S960000, .i32⟩ : BufTy).Contents (Elt F) → (⟨S960000x1, .i32⟩ : BufTy).Contents (Elt F)),
    binary main_arg0 main_v9 main_v10 ((fun x i => Host.gather gather_S60000x128_S960000x1_S960000x128_1_0_n_n_0_1_1128 x i) : (⟨S60000x128, .f32⟩ : BufTy).Contents (Elt F) → (⟨S960000x1, .i32⟩ : BufTy).Contents (Elt F) → (⟨S960000x128, .f32⟩ : BufTy).Contents (Elt F)),
    nullary main_cst (constant S_ .f32 0x00000000#32),
    unary main_cst main_v11 (broadcastInDim S60000x128 ![] bcast_S_S60000x128 : (⟨S_, .f32⟩ : BufTy).Contents (Elt F) → (⟨S60000x128, .f32⟩ : BufTy).Contents (Elt F)),
    unary main_v3 main_v12 (broadcastInDim S960000x1 ![0] bcast_S960000_S960000x1_0 : (⟨S960000, .i32⟩ : BufTy).Contents (Elt F) → (⟨S960000x1, .i32⟩ : BufTy).Contents (Elt F)),
    ternary main_v11 main_v12 main_v10 main_v13 ((fun x i u => Host.scatterAdd scatter_S60000x128_S960000x1_S960000x128_1_0_0_1 x i u) : (⟨S60000x128, .f32⟩ : BufTy).Contents (Elt F) → (⟨S960000x1, .i32⟩ : BufTy).Contents (Elt F) → (⟨S960000x128, .f32⟩ : BufTy).Contents (Elt F) → (⟨S60000x128, .f32⟩ : BufTy).Contents (Elt F)) ]

/-- Stretch 2: the first branch's first layer up to its relu. -/
abbrev w2 : List (HloOp τ sig (Elt F)) :=
  [ binary main_arg0 main_v13 main_v14 (addf : (⟨S60000x128, .f32⟩ : BufTy).Contents (Elt F) → (⟨S60000x128, .f32⟩ : BufTy).Contents (Elt F) → (⟨S60000x128, .f32⟩ : BufTy).Contents (Elt F)),
    binary main_v14 main_arg2 main_v15 ((fun l r => Host.dotGeneral dot_S60000x128_S128x512_S60000x512_1_0_0_1_n_n none l r) : (⟨S60000x128, .f32⟩ : BufTy).Contents (Elt F) → (⟨S128x512, .f32⟩ : BufTy).Contents (Elt F) → (⟨S60000x512, .f32⟩ : BufTy).Contents (Elt F)),
    unary main_arg3 main_v16 (broadcastInDim S1x512 ![1] bcast_S512_S1x512_1 : (⟨S512, .f32⟩ : BufTy).Contents (Elt F) → (⟨S1x512, .f32⟩ : BufTy).Contents (Elt F)),
    unary main_v16 main_v17 (broadcastInDim S60000x512 ![0, 1] bcast_S1x512_S60000x512_0_1 : (⟨S1x512, .f32⟩ : BufTy).Contents (Elt F) → (⟨S60000x512, .f32⟩ : BufTy).Contents (Elt F)),
    binary main_v15 main_v17 main_v18 (addf : (⟨S60000x512, .f32⟩ : BufTy).Contents (Elt F) → (⟨S60000x512, .f32⟩ : BufTy).Contents (Elt F) → (⟨S60000x512, .f32⟩ : BufTy).Contents (Elt F)),
    unary main_arg6 main_v19 (broadcastInDim S1x512 ![1] bcast_S512_S1x512_1 : (⟨S512, .f32⟩ : BufTy).Contents (Elt F) → (⟨S1x512, .f32⟩ : BufTy).Contents (Elt F)),
    unary main_v19 main_v20 (broadcastInDim S60000x512 ![0, 1] bcast_S1x512_S60000x512_0_1 : (⟨S1x512, .f32⟩ : BufTy).Contents (Elt F) → (⟨S60000x512, .f32⟩ : BufTy).Contents (Elt F)),
    binary main_v18 main_v20 main_v21 (subf : (⟨S60000x512, .f32⟩ : BufTy).Contents (Elt F) → (⟨S60000x512, .f32⟩ : BufTy).Contents (Elt F) → (⟨S60000x512, .f32⟩ : BufTy).Contents (Elt F)),
    nullary main_cst_1 (constant S_ .f32 0x3727C5AC#32),
    unary main_cst_1 main_v22 (broadcastInDim S512 ![] bcast_S_S512 : (⟨S_, .f32⟩ : BufTy).Contents (Elt F) → (⟨S512, .f32⟩ : BufTy).Contents (Elt F)),
    binary main_arg7 main_v22 main_v23 (addf : (⟨S512, .f32⟩ : BufTy).Contents (Elt F) → (⟨S512, .f32⟩ : BufTy).Contents (Elt F) → (⟨S512, .f32⟩ : BufTy).Contents (Elt F)),
    unary main_v23 main_v24 (Host.rsqrt : (⟨S512, .f32⟩ : BufTy).Contents (Elt F) → (⟨S512, .f32⟩ : BufTy).Contents (Elt F)),
    unary main_v24 main_v25 (broadcastInDim S1x512 ![1] bcast_S512_S1x512_1 : (⟨S512, .f32⟩ : BufTy).Contents (Elt F) → (⟨S1x512, .f32⟩ : BufTy).Contents (Elt F)),
    unary main_v25 main_v26 (broadcastInDim S60000x512 ![0, 1] bcast_S1x512_S60000x512_0_1 : (⟨S1x512, .f32⟩ : BufTy).Contents (Elt F) → (⟨S60000x512, .f32⟩ : BufTy).Contents (Elt F)),
    binary main_v21 main_v26 main_v27 (mulf : (⟨S60000x512, .f32⟩ : BufTy).Contents (Elt F) → (⟨S60000x512, .f32⟩ : BufTy).Contents (Elt F) → (⟨S60000x512, .f32⟩ : BufTy).Contents (Elt F)),
    unary main_arg4 main_v28 (broadcastInDim S1x512 ![1] bcast_S512_S1x512_1 : (⟨S512, .f32⟩ : BufTy).Contents (Elt F) → (⟨S1x512, .f32⟩ : BufTy).Contents (Elt F)),
    unary main_v28 main_v29 (broadcastInDim S60000x512 ![0, 1] bcast_S1x512_S60000x512_0_1 : (⟨S1x512, .f32⟩ : BufTy).Contents (Elt F) → (⟨S60000x512, .f32⟩ : BufTy).Contents (Elt F)),
    binary main_v27 main_v29 main_v30 (mulf : (⟨S60000x512, .f32⟩ : BufTy).Contents (Elt F) → (⟨S60000x512, .f32⟩ : BufTy).Contents (Elt F) → (⟨S60000x512, .f32⟩ : BufTy).Contents (Elt F)),
    unary main_arg5 main_v31 (broadcastInDim S1x512 ![1] bcast_S512_S1x512_1 : (⟨S512, .f32⟩ : BufTy).Contents (Elt F) → (⟨S1x512, .f32⟩ : BufTy).Contents (Elt F)),
    unary main_v31 main_v32 (broadcastInDim S60000x512 ![0, 1] bcast_S1x512_S60000x512_0_1 : (⟨S1x512, .f32⟩ : BufTy).Contents (Elt F) → (⟨S60000x512, .f32⟩ : BufTy).Contents (Elt F)),
    binary main_v30 main_v32 main_v33 (addf : (⟨S60000x512, .f32⟩ : BufTy).Contents (Elt F) → (⟨S60000x512, .f32⟩ : BufTy).Contents (Elt F) → (⟨S60000x512, .f32⟩ : BufTy).Contents (Elt F)) ]

/-- Stretch 3: the first branch's first relu. -/
abbrev w3 : List (HloOp τ sig (Elt F)) :=
  [ nullary main_call0_cst (constant S_ .f32 0x00000000#32),
    unary main_call0_cst main_call0_v0 (broadcastInDim S60000x512 ![] bcast_S_S60000x512 : (⟨S_, .f32⟩ : BufTy).Contents (Elt F) → (⟨S60000x512, .f32⟩ : BufTy).Contents (Elt F)),
    binary main_v33 main_call0_v0 main_v34 (maximumf : (⟨S60000x512, .f32⟩ : BufTy).Contents (Elt F) → (⟨S60000x512, .f32⟩ : BufTy).Contents (Elt F) → (⟨S60000x512, .f32⟩ : BufTy).Contents (Elt F)) ]

/-- Stretch 4: the first branch's second layer up to its relu. -/
abbrev w4 : List (HloOp τ sig (Elt F)) :=
  [ binary main_v34 main_arg8 main_v35 ((fun l r => Host.dotGeneral dot_S60000x512_S512x512_S60000x512_1_0_0_1_n_n none l r) : (⟨S60000x512, .f32⟩ : BufTy).Contents (Elt F) → (⟨S512x512, .f32⟩ : BufTy).Contents (Elt F) → (⟨S60000x512, .f32⟩ : BufTy).Contents (Elt F)),
    unary main_arg9 main_v36 (broadcastInDim S1x512 ![1] bcast_S512_S1x512_1 : (⟨S512, .f32⟩ : BufTy).Contents (Elt F) → (⟨S1x512, .f32⟩ : BufTy).Contents (Elt F)),
    unary main_v36 main_v37 (broadcastInDim S60000x512 ![0, 1] bcast_S1x512_S60000x512_0_1 : (⟨S1x512, .f32⟩ : BufTy).Contents (Elt F) → (⟨S60000x512, .f32⟩ : BufTy).Contents (Elt F)),
    binary main_v35 main_v37 main_v38 (addf : (⟨S60000x512, .f32⟩ : BufTy).Contents (Elt F) → (⟨S60000x512, .f32⟩ : BufTy).Contents (Elt F) → (⟨S60000x512, .f32⟩ : BufTy).Contents (Elt F)) ]

/-- Stretch 5: the first branch's second relu. -/
abbrev w5 : List (HloOp τ sig (Elt F)) :=
  [ nullary main_call1_cst (constant S_ .f32 0x00000000#32),
    unary main_call1_cst main_call1_v0 (broadcastInDim S60000x512 ![] bcast_S_S60000x512 : (⟨S_, .f32⟩ : BufTy).Contents (Elt F) → (⟨S60000x512, .f32⟩ : BufTy).Contents (Elt F)),
    binary main_v38 main_call1_v0 main_v39 (maximumf : (⟨S60000x512, .f32⟩ : BufTy).Contents (Elt F) → (⟨S60000x512, .f32⟩ : BufTy).Contents (Elt F) → (⟨S60000x512, .f32⟩ : BufTy).Contents (Elt F)) ]

/-- Stretch 6: the aggregation (the second branch's copy). -/
abbrev w6 : List (HloOp τ sig (Elt F)) :=
  [ unary main_arg1 main_v40 ((extractStridedSlice S1x960000 ![0, 0] · slices_S2x960000_S1x960000_0_0) : (⟨S2x960000, .i32⟩ : BufTy).Contents (Elt F) → (⟨S1x960000, .i32⟩ : BufTy).Contents (Elt F)),
    reshape main_v40 main_v41 rfl shapeCasts_S1x960000_S960000,
    unary main_arg1 main_v42 ((extractStridedSlice S1x960000 ![1, 0] · slices_S2x960000_S1x960000_1_0) : (⟨S2x960000, .i32⟩ : BufTy).Contents (Elt F) → (⟨S1x960000, .i32⟩ : BufTy).Contents (Elt F)),
    reshape main_v42 main_v43 rfl shapeCasts_S1x960000_S960000,
    nullary main_c_2 (constantI S_ 32 0#32),
    unary main_c_2 main_v44 (broadcastInDim S960000 ![] bcast_S_S960000 : (⟨S_, .i32⟩ : BufTy).Contents (Elt F) → (⟨S960000, .i32⟩ : BufTy).Contents (Elt F)),
    binary main_v41 main_v44 main_v45 (cmpi .slt : (⟨S960000, .i32⟩ : BufTy).Contents (Elt F) → (⟨S960000, .i32⟩ : BufTy).Contents (Elt F) → (⟨S960000, .i1⟩ : BufTy).Contents (Elt F)),
    nullary main_c_3 (constantI S_ 32 60000#32),
    unary main_c_3 main_v46 (broadcastInDim S960000 ![] bcast_S_S960000 : (⟨S_, .i32⟩ : BufTy).Contents (Elt F) → (⟨S960000, .i32⟩ : BufTy).Contents (Elt F)),
    binary main_v41 main_v46 main_v47 (addi : (⟨S960000, .i32⟩ : BufTy).Contents (Elt F) → (⟨S960000, .i32⟩ : BufTy).Contents (Elt F) → (⟨S960000, .i32⟩ : BufTy).Contents (Elt F)),
    ternary main_v45 main_v47 main_v41 main_v48 (select : (⟨S960000, .i1⟩ : BufTy).Contents (Elt F) → (⟨S960000, .i32⟩ : BufTy).Contents (Elt F) → (⟨S960000, .i32⟩ : BufTy).Contents (Elt F) → (⟨S960000, .i32⟩ : BufTy).Contents (Elt F)),
    unary main_v48 main_v49 (broadcastInDim S960000x1 ![0] bcast_S960000_S960000x1_0 : (⟨S960000, .i32⟩ : BufTy).Contents (Elt F) → (⟨S960000x1, .i32⟩ : BufTy).Contents (Elt F)),
    binary main_arg0 main_v49 main_v50 ((fun x i => Host.gather gather_S60000x128_S960000x1_S960000x128_1_0_n_n_0_1_1128 x i) : (⟨S60000x128, .f32⟩ : BufTy).Contents (Elt F) → (⟨S960000x1, .i32⟩ : BufTy).Contents (Elt F) → (⟨S960000x128, .f32⟩ : BufTy).Contents (Elt F)),
    nullary main_cst_4 (constant S_ .f32 0x00000000#32),
    unary main_cst_4 main_v51 (broadcastInDim S60000x128 ![] bcast_S_S60000x128 : (⟨S_, .f32⟩ : BufTy).Contents (Elt F) → (⟨S60000x128, .f32⟩ : BufTy).Contents (Elt F)),
    unary main_v43 main_v52 (broadcastInDim S960000x1 ![0] bcast_S960000_S960000x1_0 : (⟨S960000, .i32⟩ : BufTy).Contents (Elt F) → (⟨S960000x1, .i32⟩ : BufTy).Contents (Elt F)),
    ternary main_v51 main_v52 main_v50 main_v53 ((fun x i u => Host.scatterAdd scatter_S60000x128_S960000x1_S960000x128_1_0_0_1 x i u) : (⟨S60000x128, .f32⟩ : BufTy).Contents (Elt F) → (⟨S960000x1, .i32⟩ : BufTy).Contents (Elt F) → (⟨S960000x128, .f32⟩ : BufTy).Contents (Elt F) → (⟨S60000x128, .f32⟩ : BufTy).Contents (Elt F)) ]

/-- Stretch 7: the second branch's first layer up to its relu. -/
abbrev w7 : List (HloOp τ sig (Elt F)) :=
  [ binary main_arg0 main_v53 main_v54 (addf : (⟨S60000x128, .f32⟩ : BufTy).Contents (Elt F) → (⟨S60000x128, .f32⟩ : BufTy).Contents (Elt F) → (⟨S60000x128, .f32⟩ : BufTy).Contents (Elt F)),
    binary main_v54 main_arg10 main_v55 ((fun l r => Host.dotGeneral dot_S60000x128_S128x512_S60000x512_1_0_0_1_n_n none l r) : (⟨S60000x128, .f32⟩ : BufTy).Contents (Elt F) → (⟨S128x512, .f32⟩ : BufTy).Contents (Elt F) → (⟨S60000x512, .f32⟩ : BufTy).Contents (Elt F)),
    unary main_arg11 main_v56 (broadcastInDim S1x512 ![1] bcast_S512_S1x512_1 : (⟨S512, .f32⟩ : BufTy).Contents (Elt F) → (⟨S1x512, .f32⟩ : BufTy).Contents (Elt F)),
    unary main_v56 main_v57 (broadcastInDim S60000x512 ![0, 1] bcast_S1x512_S60000x512_0_1 : (⟨S1x512, .f32⟩ : BufTy).Contents (Elt F) → (⟨S60000x512, .f32⟩ : BufTy).Contents (Elt F)),
    binary main_v55 main_v57 main_v58 (addf : (⟨S60000x512, .f32⟩ : BufTy).Contents (Elt F) → (⟨S60000x512, .f32⟩ : BufTy).Contents (Elt F) → (⟨S60000x512, .f32⟩ : BufTy).Contents (Elt F)),
    unary main_arg14 main_v59 (broadcastInDim S1x512 ![1] bcast_S512_S1x512_1 : (⟨S512, .f32⟩ : BufTy).Contents (Elt F) → (⟨S1x512, .f32⟩ : BufTy).Contents (Elt F)),
    unary main_v59 main_v60 (broadcastInDim S60000x512 ![0, 1] bcast_S1x512_S60000x512_0_1 : (⟨S1x512, .f32⟩ : BufTy).Contents (Elt F) → (⟨S60000x512, .f32⟩ : BufTy).Contents (Elt F)),
    binary main_v58 main_v60 main_v61 (subf : (⟨S60000x512, .f32⟩ : BufTy).Contents (Elt F) → (⟨S60000x512, .f32⟩ : BufTy).Contents (Elt F) → (⟨S60000x512, .f32⟩ : BufTy).Contents (Elt F)),
    nullary main_cst_5 (constant S_ .f32 0x3727C5AC#32),
    unary main_cst_5 main_v62 (broadcastInDim S512 ![] bcast_S_S512 : (⟨S_, .f32⟩ : BufTy).Contents (Elt F) → (⟨S512, .f32⟩ : BufTy).Contents (Elt F)),
    binary main_arg15 main_v62 main_v63 (addf : (⟨S512, .f32⟩ : BufTy).Contents (Elt F) → (⟨S512, .f32⟩ : BufTy).Contents (Elt F) → (⟨S512, .f32⟩ : BufTy).Contents (Elt F)),
    unary main_v63 main_v64 (Host.rsqrt : (⟨S512, .f32⟩ : BufTy).Contents (Elt F) → (⟨S512, .f32⟩ : BufTy).Contents (Elt F)),
    unary main_v64 main_v65 (broadcastInDim S1x512 ![1] bcast_S512_S1x512_1 : (⟨S512, .f32⟩ : BufTy).Contents (Elt F) → (⟨S1x512, .f32⟩ : BufTy).Contents (Elt F)),
    unary main_v65 main_v66 (broadcastInDim S60000x512 ![0, 1] bcast_S1x512_S60000x512_0_1 : (⟨S1x512, .f32⟩ : BufTy).Contents (Elt F) → (⟨S60000x512, .f32⟩ : BufTy).Contents (Elt F)),
    binary main_v61 main_v66 main_v67 (mulf : (⟨S60000x512, .f32⟩ : BufTy).Contents (Elt F) → (⟨S60000x512, .f32⟩ : BufTy).Contents (Elt F) → (⟨S60000x512, .f32⟩ : BufTy).Contents (Elt F)),
    unary main_arg12 main_v68 (broadcastInDim S1x512 ![1] bcast_S512_S1x512_1 : (⟨S512, .f32⟩ : BufTy).Contents (Elt F) → (⟨S1x512, .f32⟩ : BufTy).Contents (Elt F)),
    unary main_v68 main_v69 (broadcastInDim S60000x512 ![0, 1] bcast_S1x512_S60000x512_0_1 : (⟨S1x512, .f32⟩ : BufTy).Contents (Elt F) → (⟨S60000x512, .f32⟩ : BufTy).Contents (Elt F)),
    binary main_v67 main_v69 main_v70 (mulf : (⟨S60000x512, .f32⟩ : BufTy).Contents (Elt F) → (⟨S60000x512, .f32⟩ : BufTy).Contents (Elt F) → (⟨S60000x512, .f32⟩ : BufTy).Contents (Elt F)),
    unary main_arg13 main_v71 (broadcastInDim S1x512 ![1] bcast_S512_S1x512_1 : (⟨S512, .f32⟩ : BufTy).Contents (Elt F) → (⟨S1x512, .f32⟩ : BufTy).Contents (Elt F)),
    unary main_v71 main_v72 (broadcastInDim S60000x512 ![0, 1] bcast_S1x512_S60000x512_0_1 : (⟨S1x512, .f32⟩ : BufTy).Contents (Elt F) → (⟨S60000x512, .f32⟩ : BufTy).Contents (Elt F)),
    binary main_v70 main_v72 main_v73 (addf : (⟨S60000x512, .f32⟩ : BufTy).Contents (Elt F) → (⟨S60000x512, .f32⟩ : BufTy).Contents (Elt F) → (⟨S60000x512, .f32⟩ : BufTy).Contents (Elt F)) ]

/-- Stretch 8: the second branch's first relu. -/
abbrev w8 : List (HloOp τ sig (Elt F)) :=
  [ nullary main_call2_cst (constant S_ .f32 0x00000000#32),
    unary main_call2_cst main_call2_v0 (broadcastInDim S60000x512 ![] bcast_S_S60000x512 : (⟨S_, .f32⟩ : BufTy).Contents (Elt F) → (⟨S60000x512, .f32⟩ : BufTy).Contents (Elt F)),
    binary main_v73 main_call2_v0 main_v74 (maximumf : (⟨S60000x512, .f32⟩ : BufTy).Contents (Elt F) → (⟨S60000x512, .f32⟩ : BufTy).Contents (Elt F) → (⟨S60000x512, .f32⟩ : BufTy).Contents (Elt F)) ]

/-- Stretch 9: the second branch's second layer up to its relu. -/
abbrev w9 : List (HloOp τ sig (Elt F)) :=
  [ binary main_v74 main_arg16 main_v75 ((fun l r => Host.dotGeneral dot_S60000x512_S512x512_S60000x512_1_0_0_1_n_n none l r) : (⟨S60000x512, .f32⟩ : BufTy).Contents (Elt F) → (⟨S512x512, .f32⟩ : BufTy).Contents (Elt F) → (⟨S60000x512, .f32⟩ : BufTy).Contents (Elt F)),
    unary main_arg17 main_v76 (broadcastInDim S1x512 ![1] bcast_S512_S1x512_1 : (⟨S512, .f32⟩ : BufTy).Contents (Elt F) → (⟨S1x512, .f32⟩ : BufTy).Contents (Elt F)),
    unary main_v76 main_v77 (broadcastInDim S60000x512 ![0, 1] bcast_S1x512_S60000x512_0_1 : (⟨S1x512, .f32⟩ : BufTy).Contents (Elt F) → (⟨S60000x512, .f32⟩ : BufTy).Contents (Elt F)),
    binary main_v75 main_v77 main_v78 (addf : (⟨S60000x512, .f32⟩ : BufTy).Contents (Elt F) → (⟨S60000x512, .f32⟩ : BufTy).Contents (Elt F) → (⟨S60000x512, .f32⟩ : BufTy).Contents (Elt F)) ]

/-- Stretch 10: the second branch's second relu. -/
abbrev w10 : List (HloOp τ sig (Elt F)) :=
  [ nullary main_call3_cst (constant S_ .f32 0x00000000#32),
    unary main_call3_cst main_call3_v0 (broadcastInDim S60000x512 ![] bcast_S_S60000x512 : (⟨S_, .f32⟩ : BufTy).Contents (Elt F) → (⟨S60000x512, .f32⟩ : BufTy).Contents (Elt F)),
    binary main_v78 main_call3_v0 main_v79 (maximumf : (⟨S60000x512, .f32⟩ : BufTy).Contents (Elt F) → (⟨S60000x512, .f32⟩ : BufTy).Contents (Elt F) → (⟨S60000x512, .f32⟩ : BufTy).Contents (Elt F)) ]

/-- Stretch 11: the two branches side by side, the head's first layer and the slope. -/
abbrev w11 : List (HloOp τ sig (Elt F)) :=
  [ binary main_v39 main_v79 main_v80 ((fun a b => concatenate S60000x1024 1 [⟨S60000x512, a⟩, ⟨S60000x512, b⟩] concatenates_S60000x512_S60000x512_S60000x1024_d1) : (⟨S60000x512, .f32⟩ : BufTy).Contents (Elt F) → (⟨S60000x512, .f32⟩ : BufTy).Contents (Elt F) → (⟨S60000x1024, .f32⟩ : BufTy).Contents (Elt F)),
    binary main_v80 main_arg18 main_v81 ((fun l r => Host.dotGeneral dot_S60000x1024_S1024x2048_S60000x2048_1_0_0_1_n_n none l r) : (⟨S60000x1024, .f32⟩ : BufTy).Contents (Elt F) → (⟨S1024x2048, .f32⟩ : BufTy).Contents (Elt F) → (⟨S60000x2048, .f32⟩ : BufTy).Contents (Elt F)),
    unary main_arg19 main_v82 (broadcastInDim S1x2048 ![1] bcast_S2048_S1x2048_1 : (⟨S2048, .f32⟩ : BufTy).Contents (Elt F) → (⟨S1x2048, .f32⟩ : BufTy).Contents (Elt F)),
    unary main_v82 main_v83 (broadcastInDim S60000x2048 ![0, 1] bcast_S1x2048_S60000x2048_0_1 : (⟨S1x2048, .f32⟩ : BufTy).Contents (Elt F) → (⟨S60000x2048, .f32⟩ : BufTy).Contents (Elt F)),
    binary main_v81 main_v83 main_v84 (addf : (⟨S60000x2048, .f32⟩ : BufTy).Contents (Elt F) → (⟨S60000x2048, .f32⟩ : BufTy).Contents (Elt F) → (⟨S60000x2048, .f32⟩ : BufTy).Contents (Elt F)),
    nullary main_cst_6 (constant S_ .f32 0x3C23D70A#32) ]

/-- Stretch 12: the leaky relu. -/
abbrev w12 : List (HloOp τ sig (Elt F)) :=
  [ nullary main_call4_cst (constant S_ .f32 0x00000000#32),
    unary main_call4_cst main_call4_v0 (broadcastInDim S60000x2048 ![] bcast_S_S60000x2048 : (⟨S_, .f32⟩ : BufTy).Contents (Elt F) → (⟨S60000x2048, .f32⟩ : BufTy).Contents (Elt F)),
    binary main_v84 main_call4_v0 main_call4_v1 (cmpf .oge : (⟨S60000x2048, .f32⟩ : BufTy).Contents (Elt F) → (⟨S60000x2048, .f32⟩ : BufTy).Contents (Elt F) → (⟨S60000x2048, .i1⟩ : BufTy).Contents (Elt F)),
    unary main_cst_6 main_call4_v2 (id : (⟨S_, .f32⟩ : BufTy).Contents (Elt F) → (⟨S_, .f32⟩ : BufTy).Contents (Elt F)),
    unary main_call4_v2 main_call4_v3 (broadcastInDim S60000x2048 ![] bcast_S_S60000x2048 : (⟨S_, .f32⟩ : BufTy).Contents (Elt F) → (⟨S60000x2048, .f32⟩ : BufTy).Contents (Elt F)),
    binary main_call4_v3 main_v84 main_call4_v4 (mulf : (⟨S60000x2048, .f32⟩ : BufTy).Contents (Elt F) → (⟨S60000x2048, .f32⟩ : BufTy).Contents (Elt F) → (⟨S60000x2048, .f32⟩ : BufTy).Contents (Elt F)),
    ternary main_call4_v1 main_v84 main_call4_v4 main_v85 (select : (⟨S60000x2048, .i1⟩ : BufTy).Contents (Elt F) → (⟨S60000x2048, .f32⟩ : BufTy).Contents (Elt F) → (⟨S60000x2048, .f32⟩ : BufTy).Contents (Elt F) → (⟨S60000x2048, .f32⟩ : BufTy).Contents (Elt F)) ]

/-- Stretch 13: the two dense layers, the output layer and the sigmoid. -/
abbrev w13 : List (HloOp τ sig (Elt F)) :=
  [ binary main_v85 main_arg20 main_v86 ((fun l r => Host.dotGeneral dot_S60000x2048_S2048x4096_S60000x4096_1_0_0_1_n_n none l r) : (⟨S60000x2048, .f32⟩ : BufTy).Contents (Elt F) → (⟨S2048x4096, .f32⟩ : BufTy).Contents (Elt F) → (⟨S60000x4096, .f32⟩ : BufTy).Contents (Elt F)),
    unary main_arg21 main_v87 (broadcastInDim S1x4096 ![1] bcast_S4096_S1x4096_1 : (⟨S4096, .f32⟩ : BufTy).Contents (Elt F) → (⟨S1x4096, .f32⟩ : BufTy).Contents (Elt F)),
    unary main_v87 main_v88 (broadcastInDim S60000x4096 ![0, 1] bcast_S1x4096_S60000x4096_0_1 : (⟨S1x4096, .f32⟩ : BufTy).Contents (Elt F) → (⟨S60000x4096, .f32⟩ : BufTy).Contents (Elt F)),
    binary main_v86 main_v88 main_v89 (addf : (⟨S60000x4096, .f32⟩ : BufTy).Contents (Elt F) → (⟨S60000x4096, .f32⟩ : BufTy).Contents (Elt F) → (⟨S60000x4096, .f32⟩ : BufTy).Contents (Elt F)),
    binary main_v89 main_arg22 main_v90 ((fun l r => Host.dotGeneral dot_S60000x4096_S4096x2048_S60000x2048_1_0_0_1_n_n none l r) : (⟨S60000x4096, .f32⟩ : BufTy).Contents (Elt F) → (⟨S4096x2048, .f32⟩ : BufTy).Contents (Elt F) → (⟨S60000x2048, .f32⟩ : BufTy).Contents (Elt F)),
    unary main_arg23 main_v91 (broadcastInDim S1x2048 ![1] bcast_S2048_S1x2048_1 : (⟨S2048, .f32⟩ : BufTy).Contents (Elt F) → (⟨S1x2048, .f32⟩ : BufTy).Contents (Elt F)),
    unary main_v91 main_v92 (broadcastInDim S60000x2048 ![0, 1] bcast_S1x2048_S60000x2048_0_1 : (⟨S1x2048, .f32⟩ : BufTy).Contents (Elt F) → (⟨S60000x2048, .f32⟩ : BufTy).Contents (Elt F)),
    binary main_v90 main_v92 main_v93 (addf : (⟨S60000x2048, .f32⟩ : BufTy).Contents (Elt F) → (⟨S60000x2048, .f32⟩ : BufTy).Contents (Elt F) → (⟨S60000x2048, .f32⟩ : BufTy).Contents (Elt F)),
    binary main_v93 main_arg24 main_v94 ((fun l r => Host.dotGeneral dot_S60000x2048_S2048x64_S60000x64_1_0_0_1_n_n none l r) : (⟨S60000x2048, .f32⟩ : BufTy).Contents (Elt F) → (⟨S2048x64, .f32⟩ : BufTy).Contents (Elt F) → (⟨S60000x64, .f32⟩ : BufTy).Contents (Elt F)),
    unary main_arg25 main_v95 (broadcastInDim S1x64 ![1] bcast_S64_S1x64_1 : (⟨S64, .f32⟩ : BufTy).Contents (Elt F) → (⟨S1x64, .f32⟩ : BufTy).Contents (Elt F)),
    unary main_v95 main_v96 (broadcastInDim S60000x64 ![0, 1] bcast_S1x64_S60000x64_0_1 : (⟨S1x64, .f32⟩ : BufTy).Contents (Elt F) → (⟨S60000x64, .f32⟩ : BufTy).Contents (Elt F)),
    binary main_v94 main_v96 main_v97 (addf : (⟨S60000x64, .f32⟩ : BufTy).Contents (Elt F) → (⟨S60000x64, .f32⟩ : BufTy).Contents (Elt F) → (⟨S60000x64, .f32⟩ : BufTy).Contents (Elt F)),
    unary main_v97 main_v98 (Host.negf : (⟨S60000x64, .f32⟩ : BufTy).Contents (Elt F) → (⟨S60000x64, .f32⟩ : BufTy).Contents (Elt F)),
    unary main_v98 main_v99 (Host.exp : (⟨S60000x64, .f32⟩ : BufTy).Contents (Elt F) → (⟨S60000x64, .f32⟩ : BufTy).Contents (Elt F)),
    nullary main_cst_7 (constant S_ .f32 0x3F800000#32),
    unary main_cst_7 main_v100 (broadcastInDim S60000x64 ![] bcast_S_S60000x64 : (⟨S_, .f32⟩ : BufTy).Contents (Elt F) → (⟨S60000x64, .f32⟩ : BufTy).Contents (Elt F)),
    binary main_v100 main_v99 main_v101 (addf : (⟨S60000x64, .f32⟩ : BufTy).Contents (Elt F) → (⟨S60000x64, .f32⟩ : BufTy).Contents (Elt F) → (⟨S60000x64, .f32⟩ : BufTy).Contents (Elt F)),
    nullary main_cst_8 (constant S_ .f32 0x3F800000#32),
    unary main_cst_8 main_v102 (broadcastInDim S60000x64 ![] bcast_S_S60000x64 : (⟨S_, .f32⟩ : BufTy).Contents (Elt F) → (⟨S60000x64, .f32⟩ : BufTy).Contents (Elt F)),
    binary main_v102 main_v101 main_v103 (Host.divf : (⟨S60000x64, .f32⟩ : BufTy).Contents (Elt F) → (⟨S60000x64, .f32⟩ : BufTy).Contents (Elt F) → (⟨S60000x64, .f32⟩ : BufTy).Contents (Elt F)) ]

set_option maxRecDepth 65536 in
/-- The 129 operations are the thirteen stretches in order (an outlined function's operation is the plain operation
    at its buffers: its transports are the identity). -/
theorem ops_eq : (ops : List (HloOp τ sig (Elt F))) = w1 ++ (w2 ++ (w3 ++ (w4 ++ (w5 ++ (w6 ++ (w7 ++ (w8 ++ (w9 ++ (w10 ++ (w11 ++ (w12 ++ (w13)))))))))))) := rfl

end Stretches

/-! ## The contents stretch by stretch -/

/-- The contents before the first stretch. -/
def val0 (V : Valuation τ sig (Elt Ideal)) : Valuation τ sig (Elt Ideal) := V

/-- The contents after the first 1 stretch. -/
def val1 (V : Valuation τ sig (Elt Ideal)) : Valuation τ sig (Elt Ideal) := after (w1 (F := Ideal)) (val0 V)
/-- The buffers stretch 1 writes. -/
abbrev w1_W : List (Ref sig .tc) := [main_v0, main_v1, main_v2, main_v3, main_c, main_v4, main_v5, main_c_0, main_v6, main_v7, main_v8, main_v9, main_v10, main_cst, main_v11, main_v12, main_v13]
set_option maxRecDepth 8192 in
theorem w1_writes : (w1 : List (HloOp τ sig (Elt Ideal))).Forall fun op => op.writes ⊆ (w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 1 does not write keeps its contents through it. -/
theorem val1_keep (V : Valuation τ sig (Elt Ideal)) (r : Ref sig .tc) (h : r ∉ w1_W) :
    val1 V (Proc.devRef .tc r) = val0 V (Proc.devRef .tc r) :=
  after_of_writes_sub w1 _ w1_writes h

/-- The contents after the first 2 stretches. -/
def val2 (V : Valuation τ sig (Elt Ideal)) : Valuation τ sig (Elt Ideal) := after (w2 (F := Ideal)) (val1 V)
/-- The buffers stretch 2 writes. -/
abbrev w2_W : List (Ref sig .tc) := [main_v14, main_v15, main_v16, main_v17, main_v18, main_v19, main_v20, main_v21, main_cst_1, main_v22, main_v23, main_v24, main_v25, main_v26, main_v27, main_v28, main_v29, main_v30, main_v31, main_v32, main_v33]
set_option maxRecDepth 8192 in
theorem w2_writes : (w2 : List (HloOp τ sig (Elt Ideal))).Forall fun op => op.writes ⊆ (w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 2 does not write keeps its contents through it. -/
theorem val2_keep (V : Valuation τ sig (Elt Ideal)) (r : Ref sig .tc) (h : r ∉ w2_W) :
    val2 V (Proc.devRef .tc r) = val1 V (Proc.devRef .tc r) :=
  after_of_writes_sub w2 _ w2_writes h

/-- The contents after the first 3 stretches. -/
def val3 (V : Valuation τ sig (Elt Ideal)) : Valuation τ sig (Elt Ideal) := after (w3 (F := Ideal)) (val2 V)
/-- The buffers stretch 3 writes. -/
abbrev w3_W : List (Ref sig .tc) := [main_call0_cst, main_call0_v0, main_v34]
set_option maxRecDepth 8192 in
theorem w3_writes : (w3 : List (HloOp τ sig (Elt Ideal))).Forall fun op => op.writes ⊆ (w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 3 does not write keeps its contents through it. -/
theorem val3_keep (V : Valuation τ sig (Elt Ideal)) (r : Ref sig .tc) (h : r ∉ w3_W) :
    val3 V (Proc.devRef .tc r) = val2 V (Proc.devRef .tc r) :=
  after_of_writes_sub w3 _ w3_writes h

/-- The contents after the first 4 stretches. -/
def val4 (V : Valuation τ sig (Elt Ideal)) : Valuation τ sig (Elt Ideal) := after (w4 (F := Ideal)) (val3 V)
/-- The buffers stretch 4 writes. -/
abbrev w4_W : List (Ref sig .tc) := [main_v35, main_v36, main_v37, main_v38]
set_option maxRecDepth 8192 in
theorem w4_writes : (w4 : List (HloOp τ sig (Elt Ideal))).Forall fun op => op.writes ⊆ (w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 4 does not write keeps its contents through it. -/
theorem val4_keep (V : Valuation τ sig (Elt Ideal)) (r : Ref sig .tc) (h : r ∉ w4_W) :
    val4 V (Proc.devRef .tc r) = val3 V (Proc.devRef .tc r) :=
  after_of_writes_sub w4 _ w4_writes h

/-- The contents after the first 5 stretches. -/
def val5 (V : Valuation τ sig (Elt Ideal)) : Valuation τ sig (Elt Ideal) := after (w5 (F := Ideal)) (val4 V)
/-- The buffers stretch 5 writes. -/
abbrev w5_W : List (Ref sig .tc) := [main_call1_cst, main_call1_v0, main_v39]
set_option maxRecDepth 8192 in
theorem w5_writes : (w5 : List (HloOp τ sig (Elt Ideal))).Forall fun op => op.writes ⊆ (w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 5 does not write keeps its contents through it. -/
theorem val5_keep (V : Valuation τ sig (Elt Ideal)) (r : Ref sig .tc) (h : r ∉ w5_W) :
    val5 V (Proc.devRef .tc r) = val4 V (Proc.devRef .tc r) :=
  after_of_writes_sub w5 _ w5_writes h

/-- The contents after the first 6 stretches. -/
def val6 (V : Valuation τ sig (Elt Ideal)) : Valuation τ sig (Elt Ideal) := after (w6 (F := Ideal)) (val5 V)
/-- The buffers stretch 6 writes. -/
abbrev w6_W : List (Ref sig .tc) := [main_v40, main_v41, main_v42, main_v43, main_c_2, main_v44, main_v45, main_c_3, main_v46, main_v47, main_v48, main_v49, main_v50, main_cst_4, main_v51, main_v52, main_v53]
set_option maxRecDepth 8192 in
theorem w6_writes : (w6 : List (HloOp τ sig (Elt Ideal))).Forall fun op => op.writes ⊆ (w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 6 does not write keeps its contents through it. -/
theorem val6_keep (V : Valuation τ sig (Elt Ideal)) (r : Ref sig .tc) (h : r ∉ w6_W) :
    val6 V (Proc.devRef .tc r) = val5 V (Proc.devRef .tc r) :=
  after_of_writes_sub w6 _ w6_writes h

/-- The contents after the first 7 stretches. -/
def val7 (V : Valuation τ sig (Elt Ideal)) : Valuation τ sig (Elt Ideal) := after (w7 (F := Ideal)) (val6 V)
/-- The buffers stretch 7 writes. -/
abbrev w7_W : List (Ref sig .tc) := [main_v54, main_v55, main_v56, main_v57, main_v58, main_v59, main_v60, main_v61, main_cst_5, main_v62, main_v63, main_v64, main_v65, main_v66, main_v67, main_v68, main_v69, main_v70, main_v71, main_v72, main_v73]
set_option maxRecDepth 8192 in
theorem w7_writes : (w7 : List (HloOp τ sig (Elt Ideal))).Forall fun op => op.writes ⊆ (w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 7 does not write keeps its contents through it. -/
theorem val7_keep (V : Valuation τ sig (Elt Ideal)) (r : Ref sig .tc) (h : r ∉ w7_W) :
    val7 V (Proc.devRef .tc r) = val6 V (Proc.devRef .tc r) :=
  after_of_writes_sub w7 _ w7_writes h

/-- The contents after the first 8 stretches. -/
def val8 (V : Valuation τ sig (Elt Ideal)) : Valuation τ sig (Elt Ideal) := after (w8 (F := Ideal)) (val7 V)
/-- The buffers stretch 8 writes. -/
abbrev w8_W : List (Ref sig .tc) := [main_call2_cst, main_call2_v0, main_v74]
set_option maxRecDepth 8192 in
theorem w8_writes : (w8 : List (HloOp τ sig (Elt Ideal))).Forall fun op => op.writes ⊆ (w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 8 does not write keeps its contents through it. -/
theorem val8_keep (V : Valuation τ sig (Elt Ideal)) (r : Ref sig .tc) (h : r ∉ w8_W) :
    val8 V (Proc.devRef .tc r) = val7 V (Proc.devRef .tc r) :=
  after_of_writes_sub w8 _ w8_writes h

/-- The contents after the first 9 stretches. -/
def val9 (V : Valuation τ sig (Elt Ideal)) : Valuation τ sig (Elt Ideal) := after (w9 (F := Ideal)) (val8 V)
/-- The buffers stretch 9 writes. -/
abbrev w9_W : List (Ref sig .tc) := [main_v75, main_v76, main_v77, main_v78]
set_option maxRecDepth 8192 in
theorem w9_writes : (w9 : List (HloOp τ sig (Elt Ideal))).Forall fun op => op.writes ⊆ (w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 9 does not write keeps its contents through it. -/
theorem val9_keep (V : Valuation τ sig (Elt Ideal)) (r : Ref sig .tc) (h : r ∉ w9_W) :
    val9 V (Proc.devRef .tc r) = val8 V (Proc.devRef .tc r) :=
  after_of_writes_sub w9 _ w9_writes h

/-- The contents after the first 10 stretches. -/
def val10 (V : Valuation τ sig (Elt Ideal)) : Valuation τ sig (Elt Ideal) := after (w10 (F := Ideal)) (val9 V)
/-- The buffers stretch 10 writes. -/
abbrev w10_W : List (Ref sig .tc) := [main_call3_cst, main_call3_v0, main_v79]
set_option maxRecDepth 8192 in
theorem w10_writes : (w10 : List (HloOp τ sig (Elt Ideal))).Forall fun op => op.writes ⊆ (w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 10 does not write keeps its contents through it. -/
theorem val10_keep (V : Valuation τ sig (Elt Ideal)) (r : Ref sig .tc) (h : r ∉ w10_W) :
    val10 V (Proc.devRef .tc r) = val9 V (Proc.devRef .tc r) :=
  after_of_writes_sub w10 _ w10_writes h

/-- The contents after the first 11 stretches. -/
def val11 (V : Valuation τ sig (Elt Ideal)) : Valuation τ sig (Elt Ideal) := after (w11 (F := Ideal)) (val10 V)
/-- The buffers stretch 11 writes. -/
abbrev w11_W : List (Ref sig .tc) := [main_v80, main_v81, main_v82, main_v83, main_v84, main_cst_6]
set_option maxRecDepth 8192 in
theorem w11_writes : (w11 : List (HloOp τ sig (Elt Ideal))).Forall fun op => op.writes ⊆ (w11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 11 does not write keeps its contents through it. -/
theorem val11_keep (V : Valuation τ sig (Elt Ideal)) (r : Ref sig .tc) (h : r ∉ w11_W) :
    val11 V (Proc.devRef .tc r) = val10 V (Proc.devRef .tc r) :=
  after_of_writes_sub w11 _ w11_writes h

/-- The contents after the first 12 stretches. -/
def val12 (V : Valuation τ sig (Elt Ideal)) : Valuation τ sig (Elt Ideal) := after (w12 (F := Ideal)) (val11 V)
/-- The buffers stretch 12 writes. -/
abbrev w12_W : List (Ref sig .tc) := [main_call4_cst, main_call4_v0, main_call4_v1, main_call4_v2, main_call4_v3, main_call4_v4, main_v85]
set_option maxRecDepth 8192 in
theorem w12_writes : (w12 : List (HloOp τ sig (Elt Ideal))).Forall fun op => op.writes ⊆ (w12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 12 does not write keeps its contents through it. -/
theorem val12_keep (V : Valuation τ sig (Elt Ideal)) (r : Ref sig .tc) (h : r ∉ w12_W) :
    val12 V (Proc.devRef .tc r) = val11 V (Proc.devRef .tc r) :=
  after_of_writes_sub w12 _ w12_writes h

/-- The contents after the first 13 stretches. -/
def val13 (V : Valuation τ sig (Elt Ideal)) : Valuation τ sig (Elt Ideal) := after (w13 (F := Ideal)) (val12 V)
/-- The buffers stretch 13 writes. -/
abbrev w13_W : List (Ref sig .tc) := [main_v86, main_v87, main_v88, main_v89, main_v90, main_v91, main_v92, main_v93, main_v94, main_v95, main_v96, main_v97, main_v98, main_v99, main_cst_7, main_v100, main_v101, main_cst_8, main_v102, main_v103]
set_option maxRecDepth 8192 in
theorem w13_writes : (w13 : List (HloOp τ sig (Elt Ideal))).Forall fun op => op.writes ⊆ (w13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 13 does not write keeps its contents through it. -/
theorem val13_keep (V : Valuation τ sig (Elt Ideal)) (r : Ref sig .tc) (h : r ∉ w13_W) :
    val13 V (Proc.devRef .tc r) = val12 V (Proc.devRef .tc r) :=
  after_of_writes_sub w13 _ w13_writes h

/-- Every buffer the line writes. -/
abbrev allW : List (Ref sig .tc) := w1_W ++ w2_W ++ w3_W ++ w4_W ++ w5_W ++ w6_W ++ w7_W ++ w8_W ++ w9_W ++ w10_W ++ w11_W ++ w12_W ++ w13_W

theorem val0_keep (V : Valuation τ sig (Elt Ideal)) (r : Ref sig .tc) : val0 V (no_index (Proc.devRef .tc r)) = V (Proc.devRef .tc r) := rfl

/-- A buffer the line never writes (an argument) still holds its launch contents after 1 stretch. -/
theorem val1_arg (V : Valuation τ sig (Elt Ideal)) (r : Ref sig .tc) (h : r ∉ allW) : val1 V (no_index (Proc.devRef .tc r)) = V (Proc.devRef .tc r) :=
  (val1_keep V r fun hk => h (by simp only [allW, List.mem_append]; tauto)).trans (val0_keep V r)

/-- A buffer the line never writes (an argument) still holds its launch contents after 2 stretches. -/
theorem val2_arg (V : Valuation τ sig (Elt Ideal)) (r : Ref sig .tc) (h : r ∉ allW) : val2 V (no_index (Proc.devRef .tc r)) = V (Proc.devRef .tc r) :=
  (val2_keep V r fun hk => h (by simp only [allW, List.mem_append]; tauto)).trans (val1_arg V r h)

/-- A buffer the line never writes (an argument) still holds its launch contents after 3 stretches. -/
theorem val3_arg (V : Valuation τ sig (Elt Ideal)) (r : Ref sig .tc) (h : r ∉ allW) : val3 V (no_index (Proc.devRef .tc r)) = V (Proc.devRef .tc r) :=
  (val3_keep V r fun hk => h (by simp only [allW, List.mem_append]; tauto)).trans (val2_arg V r h)

/-- A buffer the line never writes (an argument) still holds its launch contents after 4 stretches. -/
theorem val4_arg (V : Valuation τ sig (Elt Ideal)) (r : Ref sig .tc) (h : r ∉ allW) : val4 V (no_index (Proc.devRef .tc r)) = V (Proc.devRef .tc r) :=
  (val4_keep V r fun hk => h (by simp only [allW, List.mem_append]; tauto)).trans (val3_arg V r h)

/-- A buffer the line never writes (an argument) still holds its launch contents after 5 stretches. -/
theorem val5_arg (V : Valuation τ sig (Elt Ideal)) (r : Ref sig .tc) (h : r ∉ allW) : val5 V (no_index (Proc.devRef .tc r)) = V (Proc.devRef .tc r) :=
  (val5_keep V r fun hk => h (by simp only [allW, List.mem_append]; tauto)).trans (val4_arg V r h)

/-- A buffer the line never writes (an argument) still holds its launch contents after 6 stretches. -/
theorem val6_arg (V : Valuation τ sig (Elt Ideal)) (r : Ref sig .tc) (h : r ∉ allW) : val6 V (no_index (Proc.devRef .tc r)) = V (Proc.devRef .tc r) :=
  (val6_keep V r fun hk => h (by simp only [allW, List.mem_append]; tauto)).trans (val5_arg V r h)

/-- A buffer the line never writes (an argument) still holds its launch contents after 7 stretches. -/
theorem val7_arg (V : Valuation τ sig (Elt Ideal)) (r : Ref sig .tc) (h : r ∉ allW) : val7 V (no_index (Proc.devRef .tc r)) = V (Proc.devRef .tc r) :=
  (val7_keep V r fun hk => h (by simp only [allW, List.mem_append]; tauto)).trans (val6_arg V r h)

/-- A buffer the line never writes (an argument) still holds its launch contents after 8 stretches. -/
theorem val8_arg (V : Valuation τ sig (Elt Ideal)) (r : Ref sig .tc) (h : r ∉ allW) : val8 V (no_index (Proc.devRef .tc r)) = V (Proc.devRef .tc r) :=
  (val8_keep V r fun hk => h (by simp only [allW, List.mem_append]; tauto)).trans (val7_arg V r h)

/-- A buffer the line never writes (an argument) still holds its launch contents after 9 stretches. -/
theorem val9_arg (V : Valuation τ sig (Elt Ideal)) (r : Ref sig .tc) (h : r ∉ allW) : val9 V (no_index (Proc.devRef .tc r)) = V (Proc.devRef .tc r) :=
  (val9_keep V r fun hk => h (by simp only [allW, List.mem_append]; tauto)).trans (val8_arg V r h)

/-- A buffer the line never writes (an argument) still holds its launch contents after 10 stretches. -/
theorem val10_arg (V : Valuation τ sig (Elt Ideal)) (r : Ref sig .tc) (h : r ∉ allW) : val10 V (no_index (Proc.devRef .tc r)) = V (Proc.devRef .tc r) :=
  (val10_keep V r fun hk => h (by simp only [allW, List.mem_append]; tauto)).trans (val9_arg V r h)

/-- A buffer the line never writes (an argument) still holds its launch contents after 11 stretches. -/
theorem val11_arg (V : Valuation τ sig (Elt Ideal)) (r : Ref sig .tc) (h : r ∉ allW) : val11 V (no_index (Proc.devRef .tc r)) = V (Proc.devRef .tc r) :=
  (val11_keep V r fun hk => h (by simp only [allW, List.mem_append]; tauto)).trans (val10_arg V r h)

/-- A buffer the line never writes (an argument) still holds its launch contents after 12 stretches. -/
theorem val12_arg (V : Valuation τ sig (Elt Ideal)) (r : Ref sig .tc) (h : r ∉ allW) : val12 V (no_index (Proc.devRef .tc r)) = V (Proc.devRef .tc r) :=
  (val12_keep V r fun hk => h (by simp only [allW, List.mem_append]; tauto)).trans (val11_arg V r h)

/-- A buffer the line never writes (an argument) still holds its launch contents after 13 stretches. -/
theorem val13_arg (V : Valuation τ sig (Elt Ideal)) (r : Ref sig .tc) (h : r ∉ allW) : val13 V (no_index (Proc.devRef .tc r)) = V (Proc.devRef .tc r) :=
  (val13_keep V r fun hk => h (by simp only [allW, List.mem_append]; tauto)).trans (val12_arg V r h)

/-- The contents after the whole line are the contents after the thirteenth stretch. -/
theorem after_ops (V : Valuation τ sig (Elt Ideal)) : after (ops (F := Ideal)) V = val13 V := by
  rw [ops_eq]
  simp only [after_append]
  rfl

/-! ## What each stretch leaves for the later ones -/

attribute [local irreducible] Host.scatterAdd Host.gather Ideal.matmul concatenate
attribute [local irreducible] val0 val1 val2 val3 val4 val5 val6 val7 val8 val9 val10 val11 val12 val13

set_option maxRecDepth 8192 in
set_option maxHeartbeats 2000000 in
theorem val1_main_v13 (V : Valuation τ sig (Elt Ideal)) : val1 V (no_index (Proc.devRef .tc main_v13)) = (Agg (V (Proc.devRef .tc main_arg0)) (V (Proc.devRef .tc main_arg1))) := by
  unfold val1
  simp only [w1]
  after_results_simp
  all_goals (try simp only [val0_keep V main_arg1, val0_keep V main_arg0])
  all_goals (first | done | rfl)

set_option maxRecDepth 8192 in
set_option maxHeartbeats 2000000 in
theorem val2_main_v33 (V : Valuation τ sig (Elt Ideal)) : val2 V (no_index (Proc.devRef .tc main_v33)) = (HiddenPre (addf (V (Proc.devRef .tc main_arg0)) (Agg (V (Proc.devRef .tc main_arg0)) (V (Proc.devRef .tc main_arg1)))) (V (Proc.devRef .tc main_arg2)) (V (Proc.devRef .tc main_arg3)) (V (Proc.devRef .tc main_arg4)) (V (Proc.devRef .tc main_arg5)) (V (Proc.devRef .tc main_arg6)) (V (Proc.devRef .tc main_arg7))) := by
  unfold val2
  simp only [w2]
  after_results_simp
  all_goals (try simp only [val1_arg V main_arg0 (by decide), val1_main_v13 V, val1_arg V main_arg2 (by decide), val1_arg V main_arg3 (by decide), val1_arg V main_arg6 (by decide), val1_arg V main_arg7 (by decide), val1_arg V main_arg4 (by decide), val1_arg V main_arg5 (by decide)])
  all_goals (try rw [val1_main_v13 V])
  all_goals (first | done | rfl)

set_option maxRecDepth 8192 in
set_option maxHeartbeats 2000000 in
theorem val3_main_v34 (V : Valuation τ sig (Elt Ideal)) : val3 V (no_index (Proc.devRef .tc main_v34)) = (Relu512 (HiddenPre (addf (V (Proc.devRef .tc main_arg0)) (Agg (V (Proc.devRef .tc main_arg0)) (V (Proc.devRef .tc main_arg1)))) (V (Proc.devRef .tc main_arg2)) (V (Proc.devRef .tc main_arg3)) (V (Proc.devRef .tc main_arg4)) (V (Proc.devRef .tc main_arg5)) (V (Proc.devRef .tc main_arg6)) (V (Proc.devRef .tc main_arg7)))) := by
  unfold val3
  simp only [w3]
  after_results_simp
  all_goals (try simp only [val2_main_v33 V])
  all_goals (try rw [val2_main_v33 V])
  all_goals (first | done | rfl)

set_option maxRecDepth 8192 in
set_option maxHeartbeats 2000000 in
theorem val4_main_v38 (V : Valuation τ sig (Elt Ideal)) : val4 V (no_index (Proc.devRef .tc main_v38)) = (Lin512 (Relu512 (HiddenPre (addf (V (Proc.devRef .tc main_arg0)) (Agg (V (Proc.devRef .tc main_arg0)) (V (Proc.devRef .tc main_arg1)))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8)) (V (Proc.devRef .tc main_arg9))) := by
  unfold val4
  simp only [w4]
  after_results_simp
  all_goals (try simp only [val3_main_v34 V, val3_arg V main_arg8 (by decide), val3_arg V main_arg9 (by decide)])
  all_goals (try rw [val3_main_v34 V])
  all_goals (first | done | rfl)

set_option maxRecDepth 8192 in
set_option maxHeartbeats 2000000 in
theorem val5_main_v39 (V : Valuation τ sig (Elt Ideal)) : val5 V (no_index (Proc.devRef .tc main_v39)) = (Relu512 (Lin512 (Relu512 (HiddenPre (addf (V (Proc.devRef .tc main_arg0)) (Agg (V (Proc.devRef .tc main_arg0)) (V (Proc.devRef .tc main_arg1)))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8)) (V (Proc.devRef .tc main_arg9)))) := by
  unfold val5
  simp only [w5]
  after_results_simp
  all_goals (try simp only [val4_main_v38 V])
  all_goals (try rw [val4_main_v38 V])
  all_goals (first | done | rfl)

theorem val6_main_v39 (V : Valuation τ sig (Elt Ideal)) : val6 V (no_index (Proc.devRef .tc main_v39)) = (Relu512 (Lin512 (Relu512 (HiddenPre (addf (V (Proc.devRef .tc main_arg0)) (Agg (V (Proc.devRef .tc main_arg0)) (V (Proc.devRef .tc main_arg1)))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8)) (V (Proc.devRef .tc main_arg9)))) :=
  (val6_keep V main_v39 (by decide)).trans (val5_main_v39 V)

set_option maxRecDepth 8192 in
set_option maxHeartbeats 2000000 in
theorem val6_main_v53 (V : Valuation τ sig (Elt Ideal)) : val6 V (no_index (Proc.devRef .tc main_v53)) = (Agg (V (Proc.devRef .tc main_arg0)) (V (Proc.devRef .tc main_arg1))) := by
  unfold val6
  simp only [w6]
  after_results_simp
  all_goals (try simp only [val5_arg V main_arg1 (by decide), val5_arg V main_arg0 (by decide)])
  all_goals (first | done | rfl)

theorem val7_main_v39 (V : Valuation τ sig (Elt Ideal)) : val7 V (no_index (Proc.devRef .tc main_v39)) = (Relu512 (Lin512 (Relu512 (HiddenPre (addf (V (Proc.devRef .tc main_arg0)) (Agg (V (Proc.devRef .tc main_arg0)) (V (Proc.devRef .tc main_arg1)))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8)) (V (Proc.devRef .tc main_arg9)))) :=
  (val7_keep V main_v39 (by decide)).trans (val6_main_v39 V)

set_option maxRecDepth 8192 in
set_option maxHeartbeats 2000000 in
theorem val7_main_v73 (V : Valuation τ sig (Elt Ideal)) : val7 V (no_index (Proc.devRef .tc main_v73)) = (HiddenPre (addf (V (Proc.devRef .tc main_arg0)) (Agg (V (Proc.devRef .tc main_arg0)) (V (Proc.devRef .tc main_arg1)))) (V (Proc.devRef .tc main_arg10)) (V (Proc.devRef .tc main_arg11)) (V (Proc.devRef .tc main_arg12)) (V (Proc.devRef .tc main_arg13)) (V (Proc.devRef .tc main_arg14)) (V (Proc.devRef .tc main_arg15))) := by
  unfold val7
  simp only [w7]
  after_results_simp
  all_goals (try simp only [val6_arg V main_arg0 (by decide), val6_main_v53 V, val6_arg V main_arg10 (by decide), val6_arg V main_arg11 (by decide), val6_arg V main_arg14 (by decide), val6_arg V main_arg15 (by decide), val6_arg V main_arg12 (by decide), val6_arg V main_arg13 (by decide)])
  all_goals (try rw [val6_main_v53 V])
  all_goals (first | done | rfl)

theorem val8_main_v39 (V : Valuation τ sig (Elt Ideal)) : val8 V (no_index (Proc.devRef .tc main_v39)) = (Relu512 (Lin512 (Relu512 (HiddenPre (addf (V (Proc.devRef .tc main_arg0)) (Agg (V (Proc.devRef .tc main_arg0)) (V (Proc.devRef .tc main_arg1)))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8)) (V (Proc.devRef .tc main_arg9)))) :=
  (val8_keep V main_v39 (by decide)).trans (val7_main_v39 V)

set_option maxRecDepth 8192 in
set_option maxHeartbeats 2000000 in
theorem val8_main_v74 (V : Valuation τ sig (Elt Ideal)) : val8 V (no_index (Proc.devRef .tc main_v74)) = (Relu512 (HiddenPre (addf (V (Proc.devRef .tc main_arg0)) (Agg (V (Proc.devRef .tc main_arg0)) (V (Proc.devRef .tc main_arg1)))) (V (Proc.devRef .tc main_arg10)) (V (Proc.devRef .tc main_arg11)) (V (Proc.devRef .tc main_arg12)) (V (Proc.devRef .tc main_arg13)) (V (Proc.devRef .tc main_arg14)) (V (Proc.devRef .tc main_arg15)))) := by
  unfold val8
  simp only [w8]
  after_results_simp
  all_goals (try simp only [val7_main_v73 V])
  all_goals (try rw [val7_main_v73 V])
  all_goals (first | done | rfl)

theorem val9_main_v39 (V : Valuation τ sig (Elt Ideal)) : val9 V (no_index (Proc.devRef .tc main_v39)) = (Relu512 (Lin512 (Relu512 (HiddenPre (addf (V (Proc.devRef .tc main_arg0)) (Agg (V (Proc.devRef .tc main_arg0)) (V (Proc.devRef .tc main_arg1)))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8)) (V (Proc.devRef .tc main_arg9)))) :=
  (val9_keep V main_v39 (by decide)).trans (val8_main_v39 V)

set_option maxRecDepth 8192 in
set_option maxHeartbeats 2000000 in
theorem val9_main_v78 (V : Valuation τ sig (Elt Ideal)) : val9 V (no_index (Proc.devRef .tc main_v78)) = (Lin512 (Relu512 (HiddenPre (addf (V (Proc.devRef .tc main_arg0)) (Agg (V (Proc.devRef .tc main_arg0)) (V (Proc.devRef .tc main_arg1)))) (V (Proc.devRef .tc main_arg10)) (V (Proc.devRef .tc main_arg11)) (V (Proc.devRef .tc main_arg12)) (V (Proc.devRef .tc main_arg13)) (V (Proc.devRef .tc main_arg14)) (V (Proc.devRef .tc main_arg15)))) (V (Proc.devRef .tc main_arg16)) (V (Proc.devRef .tc main_arg17))) := by
  unfold val9
  simp only [w9]
  after_results_simp
  all_goals (try simp only [val8_main_v74 V, val8_arg V main_arg16 (by decide), val8_arg V main_arg17 (by decide)])
  all_goals (try rw [val8_main_v74 V])
  all_goals (first | done | rfl)

theorem val10_main_v39 (V : Valuation τ sig (Elt Ideal)) : val10 V (no_index (Proc.devRef .tc main_v39)) = (Relu512 (Lin512 (Relu512 (HiddenPre (addf (V (Proc.devRef .tc main_arg0)) (Agg (V (Proc.devRef .tc main_arg0)) (V (Proc.devRef .tc main_arg1)))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8)) (V (Proc.devRef .tc main_arg9)))) :=
  (val10_keep V main_v39 (by decide)).trans (val9_main_v39 V)

set_option maxRecDepth 8192 in
set_option maxHeartbeats 2000000 in
theorem val10_main_v79 (V : Valuation τ sig (Elt Ideal)) : val10 V (no_index (Proc.devRef .tc main_v79)) = (Relu512 (Lin512 (Relu512 (HiddenPre (addf (V (Proc.devRef .tc main_arg0)) (Agg (V (Proc.devRef .tc main_arg0)) (V (Proc.devRef .tc main_arg1)))) (V (Proc.devRef .tc main_arg10)) (V (Proc.devRef .tc main_arg11)) (V (Proc.devRef .tc main_arg12)) (V (Proc.devRef .tc main_arg13)) (V (Proc.devRef .tc main_arg14)) (V (Proc.devRef .tc main_arg15)))) (V (Proc.devRef .tc main_arg16)) (V (Proc.devRef .tc main_arg17)))) := by
  unfold val10
  simp only [w10]
  after_results_simp
  all_goals (try simp only [val9_main_v78 V])
  all_goals (try rw [val9_main_v78 V])
  all_goals (first | done | rfl)

set_option maxRecDepth 8192 in
set_option maxHeartbeats 2000000 in
theorem val11_main_v84 (V : Valuation τ sig (Elt Ideal)) : val11 V (no_index (Proc.devRef .tc main_v84)) = (Fc (Concat (Relu512 (Lin512 (Relu512 (HiddenPre (addf (V (Proc.devRef .tc main_arg0)) (Agg (V (Proc.devRef .tc main_arg0)) (V (Proc.devRef .tc main_arg1)))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8)) (V (Proc.devRef .tc main_arg9)))) (Relu512 (Lin512 (Relu512 (HiddenPre (addf (V (Proc.devRef .tc main_arg0)) (Agg (V (Proc.devRef .tc main_arg0)) (V (Proc.devRef .tc main_arg1)))) (V (Proc.devRef .tc main_arg10)) (V (Proc.devRef .tc main_arg11)) (V (Proc.devRef .tc main_arg12)) (V (Proc.devRef .tc main_arg13)) (V (Proc.devRef .tc main_arg14)) (V (Proc.devRef .tc main_arg15)))) (V (Proc.devRef .tc main_arg16)) (V (Proc.devRef .tc main_arg17))))) (V (Proc.devRef .tc main_arg18)) (V (Proc.devRef .tc main_arg19))) := by
  unfold val11
  simp only [w11]
  after_results_simp
  all_goals (try simp only [val10_main_v39 V, val10_main_v79 V, val10_arg V main_arg18 (by decide), val10_arg V main_arg19 (by decide)])
  all_goals (try rw [val10_main_v39 V])
  all_goals (try rw [val10_main_v79 V])
  all_goals (first | done | rfl)

set_option maxRecDepth 8192 in
set_option maxHeartbeats 2000000 in
theorem val11_main_cst_6 (V : Valuation τ sig (Elt Ideal)) : val11 V (no_index (Proc.devRef .tc main_cst_6)) = (constant (F := Ideal) S_ .f32 0x3C23D70A#32) := by
  unfold val11
  simp only [w11]
  after_results_simp
  all_goals (try simp only [val10_main_v39 V, val10_main_v79 V, val10_arg V main_arg18 (by decide), val10_arg V main_arg19 (by decide)])
  all_goals (try rw [val10_main_v39 V])
  all_goals (try rw [val10_main_v79 V])
  all_goals (first | done | rfl)

set_option maxRecDepth 8192 in
set_option maxHeartbeats 2000000 in
theorem val12_main_v85 (V : Valuation τ sig (Elt Ideal)) : val12 V (no_index (Proc.devRef .tc main_v85)) = (Leaky (Fc (Concat (Relu512 (Lin512 (Relu512 (HiddenPre (addf (V (Proc.devRef .tc main_arg0)) (Agg (V (Proc.devRef .tc main_arg0)) (V (Proc.devRef .tc main_arg1)))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8)) (V (Proc.devRef .tc main_arg9)))) (Relu512 (Lin512 (Relu512 (HiddenPre (addf (V (Proc.devRef .tc main_arg0)) (Agg (V (Proc.devRef .tc main_arg0)) (V (Proc.devRef .tc main_arg1)))) (V (Proc.devRef .tc main_arg10)) (V (Proc.devRef .tc main_arg11)) (V (Proc.devRef .tc main_arg12)) (V (Proc.devRef .tc main_arg13)) (V (Proc.devRef .tc main_arg14)) (V (Proc.devRef .tc main_arg15)))) (V (Proc.devRef .tc main_arg16)) (V (Proc.devRef .tc main_arg17))))) (V (Proc.devRef .tc main_arg18)) (V (Proc.devRef .tc main_arg19)))) := by
  unfold val12
  simp only [w12]
  after_results_simp
  all_goals (try simp only [val11_main_v84 V, val11_main_cst_6 V])
  all_goals (try rw [val11_main_v84 V])
  all_goals (try rw [val11_main_cst_6 V])
  all_goals (first | done | rfl)

set_option maxRecDepth 8192 in
set_option maxHeartbeats 2000000 in
theorem val13_main_v103 (V : Valuation τ sig (Elt Ideal)) : val13 V (no_index (Proc.devRef .tc main_v103)) = (Sigmoid (LinOut (Lin2 (Lin1 (Leaky (Fc (Concat (Relu512 (Lin512 (Relu512 (HiddenPre (addf (V (Proc.devRef .tc main_arg0)) (Agg (V (Proc.devRef .tc main_arg0)) (V (Proc.devRef .tc main_arg1)))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8)) (V (Proc.devRef .tc main_arg9)))) (Relu512 (Lin512 (Relu512 (HiddenPre (addf (V (Proc.devRef .tc main_arg0)) (Agg (V (Proc.devRef .tc main_arg0)) (V (Proc.devRef .tc main_arg1)))) (V (Proc.devRef .tc main_arg10)) (V (Proc.devRef .tc main_arg11)) (V (Proc.devRef .tc main_arg12)) (V (Proc.devRef .tc main_arg13)) (V (Proc.devRef .tc main_arg14)) (V (Proc.devRef .tc main_arg15)))) (V (Proc.devRef .tc main_arg16)) (V (Proc.devRef .tc main_arg17))))) (V (Proc.devRef .tc main_arg18)) (V (Proc.devRef .tc main_arg19)))) (V (Proc.devRef .tc main_arg20)) (V (Proc.devRef .tc main_arg21))) (V (Proc.devRef .tc main_arg22)) (V (Proc.devRef .tc main_arg23))) (V (Proc.devRef .tc main_arg24)) (V (Proc.devRef .tc main_arg25)))) := by
  unfold val13
  simp only [w13]
  after_results_simp
  all_goals (try simp only [val12_main_v85 V, val12_arg V main_arg20 (by decide), val12_arg V main_arg21 (by decide), val12_arg V main_arg22 (by decide), val12_arg V main_arg23 (by decide), val12_arg V main_arg24 (by decide), val12_arg V main_arg25 (by decide)])
  all_goals (try rw [val12_main_v85 V])
  all_goals (first | done | rfl)

/-! ## The run -/

/-- The result buffer after the line, as `RefOut` of the launch contents of the 26 arguments. -/
theorem out_eq (V : Valuation τ sig (Elt Ideal)) :
    after (ops (F := Ideal)) V (Proc.devRef .tc main_v103) = RefOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  rw [after_ops]
  unfold RefOut Branch
  exact val13_main_v103 V

/-- An argument's buffer after the line: its launch contents. -/
theorem arg_eq (V : Valuation τ sig (Elt Ideal)) (r : Ref sig .tc) (h : r ∉ allW) :
    after (ops (F := Ideal)) V (Proc.devRef .tc r) = V (Proc.devRef .tc r) := by
  rw [after_ops]
  exact val13_arg V r h

/-- On the device, at the extended reals, from any memory with zero counters: every weakly fair execution of @main
    terminates with the result buffer at `RefOut` of the arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v103) = RefOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v103).trans (out_eq (launchContents m c)),
      (h c main_arg0).trans (arg_eq (launchContents m c) main_arg0 (by decide)),
      (h c main_arg1).trans (arg_eq (launchContents m c) main_arg1 (by decide)),
      (h c main_arg2).trans (arg_eq (launchContents m c) main_arg2 (by decide)),
      (h c main_arg3).trans (arg_eq (launchContents m c) main_arg3 (by decide)),
      (h c main_arg4).trans (arg_eq (launchContents m c) main_arg4 (by decide)),
      (h c main_arg5).trans (arg_eq (launchContents m c) main_arg5 (by decide)),
      (h c main_arg6).trans (arg_eq (launchContents m c) main_arg6 (by decide)),
      (h c main_arg7).trans (arg_eq (launchContents m c) main_arg7 (by decide)),
      (h c main_arg8).trans (arg_eq (launchContents m c) main_arg8 (by decide)),
      (h c main_arg9).trans (arg_eq (launchContents m c) main_arg9 (by decide)),
      (h c main_arg10).trans (arg_eq (launchContents m c) main_arg10 (by decide)),
      (h c main_arg11).trans (arg_eq (launchContents m c) main_arg11 (by decide)),
      (h c main_arg12).trans (arg_eq (launchContents m c) main_arg12 (by decide)),
      (h c main_arg13).trans (arg_eq (launchContents m c) main_arg13 (by decide)),
      (h c main_arg14).trans (arg_eq (launchContents m c) main_arg14 (by decide)),
      (h c main_arg15).trans (arg_eq (launchContents m c) main_arg15 (by decide)),
      (h c main_arg16).trans (arg_eq (launchContents m c) main_arg16 (by decide)),
      (h c main_arg17).trans (arg_eq (launchContents m c) main_arg17 (by decide)),
      (h c main_arg18).trans (arg_eq (launchContents m c) main_arg18 (by decide)),
      (h c main_arg19).trans (arg_eq (launchContents m c) main_arg19 (by decide)),
      (h c main_arg20).trans (arg_eq (launchContents m c) main_arg20 (by decide)),
      (h c main_arg21).trans (arg_eq (launchContents m c) main_arg21 (by decide)),
      (h c main_arg22).trans (arg_eq (launchContents m c) main_arg22 (by decide)),
      (h c main_arg23).trans (arg_eq (launchContents m c) main_arg23 (by decide)),
      (h c main_arg24).trans (arg_eq (launchContents m c) main_arg24 (by decide)),
      (h c main_arg25).trans (arg_eq (launchContents m c) main_arg25 (by decide))⟩)
    (run_all m ρ)

end Cert.ReferenceIdeal.RefValue

end
-- ==== Proof.LibColRow.lean ====
/-
  A vector viewed as a one-column or a one-row matrix, spelt two ways.

  A kernel's wrapper reshapes an `[a]` vector to an `[a, 1]` column (or a `[b]` vector to a `[1, b]` row) before it
  hands it to a kernel; a jnp reference that writes `v[:, None]` or adds a bias row broadcasts the vector in
  dimensions, along axis 0 (or axis 1). Both are the same array: entry `(p, 0)` of the column is `v p`, entry `(0, q)`
  of the row is `v q`. Also here: a column broadcast in dimensions along every row's entries, and a row along every
  row, read at an index written by coordinates (the host's companions of the kernel-side broadcasts of a column and of
  a row).
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` vector broadcast in dimensions along axis 0 of `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A `[b]` vector broadcast in dimensions along axis 1 of `[1, b]` reads, at `(u, q)`, the vector at `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- The column of a vector: the cast to `[a, 1]` is the broadcast in dimensions along axis 0. -/
theorem shapeCast_col_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext i
  obtain ⟨p, u, rfl⟩ : ∃ (p : Fin a) (u : Fin 1), i = ix2 p u := ⟨i 0, i 1, eq_ix2 i⟩
  rw [broadcastInDim_a_a1_apply]
  refine shapeCast_apply x hc _ _ ?_
  have hu : u.val = 0 := by omega
  rw [Shape.rowMajor_val_two, Shape.rowMajor_val_one]
  show p.val = p.val * 1 + u.val
  rw [hu, Nat.mul_one, Nat.add_zero]

/-- The row of a vector: the cast to `[1, b]` is the broadcast in dimensions along axis 1. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext i
  obtain ⟨u, q, rfl⟩ : ∃ (u : Fin 1) (q : Fin b), i = ix2 u q := ⟨i 0, i 1, eq_ix2 i⟩
  rw [broadcastInDim_b_1b_apply, shapeCast_a_1a_apply]

/-- An `[a, 1]` column broadcast in dimensions to `[a, b]` reads, at `(p, q)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast in dimensions to `[a, b]` reads, at `(p, q)`, the row's entry of column `q`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

end Idealize.ShloMosaic.ValueIdx
-- ==== Proof.RefValue.lean ====
/-
  The reference's result entry by entry: each stage read at an index (r, q) as plain arithmetic on the extended
  reals, and the whole as the network of the specification on 60000 rows.
-/
import proofs.«127801_j7292854468800_2_alg».proof.Proof.RefStages
import proofs.«127801_j7292854468800_2_alg».proof.Proof.Spec
import proofs.«127801_j7292854468800_2_alg».proof.Proof.LibColRow

noncomputable section

namespace Cert.ReferenceIdeal.RefValue

open Cert.ReferenceIdeal Cert.ReferenceIdeal.Gen Idealize.ShloMosaic Idealize.ShloMosaic.ValueIdx Cert.Dense Cert.GinSpec

/-! ## Broadcasts at an index -/

/-- A vector broadcast to a row and the row to every row of an [a, b] array reads, at (p, q), the vector at q: the
    entry q of the vector as a [1, b] row. -/
theorem rows_apply {a b : ℕ} (v : (⟨1, ![b]⟩ : Shape).Idx → EReal)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 v) (ix2 p q) = row v (ix2 (0 : Fin 1) q) := by
  rw [broadcastInDim_1b_ab_apply, broadcastInDim_b_1b_apply]
  rfl

/-- A scalar constant broadcast to any shape reads, everywhere, the extended real its word encodes. -/
theorem splat_apply {S : Shape} (h : S_.BroadcastsInDim S (![] : Fin 0 → Fin S.rank)) (w : BitVec 32) (j : S.Idx) :
    broadcastInDim S ![] h (constant (F := Ideal) S_ .f32 w) j = Ideal.ofBits .f32 w := rfl

/-! ## The dimension records' coordinates

  Each of the six products contracts the left operand's second axis with the right operand's first: at result index
  i and contraction index k the left operand is read at (i 0, k) and the right at (k, i 1). -/

theorem d128_rank : (dot_S60000x128_S128x512_S60000x512_1_0_0_1_n_n).contr.rank = 1 := by simp [DotDims.contr, dot_S60000x128_S128x512_S60000x512_1_0_0_1_n_n]
theorem d128_size : (dot_S60000x128_S128x512_S60000x512_1_0_0_1_n_n).contr.size ⟨0, by rw [d128_rank]; exact Nat.one_pos⟩ = 128 := by
  simp [DotDims.contr, dot_S60000x128_S128x512_S60000x512_1_0_0_1_n_n, Shape.ofList]
theorem d128_l0 (i : S60000x512.Idx) (k : (dot_S60000x128_S128x512_S60000x512_1_0_0_1_n_n).contr.Idx) : ((dot_S60000x128_S128x512_S60000x512_1_0_0_1_n_n).lhsIdx i k 0).val = (i 0).val := by
  simp [DotDims.lhsIdx, dot_S60000x128_S128x512_S60000x512_1_0_0_1_n_n]; rfl
theorem d128_l1 (i : S60000x512.Idx) (k : (dot_S60000x128_S128x512_S60000x512_1_0_0_1_n_n).contr.Idx) :
    ((dot_S60000x128_S128x512_S60000x512_1_0_0_1_n_n).lhsIdx i k 1).val = (k ⟨0, by rw [d128_rank]; exact Nat.one_pos⟩).val := by
  simp [DotDims.lhsIdx, dot_S60000x128_S128x512_S60000x512_1_0_0_1_n_n]; rfl
theorem d128_r0 (i : S60000x512.Idx) (k : (dot_S60000x128_S128x512_S60000x512_1_0_0_1_n_n).contr.Idx) :
    ((dot_S60000x128_S128x512_S60000x512_1_0_0_1_n_n).rhsIdx i k 0).val = (k ⟨0, by rw [d128_rank]; exact Nat.one_pos⟩).val := by
  simp [DotDims.rhsIdx, dot_S60000x128_S128x512_S60000x512_1_0_0_1_n_n]; rfl
theorem d128_r1 (i : S60000x512.Idx) (k : (dot_S60000x128_S128x512_S60000x512_1_0_0_1_n_n).contr.Idx) : ((dot_S60000x128_S128x512_S60000x512_1_0_0_1_n_n).rhsIdx i k 1).val = (i 1).val := by
  simp [DotDims.rhsIdx, dot_S60000x128_S128x512_S60000x512_1_0_0_1_n_n]; rfl

/-- The host's product over this record, at an index, is the textbook sum. -/
theorem d128_apply (X : Vf S60000x128) (W : Vf S128x512) (j : S60000x512.Idx) :
    Host.dotGeneral (F := Ideal) dot_S60000x128_S128x512_S60000x512_1_0_0_1_n_n none X W j = mm (R := 60000) (K := 128) (C := 512) X W j :=
  dotGeneral_eq (R := 60000) (K := 128) (C := 512) dot_S60000x128_S128x512_S60000x512_1_0_0_1_n_n d128_rank d128_size d128_l0 d128_l1 d128_r0 d128_r1 none .single X W j

theorem d512_rank : (dot_S60000x512_S512x512_S60000x512_1_0_0_1_n_n).contr.rank = 1 := by simp [DotDims.contr, dot_S60000x512_S512x512_S60000x512_1_0_0_1_n_n]
theorem d512_size : (dot_S60000x512_S512x512_S60000x512_1_0_0_1_n_n).contr.size ⟨0, by rw [d512_rank]; exact Nat.one_pos⟩ = 512 := by
  simp [DotDims.contr, dot_S60000x512_S512x512_S60000x512_1_0_0_1_n_n, Shape.ofList]
theorem d512_l0 (i : S60000x512.Idx) (k : (dot_S60000x512_S512x512_S60000x512_1_0_0_1_n_n).contr.Idx) : ((dot_S60000x512_S512x512_S60000x512_1_0_0_1_n_n).lhsIdx i k 0).val = (i 0).val := by
  simp [DotDims.lhsIdx, dot_S60000x512_S512x512_S60000x512_1_0_0_1_n_n]; rfl
theorem d512_l1 (i : S60000x512.Idx) (k : (dot_S60000x512_S512x512_S60000x512_1_0_0_1_n_n).contr.Idx) :
    ((dot_S60000x512_S512x512_S60000x512_1_0_0_1_n_n).lhsIdx i k 1).val = (k ⟨0, by rw [d512_rank]; exact Nat.one_pos⟩).val := by
  simp [DotDims.lhsIdx, dot_S60000x512_S512x512_S60000x512_1_0_0_1_n_n]; rfl
theorem d512_r0 (i : S60000x512.Idx) (k : (dot_S60000x512_S512x512_S60000x512_1_0_0_1_n_n).contr.Idx) :
    ((dot_S60000x512_S512x512_S60000x512_1_0_0_1_n_n).rhsIdx i k 0).val = (k ⟨0, by rw [d512_rank]; exact Nat.one_pos⟩).val := by
  simp [DotDims.rhsIdx, dot_S60000x512_S512x512_S60000x512_1_0_0_1_n_n]; rfl
theorem d512_r1 (i : S60000x512.Idx) (k : (dot_S60000x512_S512x512_S60000x512_1_0_0_1_n_n).contr.Idx) : ((dot_S60000x512_S512x512_S60000x512_1_0_0_1_n_n).rhsIdx i k 1).val = (i 1).val := by
  simp [DotDims.rhsIdx, dot_S60000x512_S512x512_S60000x512_1_0_0_1_n_n]; rfl

/-- The host's product over this record, at an index, is the textbook sum. -/
theorem d512_apply (X : Vf S60000x512) (W : Vf S512x512) (j : S60000x512.Idx) :
    Host.dotGeneral (F := Ideal) dot_S60000x512_S512x512_S60000x512_1_0_0_1_n_n none X W j = mm (R := 60000) (K := 512) (C := 512) X W j :=
  dotGeneral_eq (R := 60000) (K := 512) (C := 512) dot_S60000x512_S512x512_S60000x512_1_0_0_1_n_n d512_rank d512_size d512_l0 d512_l1 d512_r0 d512_r1 none .single X W j

theorem dfc_rank : (dot_S60000x1024_S1024x2048_S60000x2048_1_0_0_1_n_n).contr.rank = 1 := by simp [DotDims.contr, dot_S60000x1024_S1024x2048_S60000x2048_1_0_0_1_n_n]
theorem dfc_size : (dot_S60000x1024_S1024x2048_S60000x2048_1_0_0_1_n_n).contr.size ⟨0, by rw [dfc_rank]; exact Nat.one_pos⟩ = 1024 := by
  simp [DotDims.contr, dot_S60000x1024_S1024x2048_S60000x2048_1_0_0_1_n_n, Shape.ofList]
theorem dfc_l0 (i : S60000x2048.Idx) (k : (dot_S60000x1024_S1024x2048_S60000x2048_1_0_0_1_n_n).contr.Idx) : ((dot_S60000x1024_S1024x2048_S60000x2048_1_0_0_1_n_n).lhsIdx i k 0).val = (i 0).val := by
  simp [DotDims.lhsIdx, dot_S60000x1024_S1024x2048_S60000x2048_1_0_0_1_n_n]; rfl
theorem dfc_l1 (i : S60000x2048.Idx) (k : (dot_S60000x1024_S1024x2048_S60000x2048_1_0_0_1_n_n).contr.Idx) :
    ((dot_S60000x1024_S1024x2048_S60000x2048_1_0_0_1_n_n).lhsIdx i k 1).val = (k ⟨0, by rw [dfc_rank]; exact Nat.one_pos⟩).val := by
  simp [DotDims.lhsIdx, dot_S60000x1024_S1024x2048_S60000x2048_1_0_0_1_n_n]; rfl
theorem dfc_r0 (i : S60000x2048.Idx) (k : (dot_S60000x1024_S1024x2048_S60000x2048_1_0_0_1_n_n).contr.Idx) :
    ((dot_S60000x1024_S1024x2048_S60000x2048_1_0_0_1_n_n).rhsIdx i k 0).val = (k ⟨0, by rw [dfc_rank]; exact Nat.one_pos⟩).val := by
  simp [DotDims.rhsIdx, dot_S60000x1024_S1024x2048_S60000x2048_1_0_0_1_n_n]; rfl
theorem dfc_r1 (i : S60000x2048.Idx) (k : (dot_S60000x1024_S1024x2048_S60000x2048_1_0_0_1_n_n).contr.Idx) : ((dot_S60000x1024_S1024x2048_S60000x2048_1_0_0_1_n_n).rhsIdx i k 1).val = (i 1).val := by
  simp [DotDims.rhsIdx, dot_S60000x1024_S1024x2048_S60000x2048_1_0_0_1_n_n]; rfl

/-- The host's product over this record, at an index, is the textbook sum. -/
theorem dfc_apply (X : Vf S60000x1024) (W : Vf S1024x2048) (j : S60000x2048.Idx) :
    Host.dotGeneral (F := Ideal) dot_S60000x1024_S1024x2048_S60000x2048_1_0_0_1_n_n none X W j = mm (R := 60000) (K := 1024) (C := 2048) X W j :=
  dotGeneral_eq (R := 60000) (K := 1024) (C := 2048) dot_S60000x1024_S1024x2048_S60000x2048_1_0_0_1_n_n dfc_rank dfc_size dfc_l0 dfc_l1 dfc_r0 dfc_r1 none .single X W j

theorem dl1_rank : (dot_S60000x2048_S2048x4096_S60000x4096_1_0_0_1_n_n).contr.rank = 1 := by simp [DotDims.contr, dot_S60000x2048_S2048x4096_S60000x4096_1_0_0_1_n_n]
theorem dl1_size : (dot_S60000x2048_S2048x4096_S60000x4096_1_0_0_1_n_n).contr.size ⟨0, by rw [dl1_rank]; exact Nat.one_pos⟩ = 2048 := by
  simp [DotDims.contr, dot_S60000x2048_S2048x4096_S60000x4096_1_0_0_1_n_n, Shape.ofList]
theorem dl1_l0 (i : S60000x4096.Idx) (k : (dot_S60000x2048_S2048x4096_S60000x4096_1_0_0_1_n_n).contr.Idx) : ((dot_S60000x2048_S2048x4096_S60000x4096_1_0_0_1_n_n).lhsIdx i k 0).val = (i 0).val := by
  simp [DotDims.lhsIdx, dot_S60000x2048_S2048x4096_S60000x4096_1_0_0_1_n_n]; rfl
theorem dl1_l1 (i : S60000x4096.Idx) (k : (dot_S60000x2048_S2048x4096_S60000x4096_1_0_0_1_n_n).contr.Idx) :
    ((dot_S60000x2048_S2048x4096_S60000x4096_1_0_0_1_n_n).lhsIdx i k 1).val = (k ⟨0, by rw [dl1_rank]; exact Nat.one_pos⟩).val := by
  simp [DotDims.lhsIdx, dot_S60000x2048_S2048x4096_S60000x4096_1_0_0_1_n_n]; rfl
theorem dl1_r0 (i : S60000x4096.Idx) (k : (dot_S60000x2048_S2048x4096_S60000x4096_1_0_0_1_n_n).contr.Idx) :
    ((dot_S60000x2048_S2048x4096_S60000x4096_1_0_0_1_n_n).rhsIdx i k 0).val = (k ⟨0, by rw [dl1_rank]; exact Nat.one_pos⟩).val := by
  simp [DotDims.rhsIdx, dot_S60000x2048_S2048x4096_S60000x4096_1_0_0_1_n_n]; rfl
theorem dl1_r1 (i : S60000x4096.Idx) (k : (dot_S60000x2048_S2048x4096_S60000x4096_1_0_0_1_n_n).contr.Idx) : ((dot_S60000x2048_S2048x4096_S60000x4096_1_0_0_1_n_n).rhsIdx i k 1).val = (i 1).val := by
  simp [DotDims.rhsIdx, dot_S60000x2048_S2048x4096_S60000x4096_1_0_0_1_n_n]; rfl

/-- The host's product over this record, at an index, is the textbook sum. -/
theorem dl1_apply (X : Vf S60000x2048) (W : Vf S2048x4096) (j : S60000x4096.Idx) :
    Host.dotGeneral (F := Ideal) dot_S60000x2048_S2048x4096_S60000x4096_1_0_0_1_n_n none X W j = mm (R := 60000) (K := 2048) (C := 4096) X W j :=
  dotGeneral_eq (R := 60000) (K := 2048) (C := 4096) dot_S60000x2048_S2048x4096_S60000x4096_1_0_0_1_n_n dl1_rank dl1_size dl1_l0 dl1_l1 dl1_r0 dl1_r1 none .single X W j

theorem dl2_rank : (dot_S60000x4096_S4096x2048_S60000x2048_1_0_0_1_n_n).contr.rank = 1 := by simp [DotDims.contr, dot_S60000x4096_S4096x2048_S60000x2048_1_0_0_1_n_n]
theorem dl2_size : (dot_S60000x4096_S4096x2048_S60000x2048_1_0_0_1_n_n).contr.size ⟨0, by rw [dl2_rank]; exact Nat.one_pos⟩ = 4096 := by
  simp [DotDims.contr, dot_S60000x4096_S4096x2048_S60000x2048_1_0_0_1_n_n, Shape.ofList]
theorem dl2_l0 (i : S60000x2048.Idx) (k : (dot_S60000x4096_S4096x2048_S60000x2048_1_0_0_1_n_n).contr.Idx) : ((dot_S60000x4096_S4096x2048_S60000x2048_1_0_0_1_n_n).lhsIdx i k 0).val = (i 0).val := by
  simp [DotDims.lhsIdx, dot_S60000x4096_S4096x2048_S60000x2048_1_0_0_1_n_n]; rfl
theorem dl2_l1 (i : S60000x2048.Idx) (k : (dot_S60000x4096_S4096x2048_S60000x2048_1_0_0_1_n_n).contr.Idx) :
    ((dot_S60000x4096_S4096x2048_S60000x2048_1_0_0_1_n_n).lhsIdx i k 1).val = (k ⟨0, by rw [dl2_rank]; exact Nat.one_pos⟩).val := by
  simp [DotDims.lhsIdx, dot_S60000x4096_S4096x2048_S60000x2048_1_0_0_1_n_n]; rfl
theorem dl2_r0 (i : S60000x2048.Idx) (k : (dot_S60000x4096_S4096x2048_S60000x2048_1_0_0_1_n_n).contr.Idx) :
    ((dot_S60000x4096_S4096x2048_S60000x2048_1_0_0_1_n_n).rhsIdx i k 0).val = (k ⟨0, by rw [dl2_rank]; exact Nat.one_pos⟩).val := by
  simp [DotDims.rhsIdx, dot_S60000x4096_S4096x2048_S60000x2048_1_0_0_1_n_n]; rfl
theorem dl2_r1 (i : S60000x2048.Idx) (k : (dot_S60000x4096_S4096x2048_S60000x2048_1_0_0_1_n_n).contr.Idx) : ((dot_S60000x4096_S4096x2048_S60000x2048_1_0_0_1_n_n).rhsIdx i k 1).val = (i 1).val := by
  simp [DotDims.rhsIdx, dot_S60000x4096_S4096x2048_S60000x2048_1_0_0_1_n_n]; rfl

/-- The host's product over this record, at an index, is the textbook sum. -/
theorem dl2_apply (X : Vf S60000x4096) (W : Vf S4096x2048) (j : S60000x2048.Idx) :
    Host.dotGeneral (F := Ideal) dot_S60000x4096_S4096x2048_S60000x2048_1_0_0_1_n_n none X W j = mm (R := 60000) (K := 4096) (C := 2048) X W j :=
  dotGeneral_eq (R := 60000) (K := 4096) (C := 2048) dot_S60000x4096_S4096x2048_S60000x2048_1_0_0_1_n_n dl2_rank dl2_size dl2_l0 dl2_l1 dl2_r0 dl2_r1 none .single X W j

theorem dout_rank : (dot_S60000x2048_S2048x64_S60000x64_1_0_0_1_n_n).contr.rank = 1 := by simp [DotDims.contr, dot_S60000x2048_S2048x64_S60000x64_1_0_0_1_n_n]
theorem dout_size : (dot_S60000x2048_S2048x64_S60000x64_1_0_0_1_n_n).contr.size ⟨0, by rw [dout_rank]; exact Nat.one_pos⟩ = 2048 := by
  simp [DotDims.contr, dot_S60000x2048_S2048x64_S60000x64_1_0_0_1_n_n, Shape.ofList]
theorem dout_l0 (i : S60000x64.Idx) (k : (dot_S60000x2048_S2048x64_S60000x64_1_0_0_1_n_n).contr.Idx) : ((dot_S60000x2048_S2048x64_S60000x64_1_0_0_1_n_n).lhsIdx i k 0).val = (i 0).val := by
  simp [DotDims.lhsIdx, dot_S60000x2048_S2048x64_S60000x64_1_0_0_1_n_n]; rfl
theorem dout_l1 (i : S60000x64.Idx) (k : (dot_S60000x2048_S2048x64_S60000x64_1_0_0_1_n_n).contr.Idx) :
    ((dot_S60000x2048_S2048x64_S60000x64_1_0_0_1_n_n).lhsIdx i k 1).val = (k ⟨0, by rw [dout_rank]; exact Nat.one_pos⟩).val := by
  simp [DotDims.lhsIdx, dot_S60000x2048_S2048x64_S60000x64_1_0_0_1_n_n]; rfl
theorem dout_r0 (i : S60000x64.Idx) (k : (dot_S60000x2048_S2048x64_S60000x64_1_0_0_1_n_n).contr.Idx) :
    ((dot_S60000x2048_S2048x64_S60000x64_1_0_0_1_n_n).rhsIdx i k 0).val = (k ⟨0, by rw [dout_rank]; exact Nat.one_pos⟩).val := by
  simp [DotDims.rhsIdx, dot_S60000x2048_S2048x64_S60000x64_1_0_0_1_n_n]; rfl
theorem dout_r1 (i : S60000x64.Idx) (k : (dot_S60000x2048_S2048x64_S60000x64_1_0_0_1_n_n).contr.Idx) : ((dot_S60000x2048_S2048x64_S60000x64_1_0_0_1_n_n).rhsIdx i k 1).val = (i 1).val := by
  simp [DotDims.rhsIdx, dot_S60000x2048_S2048x64_S60000x64_1_0_0_1_n_n]; rfl

/-- The host's product over this record, at an index, is the textbook sum. -/
theorem dout_apply (X : Vf S60000x2048) (W : Vf S2048x64) (j : S60000x64.Idx) :
    Host.dotGeneral (F := Ideal) dot_S60000x2048_S2048x64_S60000x64_1_0_0_1_n_n none X W j = mm (R := 60000) (K := 2048) (C := 64) X W j :=
  dotGeneral_eq (R := 60000) (K := 2048) (C := 64) dot_S60000x2048_S2048x64_S60000x64_1_0_0_1_n_n dout_rank dout_size dout_l0 dout_l1 dout_r0 dout_r1 none .single X W j

/-! ## The stages at an index -/

theorem Rows512_apply (b : Vf S512) (r : Fin 60000) (q : Fin 512) : Rows512 b (ix2 r q) = row b (ix2 (0 : Fin 1) q) :=
  rows_apply b _ _ r q
theorem Rows2048_apply (b : Vf S2048) (r : Fin 60000) (q : Fin 2048) : Rows2048 b (ix2 r q) = row b (ix2 (0 : Fin 1) q) :=
  rows_apply b _ _ r q
theorem Rows4096_apply (b : Vf S4096) (r : Fin 60000) (q : Fin 4096) : Rows4096 b (ix2 r q) = row b (ix2 (0 : Fin 1) q) :=
  rows_apply b _ _ r q
theorem Rows64_apply (b : Vf S64) (r : Fin 60000) (q : Fin 64) : Rows64 b (ix2 r q) = row b (ix2 (0 : Fin 1) q) :=
  rows_apply b _ _ r q

/-- The word 0x3F800000 is one. -/
theorem one_word : Ideal.ofBits .f32 0x3F800000#32 = 1 := by
  simp [Ideal.ofBits, Ideal.ieee, -EReal.coe_mul]; norm_num

/-- Lin512: the product plus the bias's rows is the dense layer, entry by entry. -/
theorem Lin512_eq (a : Vf S60000x512) (w : Vf S512x512) (b : Vf S512) : Lin512 a w b = lin (R := 60000) a w (row b) := by
  funext i
  obtain ⟨r, q, rfl⟩ : ∃ (r : Fin 60000) (q : Fin 512), i = ix2 r q := ⟨i 0, i 1, eq_ix2 i⟩
  show Host.dotGeneral (F := Ideal) dot_S60000x512_S512x512_S60000x512_1_0_0_1_n_n none a w (ix2 r q) + Rows512 b (ix2 r q)
    = mm (R := 60000) a w (ix2 r q) + row b (ix2 (0 : Fin 1) q)
  rw [d512_apply, Rows512_apply]

/-- Fc: the product plus the bias's rows is the dense layer, entry by entry. -/
theorem Fc_eq (a : Vf S60000x1024) (w : Vf S1024x2048) (b : Vf S2048) : Fc a w b = lin (R := 60000) a w (row b) := by
  funext i
  obtain ⟨r, q, rfl⟩ : ∃ (r : Fin 60000) (q : Fin 2048), i = ix2 r q := ⟨i 0, i 1, eq_ix2 i⟩
  show Host.dotGeneral (F := Ideal) dot_S60000x1024_S1024x2048_S60000x2048_1_0_0_1_n_n none a w (ix2 r q) + Rows2048 b (ix2 r q)
    = mm (R := 60000) a w (ix2 r q) + row b (ix2 (0 : Fin 1) q)
  rw [dfc_apply, Rows2048_apply]

/-- Lin1: the product plus the bias's rows is the dense layer, entry by entry. -/
theorem Lin1_eq (a : Vf S60000x2048) (w : Vf S2048x4096) (b : Vf S4096) : Lin1 a w b = lin (R := 60000) a w (row b) := by
  funext i
  obtain ⟨r, q, rfl⟩ : ∃ (r : Fin 60000) (q : Fin 4096), i = ix2 r q := ⟨i 0, i 1, eq_ix2 i⟩
  show Host.dotGeneral (F := Ideal) dot_S60000x2048_S2048x4096_S60000x4096_1_0_0_1_n_n none a w (ix2 r q) + Rows4096 b (ix2 r q)
    = mm (R := 60000) a w (ix2 r q) + row b (ix2 (0 : Fin 1) q)
  rw [dl1_apply, Rows4096_apply]

/-- Lin2: the product plus the bias's rows is the dense layer, entry by entry. -/
theorem Lin2_eq (a : Vf S60000x4096) (w : Vf S4096x2048) (b : Vf S2048) : Lin2 a w b = lin (R := 60000) a w (row b) := by
  funext i
  obtain ⟨r, q, rfl⟩ : ∃ (r : Fin 60000) (q : Fin 2048), i = ix2 r q := ⟨i 0, i 1, eq_ix2 i⟩
  show Host.dotGeneral (F := Ideal) dot_S60000x4096_S4096x2048_S60000x2048_1_0_0_1_n_n none a w (ix2 r q) + Rows2048 b (ix2 r q)
    = mm (R := 60000) a w (ix2 r q) + row b (ix2 (0 : Fin 1) q)
  rw [dl2_apply, Rows2048_apply]

/-- LinOut: the product plus the bias's rows is the dense layer, entry by entry. -/
theorem LinOut_eq (a : Vf S60000x2048) (w : Vf S2048x64) (b : Vf S64) : LinOut a w b = lin (R := 60000) a w (row b) := by
  funext i
  obtain ⟨r, q, rfl⟩ : ∃ (r : Fin 60000) (q : Fin 64), i = ix2 r q := ⟨i 0, i 1, eq_ix2 i⟩
  show Host.dotGeneral (F := Ideal) dot_S60000x2048_S2048x64_S60000x64_1_0_0_1_n_n none a w (ix2 r q) + Rows64 b (ix2 r q)
    = mm (R := 60000) a w (ix2 r q) + row b (ix2 (0 : Fin 1) q)
  rw [dout_apply, Rows64_apply]

/-- relu, entry by entry: the maximum with the zero word. -/
theorem Relu512_eq (z : Vf S60000x512) : Relu512 z = fun i => relu (z i) := by
  funext i
  rfl

/-- A branch's first layer before its relu, at (r, q): the batch norm of the dense layer's entry, with the
    statistics' and the scale's and shift's entries q. -/
theorem HiddenPre_apply (h : Vf S60000x128) (w1 : Vf S128x512) (b1 g be mu va : Vf S512) (r : Fin 60000) (q : Fin 512) :
    HiddenPre h w1 b1 g be mu va (ix2 r q)
      = bn (lin (R := 60000) h w1 (row b1) (ix2 r q)) (row mu (ix2 (0 : Fin 1) q)) (row va (ix2 (0 : Fin 1) q))
          (row g (ix2 (0 : Fin 1) q)) (row be (ix2 (0 : Fin 1) q)) := by
  show ((Host.dotGeneral (F := Ideal) dot_S60000x128_S128x512_S60000x512_1_0_0_1_n_n none h w1 (ix2 r q) + Rows512 b1 (ix2 r q) - Rows512 mu (ix2 r q))
      * Rows512 (Host.rsqrt (addf va (broadcastInDim S512 ![] bcast_S_S512 (constant (F := Ideal) S_ .f32 0x3727C5AC#32)))) (ix2 r q))
      * Rows512 g (ix2 r q) + Rows512 be (ix2 r q) = _
  rw [d128_apply]
  simp only [Rows512_apply]
  rfl

/-- A branch's hidden activations are the specification's. -/
theorem Hidden_eq (h : Vf S60000x128) (w1 : Vf S128x512) (b1 g be mu va : Vf S512) (w2 : Vf S512x512) (b2 : Vf S512) :
    Relu512 (HiddenPre h w1 b1 g be mu va)
      = hidden (R := 60000) h ⟨w1, row b1, row g, row be, row mu, row va, w2, row b2⟩ := by
  funext i
  obtain ⟨r, q, rfl⟩ : ∃ (r : Fin 60000) (q : Fin 512), i = ix2 r q := ⟨i 0, i 1, eq_ix2 i⟩
  show relu (HiddenPre h w1 b1 g be mu va (ix2 r q)) = _
  rw [HiddenPre_apply]
  rfl

/-- A branch is the specification's. -/
theorem Branch_eq (h : Vf S60000x128) (w1 : Vf S128x512) (b1 g be mu va : Vf S512) (w2 : Vf S512x512) (b2 : Vf S512) :
    Branch h w1 b1 g be mu va w2 b2
      = branch (R := 60000) h ⟨w1, row b1, row g, row be, row mu, row va, w2, row b2⟩ := by
  unfold Branch
  rw [Hidden_eq h w1 b1 g be mu va w2 b2, Lin512_eq, Relu512_eq]
  rfl

/-- The concatenation along the columns is the two matrices side by side. -/
theorem Concat_eq (A B : Vf S60000x512) : Concat A B = beside (R := 60000) A B := by
  funext i
  obtain ⟨r, q, rfl⟩ : ∃ (r : Fin 60000) (q : Fin 1024), i = ix2 r q := ⟨i 0, i 1, eq_ix2 i⟩
  unfold Concat beside
  by_cases hq : q.val < 512
  · rw [dif_pos (show ((ix2 r q : (⟨2, ![60000, 1024]⟩ : Shape).Idx) 1).val < 512 from hq)]
    exact concatenate_pair_apply_left (1 : Fin 2) A B _ (ix2 r q) rfl (ix2 r (⟨q.val, hq⟩ : Fin 512))
      (fun b => by match b with | ⟨0, _⟩ => rfl | ⟨1, _⟩ => rfl)
  · rw [dif_neg (show ¬ ((ix2 r q : (⟨2, ![60000, 1024]⟩ : Shape).Idx) 1).val < 512 from hq)]
    exact concatenate_pair_apply_right (1 : Fin 2) A B _ (ix2 r q) rfl rfl
      (ix2 r (⟨q.val - 512, by have := q.isLt; omega⟩ : Fin 512))
      (fun b hb => by match b with | ⟨0, _⟩ => rfl | ⟨1, _⟩ => exact absurd rfl hb)
      (by show q.val - 512 + 512 = q.val; omega)

/-- A select on a decided proposition's bit is the `if`. -/
theorem select_ofBool {α : Type} (p : Prop) [Decidable p] (a b : α) :
    Scalar.select (BitVec.ofBool (decide p)) a b = if p then a else b := by
  by_cases h : p <;> simp [Scalar.select, h]

/-- The reference's leaky relu (where z ≥ 0 take z, elsewhere slope · z) is the specification's (where z > 0
    take z, elsewhere z · slope): at z = 0 both are 0, elsewhere the two conditions agree and the product commutes. -/
theorem leaky_scalar (z : EReal) : Scalar.select (Ideal.cmp .oge z zero) z (slope * z) = leaky z := by
  have h0 : (zero : EReal) = 0 := Ideal.ofBits_zero_f32
  show Scalar.select (BitVec.ofBool (decide (zero ≤ z))) z (slope * z) = Scalar.select (BitVec.ofBool (decide (zero < z))) z (z * slope)
  rw [select_ofBool, select_ofBool, h0]
  by_cases h1 : (0 : EReal) < z
  · rw [if_pos h1, if_pos (le_of_lt h1)]
  · rw [if_neg h1]
    by_cases h2 : (0 : EReal) ≤ z
    · have hz : z = 0 := le_antisymm (not_lt.mp h1) h2
      rw [if_pos h2, hz, zero_mul]
    · rw [if_neg h2, mul_comm]

theorem Leaky_eq (z : Vf S60000x2048) : Leaky z = fun i => leaky (z i) := by
  funext i
  show Scalar.select (Ideal.cmp .oge (z i) zero) (z i) (slope * z i) = leaky (z i)
  exact leaky_scalar (z i)

/-- The reference's sigmoid, 1 / (1 + exp (-z)) with the word of one, is the logistic function. -/
theorem Sigmoid_eq (z : Vf S60000x64) : Sigmoid z = fun i => Ideal.logistic (z i) := by
  funext i
  show Ideal.div (Ideal.ofBits .f32 0x3F800000#32) (Ideal.ofBits .f32 0x3F800000#32 + Ideal.exp (-(z i))) = Ideal.logistic (z i)
  rw [one_word]
  rfl

/-! ## The whole -/

/-- The reference's result is the specification's network on 60000 rows, of the node features, their aggregation,
    and the weights, with every bias and statistic as its [1, C] row. -/
theorem RefOut_eq_net (a0 : Vf S60000x128) (a1 : IVec S2x960000 32) (a2 : Vf S128x512) (a3 a4 a5 a6 a7 : Vf S512) (a8 : Vf S512x512) (a9 : Vf S512)
    (a10 : Vf S128x512) (a11 a12 a13 a14 a15 : Vf S512) (a16 : Vf S512x512) (a17 : Vf S512)
    (a18 : Vf S1024x2048) (a19 : Vf S2048) (a20 : Vf S2048x4096) (a21 : Vf S4096) (a22 : Vf S4096x2048) (a23 : Vf S2048)
    (a24 : Vf S2048x64) (a25 : Vf S64) :
    RefOut a0 a1 a2 a3 a4 a5 a6 a7 a8 a9 a10 a11 a12 a13 a14 a15 a16 a17 a18 a19 a20 a21 a22 a23 a24 a25
      = net (R := 60000) a0 (Agg a0 a1) ⟨a2, row a3, row a4, row a5, row a6, row a7, a8, row a9⟩
          ⟨a10, row a11, row a12, row a13, row a14, row a15, a16, row a17⟩
          a18 (row a19) a20 (row a21) a22 (row a23) a24 (row a25) := by
  have hH : addf a0 (Agg a0 a1) = fun i => a0 i + Agg a0 a1 i := rfl
  unfold RefOut net layer2 layer1 layer0
  rw [Sigmoid_eq, LinOut_eq, Lin2_eq, Lin1_eq, Leaky_eq, Fc_eq, Concat_eq, Branch_eq, Branch_eq, hH]

end Cert.ReferenceIdeal.RefValue

end
-- ==== Proof.RefClaim.lean ====
/-
  The reference's run in the two shapes the certificate's claim uses: the frame (every weakly fair execution
  terminates with the 26 argument arrays unchanged), and the run with the result named as the specification's
  network on 60000 rows of the arguments' launch contents.
-/
import proofs.«127801_j7292854468800_2_alg».proof.Proof.RefRead
import proofs.«127801_j7292854468800_2_alg».proof.Proof.RefValue

noncomputable section

namespace Cert.ReferenceIdeal.RefValue

open Cert.ReferenceIdeal Cert.ReferenceIdeal.Gen Idealize.ShloMosaic Idealize.ShloMosaic.TcCoe Idealize.SL.Sem Cert.Dense Cert.GinSpec

/-- The reference's frame: the run with the result dropped. -/
theorem frame (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => (h c).2) (run m ρ)

/-- The reference's run with its result as the specification's network of the arguments' launch contents: the node
    features, their aggregation, the weights, and every bias and statistic as its row. -/
theorem run_net (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v103)
        = net (R := 60000) (m ((c.tc : Thread nD τ).loc main_arg0)) (Agg (m ((c.tc : Thread nD τ).loc main_arg0)) (m ((c.tc : Thread nD τ).loc main_arg1)))
            ⟨(m ((c.tc : Thread nD τ).loc main_arg2)), row (m ((c.tc : Thread nD τ).loc main_arg3)), row (m ((c.tc : Thread nD τ).loc main_arg4)), row (m ((c.tc : Thread nD τ).loc main_arg5)), row (m ((c.tc : Thread nD τ).loc main_arg6)), row (m ((c.tc : Thread nD τ).loc main_arg7)), (m ((c.tc : Thread nD τ).loc main_arg8)), row (m ((c.tc : Thread nD τ).loc main_arg9))⟩
            ⟨(m ((c.tc : Thread nD τ).loc main_arg10)), row (m ((c.tc : Thread nD τ).loc main_arg11)), row (m ((c.tc : Thread nD τ).loc main_arg12)), row (m ((c.tc : Thread nD τ).loc main_arg13)), row (m ((c.tc : Thread nD τ).loc main_arg14)), row (m ((c.tc : Thread nD τ).loc main_arg15)), (m ((c.tc : Thread nD τ).loc main_arg16)), row (m ((c.tc : Thread nD τ).loc main_arg17))⟩
            (m ((c.tc : Thread nD τ).loc main_arg18)) (row (m ((c.tc : Thread nD τ).loc main_arg19))) (m ((c.tc : Thread nD τ).loc main_arg20)) (row (m ((c.tc : Thread nD τ).loc main_arg21))) (m ((c.tc : Thread nD τ).loc main_arg22)) (row (m ((c.tc : Thread nD τ).loc main_arg23))) (m ((c.tc : Thread nD τ).loc main_arg24)) (row (m ((c.tc : Thread nD τ).loc main_arg25)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c).1.trans (RefOut_eq_net _ _ _ _ _ _ _ _ _ _ _ _ _ _ _ _ _ _ _ _ _ _ _ _ _ _), (h c).2⟩) (run m ρ)

end Cert.ReferenceIdeal.RefValue

end
-- ==== Proof.lean ====
/-
  The certificate of the GIN message-passing network: a kernel program of three tiled pallas_calls (both branches'
  MLPs of x + agg, side by side; the leaky dense layer and the next dense layer; the last two dense layers and the
  sigmoid) against a reference of whole-matrix host operations.

  On the extended reals both compute ONE function of the argument arrays, the network of Proof/Spec.lean:
  a change of float format is the identity, a matrix product into a zero accumulator and the host's dot_general are
  the same sum over the contracted axis, every layer is row-local, so a tile of a layer's result is the layer of the
  tile, and the tiles cover the rows.  The aggregate agg = segment_sum (x[src], dst) is computed by the same host
  operations in both programs and is carried as one function, never opened.  No law that needs finiteness is used,
  so the precondition is never opened.

  The kernel side: each body's stores as a layer of its loads (Body0, Body1, Body2), each region's output array as
  that layer of its input arrays (Region0, Region1, Region2), the host operations between them read back
  (HostReads), the result array read through the three regions (KernelValue) off the program's run with every
  buffer named (KernelRun).  The reference side: its run (RefRun), the line of host operations read back stage by
  stage (RefStages, RefRead), the stages as the network (RefValue, RefClaim).
-/
import proofs.«127801_j7292854468800_2_alg».proof.Defs
import proofs.«127801_j7292854468800_2_alg».proof.Proof.Gen.Kernel
import proofs.«127801_j7292854468800_2_alg».proof.Proof.Gen.Kernel.Skeleton
import proofs.«127801_j7292854468800_2_alg».proof.Proof.Gen.Kernel.Launch
import proofs.«127801_j7292854468800_2_alg».proof.Proof.Gen.Kernel.Points
import proofs.«127801_j7292854468800_2_alg».proof.Proof.Gen.Kernel.Frame
import proofs.«127801_j7292854468800_2_alg».proof.Proof.Gen.KernelIdeal
import proofs.«127801_j7292854468800_2_alg».proof.Proof.Gen.KernelIdeal.Skeleton
import proofs.«127801_j7292854468800_2_alg».proof.Proof.Gen.KernelIdeal.Launch
import proofs.«127801_j7292854468800_2_alg».proof.Proof.Gen.KernelIdeal.Points
import proofs.«127801_j7292854468800_2_alg».proof.Proof.Gen.KernelIdeal.Frame
import proofs.«127801_j7292854468800_2_alg».proof.Proof.Gen.ReferenceIdeal
import proofs.«127801_j7292854468800_2_alg».proof.Proof.Gen.Pre_finite_inputs
import proofs.«127801_j7292854468800_2_alg».proof.Proof.KernelClaim
import proofs.«127801_j7292854468800_2_alg».proof.Proof.RefClaim
import Idealize.ShloMosaic.Adequacy
import Idealize.ShloMosaic.Init

set_option maxRecDepth 16384

noncomputable section

namespace Cert.Proof

open Idealize.ShloMosaic Idealize.ShloMosaic.TcCoe Idealize.SL.Sem

/-- The aggregate is one function in both programs: the same host operations of x and the edge list. -/
theorem agg_eq (x : FVec Ideal Cert.ReferenceIdeal.S60000x128 .f32) (e : IVec Cert.ReferenceIdeal.S2x960000 32) :
    Cert.ReferenceIdeal.RefValue.Agg x e = Cert.KernelIdeal.HostReads.agg x e := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ => Cert.ReferenceIdeal.RefValue.frame m ρ

/-- The ideal pass rewrote nothing. -/
theorem preserves : Cert.preserves_Kernel_KernelIdeal := trivial

/-- Both runs end with the result array at the network of the argument arrays, which agree. -/
theorem algebraic : Cert.algebraic_KernelIdeal_ReferenceIdeal := by
  intro m ρ m' ρ' _ hagree
  refine ⟨fun c => Cert.KernelIdeal.KValue.out m c, Cert.KernelIdeal.KValue.run m ρ, ?_⟩
  refine (θ_run (Cert.ReferenceIdeal.defs (F := Ideal)) _ _).mono (fun r h c => ⟨(h c).1.trans ?_, (h c).2⟩)
    (Cert.ReferenceIdeal.RefValue.run_net m' ρ')
  obtain ⟨h0, h1, h2, h3, h4, h5, h6, h7, h8, h9, h10, h11, h12, h13, h14, h15, h16, h17, h18, h19, h20, h21, h22, h23, h24, h25⟩ := hagree c
  rw [h0, h1, h2, h3, h4, h5, h6, h7, h8, h9, h10, h11, h12, h13, h14, h15, h16, h17, h18, h19, h20, h21, h22, h23, h24, h25, agg_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
